-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x128 : Shape := ⟨3, ![512, 512, 128]⟩
abbrev S512x512 : Shape := ⟨2, ![512, 512]⟩
abbrev S_ : Shape := ⟨0, ![]⟩

class Facts : Prop where
  bcast_S_S512x512x128 : S_.BroadcastsInDim S512x512x128 (![] : Fin 0 → Fin S512x512x128.rank)
  reducesTo_S512x512x128_S_d0_1_2 : S512x512x128.ReducesTo [0, 1, 2] S_
  h_S_ : 0 < S_.numel

variable [Facts]

def fn {F : FTy → Type} [FloatOps F] (main_arg0 : FVec F S512x512x128 .f32) (main_arg1 : IVec S512x512 32) : IVec S_ 1 :=
  let main_v0 : FVec F S512x512x128 .f32 := Host.absf main_arg0
  let main_cst : FVec F S_ .f32 := constant S_ .f32 0x7F800000#32
  let main_v1 : FVec F S512x512x128 .f32 := broadcastInDim S512x512x128 ![] bcast_S_S512x512x128 main_cst
  let main_v2 : IVec S512x512x128 1 := cmpf .olt main_v0 main_v1
  let main_c : IVec S_ 1 := constantI S_ 1 1#1
  let main_v3 : IVec S_ 1 := (fun x v => Host.reduce IntOp.andi x v reducesTo_S512x512x128_S_d0_1_2 h_S_) main_v2 main_c
  main_v3
-- ==== Kernel.lean ====
abbrev S512x512x128 : Shape := ⟨3, ![512, 512, 128]⟩
abbrev S512x512 : Shape := ⟨2, ![512, 512]⟩
abbrev S262144x128 : Shape := ⟨2, ![262144, 128]⟩
abbrev S262144 : Shape := ⟨1, ![262144]⟩
abbrev S_ : Shape := ⟨0, ![]⟩
abbrev S1x128 : Shape := ⟨2, ![1, 128]⟩
abbrev S262145x128 : Shape := ⟨2, ![262145, 128]⟩
abbrev S513 : Shape := ⟨1, ![513]⟩
abbrev S262144x1 : Shape := ⟨2, ![262144, 1]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S4x512x128 : Shape := ⟨3, ![4, 512, 128]⟩
abbrev S4x512x512x128 : Shape := ⟨4, ![4, 512, 512, 128]⟩
abbrev S1x64x512x128 : Shape := ⟨4, ![1, 64, 512, 128]⟩
abbrev S1x1x512x128 : Shape := ⟨4, ![1, 1, 512, 128]⟩

abbrev nBuf : Space → Nat
  | .hbm => 201
  | .vmem => 4
  | .smem => 0
  | _ => 0

abbrev hbmTy0_0 (i : Nat) : BufTy := match i % 128 with
  | 0 => ⟨S512x512x128, .f32⟩
  | 1 => ⟨S512x512, .i32⟩
  | 2 => ⟨S262144x128, .f32⟩
  | 3 => ⟨S262144, .i32⟩
  | 4 => ⟨S_, .f32⟩
  | 5 => ⟨S1x128, .f32⟩
  | 6 => ⟨S262145x128, .f32⟩
  | 7 => ⟨S_, .i32⟩
  | 8 => ⟨S262144, .i32⟩
  | 9 => ⟨S262144, .i1⟩
  | 10 => ⟨S262144, .i32⟩
  | 11 => ⟨S_, .i32⟩
  | 12 => ⟨S_, .i32⟩
  | 13 => ⟨S262144, .i32⟩
  | 14 => ⟨S_, .i32⟩
  | 15 => ⟨S262144, .i32⟩
  | 16 => ⟨S262144, .i32⟩
  | 17 => ⟨S262144, .i32⟩
  | 18 => ⟨S_, .i32⟩
  | 19 => ⟨S_, .i32⟩
  | 20 => ⟨S_, .i32⟩
  | 21 => ⟨S_, .i32⟩
  | 22 => ⟨S262144, .i32⟩
  | 23 => ⟨S262144, .i32⟩
  | 24 => ⟨S_, .i32⟩
  | 25 => ⟨S262144, .i32⟩
  | 26 => ⟨S262144, .i1⟩
  | 27 => ⟨S262144, .i1⟩
  | 28 => ⟨S_, .i32⟩
  | 29 => ⟨S_, .i32⟩
  | 30 => ⟨S262144, .i32⟩
  | 31 => ⟨S262144, .i32⟩
  | 32 => ⟨S262144, .i32⟩
  | 33 => ⟨S_, .i32⟩
  | 34 => ⟨S513, .i32⟩
  | 35 => ⟨S_, .i32⟩
  | 36 => ⟨S262144, .i32⟩
  | 37 => ⟨S262144, .i1⟩
  | 38 => ⟨S_, .i32⟩
  | 39 => ⟨S262144, .i32⟩
  | 40 => ⟨S262144, .i32⟩
  | 41 => ⟨S262144, .i32⟩
  | 42 => ⟨S262144x1, .i32⟩
  | 43 => ⟨S513, .i32⟩
  | 44 => ⟨S512, .i32⟩
  | 45 => ⟨S_, .i32⟩
  | 46 => ⟨S512, .i32⟩
  | 47 => ⟨S512, .i1⟩
  | 48 => ⟨S_, .i32⟩
  | 49 => ⟨S512, .i32⟩
  | 50 => ⟨S512, .i32⟩
  | 51 => ⟨S512, .i32⟩
  | 52 => ⟨S512x1, .i32⟩
  | 53 => ⟨S512x128, .f32⟩
  | 54 => ⟨S_, .i32⟩
  | 55 => ⟨S262144, .i32⟩
  | 56 => ⟨S262144, .i1⟩
  | 57 => ⟨S262144, .i32⟩
  | 58 => ⟨S_, .i32⟩
  | 59 => ⟨S_, .i32⟩
  | 60 => ⟨S262144, .i32⟩
  | 61 => ⟨S_, .i32⟩
  | 62 => ⟨S262144, .i32⟩
  | 63 => ⟨S262144, .i32⟩
  | 64 => ⟨S262144, .i32⟩
  | 65 => ⟨S_, .i32⟩
  | 66 => ⟨S_, .i32⟩
  | 67 => ⟨S_, .i32⟩
  | 68 => ⟨S_, .i32⟩
  | 69 => ⟨S262144, .i32⟩
  | 70 => ⟨S262144, .i32⟩
  | 71 => ⟨S_, .i32⟩
  | 72 => ⟨S262144, .i32⟩
  | 73 => ⟨S262144, .i1⟩
  | 74 => ⟨S262144, .i1⟩
  | 75 => ⟨S_, .i32⟩
  | 76 => ⟨S_, .i32⟩
  | 77 => ⟨S262144, .i32⟩
  | 78 => ⟨S262144, .i32⟩
  | 79 => ⟨S262144, .i32⟩
  | 80 => ⟨S_, .i32⟩
  | 81 => ⟨S513, .i32⟩
  | 82 => ⟨S_, .i32⟩
  | 83 => ⟨S262144, .i32⟩
  | 84 => ⟨S262144, .i1⟩
  | 85 => ⟨S_, .i32⟩
  | 86 => ⟨S262144, .i32⟩
  | 87 => ⟨S262144, .i32⟩
  | 88 => ⟨S262144, .i32⟩
  | 89 => ⟨S262144x1, .i32⟩
  | 90 => ⟨S513, .i32⟩
  | 91 => ⟨S512, .i32⟩
  | 92 => ⟨S_, .i32⟩
  | 93 => ⟨S512, .i32⟩
  | 94 => ⟨S512, .i1⟩
  | 95 => ⟨S_, .i32⟩
  | 96 => ⟨S512, .i32⟩
  | 97 => ⟨S512, .i32⟩
  | 98 => ⟨S512, .i32⟩
  | 99 => ⟨S512x1, .i32⟩
  | 100 => ⟨S512x128, .f32⟩
  | 101 => ⟨S_, .i32⟩
  | 102 => ⟨S262144, .i32⟩
  | 103 => ⟨S262144, .i1⟩
  | 104 => ⟨S262144, .i32⟩
  | 105 => ⟨S_, .i32⟩
  | 106 => ⟨S_, .i32⟩
  | 107 => ⟨S262144, .i32⟩
  | 108 => ⟨S_, .i32⟩
  | 109 => ⟨S262144, .i32⟩
  | 110 => ⟨S262144, .i32⟩
  | 111 => ⟨S262144, .i32⟩
  | 112 => ⟨S_, .i32⟩
  | 113 => ⟨S_, .i32⟩
  | 114 => ⟨S_, .i32⟩
  | 115 => ⟨S_, .i32⟩
  | 116 => ⟨S262144, .i32⟩
  | 117 => ⟨S262144, .i32⟩
  | 118 => ⟨S_, .i32⟩
  | 119 => ⟨S262144, .i32⟩
  | 120 => ⟨S262144, .i1⟩
  | 121 => ⟨S262144, .i1⟩
  | 122 => ⟨S_, .i32⟩
  | 123 => ⟨S_, .i32⟩
  | 124 => ⟨S262144, .i32⟩
  | 125 => ⟨S262144, .i32⟩
  | 126 => ⟨S262144, .i32⟩
  | 127 => ⟨S_, .i32⟩
  | _ => ⟨S512x512x128, .f32⟩

abbrev hbmTy0_1 (i : Nat) : BufTy := match i % 128 with
  | 0 => ⟨S513, .i32⟩
  | 1 => ⟨S_, .i32⟩
  | 2 => ⟨S262144, .i32⟩
  | 3 => ⟨S262144, .i1⟩
  | 4 => ⟨S_, .i32⟩
  | 5 => ⟨S262144, .i32⟩
  | 6 => ⟨S262144, .i32⟩
  | 7 => ⟨S262144, .i32⟩
  | 8 => ⟨S262144x1, .i32⟩
  | 9 => ⟨S513, .i32⟩
  | 10 => ⟨S512, .i32⟩
  | 11 => ⟨S_, .i32⟩
  | 12 => ⟨S512, .i32⟩
  | 13 => ⟨S512, .i1⟩
  | 14 => ⟨S_, .i32⟩
  | 15 => ⟨S512, .i32⟩
  | 16 => ⟨S512, .i32⟩
  | 17 => ⟨S512, .i32⟩
  | 18 => ⟨S512x1, .i32⟩
  | 19 => ⟨S512x128, .f32⟩
  | 20 => ⟨S_, .i32⟩
  | 21 => ⟨S262144, .i32⟩
  | 22 => ⟨S262144, .i1⟩
  | 23 => ⟨S262144, .i32⟩
  | 24 => ⟨S_, .i32⟩
  | 25 => ⟨S_, .i32⟩
  | 26 => ⟨S262144, .i32⟩
  | 27 => ⟨S_, .i32⟩
  | 28 => ⟨S262144, .i32⟩
  | 29 => ⟨S262144, .i32⟩
  | 30 => ⟨S262144, .i32⟩
  | 31 => ⟨S_, .i32⟩
  | 32 => ⟨S_, .i32⟩
  | 33 => ⟨S_, .i32⟩
  | 34 => ⟨S_, .i32⟩
  | 35 => ⟨S262144, .i32⟩
  | 36 => ⟨S262144, .i32⟩
  | 37 => ⟨S_, .i32⟩
  | 38 => ⟨S262144, .i32⟩
  | 39 => ⟨S262144, .i1⟩
  | 40 => ⟨S262144, .i1⟩
  | 41 => ⟨S_, .i32⟩
  | 42 => ⟨S_, .i32⟩
  | 43 => ⟨S262144, .i32⟩
  | 44 => ⟨S262144, .i32⟩
  | 45 => ⟨S262144, .i32⟩
  | 46 => ⟨S_, .i32⟩
  | 47 => ⟨S513, .i32⟩
  | 48 => ⟨S_, .i32⟩
  | 49 => ⟨S262144, .i32⟩
  | 50 => ⟨S262144, .i1⟩
  | 51 => ⟨S_, .i32⟩
  | 52 => ⟨S262144, .i32⟩
  | 53 => ⟨S262144, .i32⟩
  | 54 => ⟨S262144, .i32⟩
  | 55 => ⟨S262144x1, .i32⟩
  | 56 => ⟨S513, .i32⟩
  | 57 => ⟨S512, .i32⟩
  | 58 => ⟨S_, .i32⟩
  | 59 => ⟨S512, .i32⟩
  | 60 => ⟨S512, .i1⟩
  | 61 => ⟨S_, .i32⟩
  | 62 => ⟨S512, .i32⟩
  | 63 => ⟨S512, .i32⟩
  | 64 => ⟨S512, .i32⟩
  | 65 => ⟨S512x1, .i32⟩
  | 66 => ⟨S512x128, .f32⟩
  | 67 => ⟨S1x512x128, .f32⟩
  | 68 => ⟨S1x512x128, .f32⟩
  | 69 => ⟨S1x512x128, .f32⟩
  | 70 => ⟨S1x512x128, .f32⟩
  | 71 => ⟨S4x512x128, .f32⟩
  | 72 => ⟨S4x512x512x128, .f32⟩
  | _ => ⟨S512x512x128, .f32⟩

abbrev hbmTy (i : Nat) : BufTy := match i / 128 with
  | 0 => hbmTy0_0 i
  | 1 => hbmTy0_1 i
  | _ => ⟨S512x512x128, .f32⟩

abbrev bufTy : (tb : Table) → Fin (tcTables nBuf tb) → BufTy
  | .hbm, ⟨i, _⟩ => hbmTy i
  | .local _ .vmem, ⟨0, _⟩ => ⟨S1x512x128, .f32⟩
  | .local _ .vmem, ⟨1, _⟩ => ⟨S1x512x128, .f32⟩
  | .local _ .vmem, ⟨2, _⟩ => ⟨S1x64x512x128, .f32⟩
  | .local _ .vmem, ⟨3, _⟩ => ⟨S1x64x512x128, .f32⟩
  | _, _ => ⟨S512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_c : Ref sig .tc := ⟨.hbm, 11, rfl⟩
abbrev main_call0_call0_v0 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_8 : Ref sig .tc := ⟨.hbm, 45, rfl⟩
abbrev main_v29 : Ref sig .tc := ⟨.hbm, 46, rfl⟩
abbrev main_v30 : Ref sig .tc := ⟨.hbm, 47, rfl⟩
abbrev main_c_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call2_call0_c : Ref sig .tc := ⟨.hbm, 58, rfl⟩
abbrev main_call2_call0_v0 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_12 : Ref sig .tc := ⟨.hbm, 65, rfl⟩
abbrev main_v43 : Ref sig .tc := ⟨.hbm, 66, rfl⟩
abbrev main_c_13 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_14 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_15 : Ref sig .tc := ⟨.hbm, 75, rfl⟩
abbrev main_call3_v0 : Ref sig .tc := ⟨.hbm, 76, rfl⟩
abbrev main_call3_v1 : Ref sig .tc := ⟨.hbm, 77, rfl⟩
abbrev main_v50 : Ref sig .tc := ⟨.hbm, 78, rfl⟩
abbrev main_v51 : Ref sig .tc := ⟨.hbm, 79, rfl⟩
abbrev main_c_16 : Ref sig .tc := ⟨.hbm, 80, rfl⟩
abbrev main_v52 : Ref sig .tc := ⟨.hbm, 81, rfl⟩
abbrev main_c_17 : Ref sig .tc := ⟨.hbm, 82, rfl⟩
abbrev main_v53 : Ref sig .tc := ⟨.hbm, 83, rfl⟩
abbrev main_v54 : Ref sig .tc := ⟨.hbm, 84, rfl⟩
abbrev main_c_18 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_19 : Ref sig .tc := ⟨.hbm, 92, rfl⟩
abbrev main_v61 : Ref sig .tc := ⟨.hbm, 93, rfl⟩
abbrev main_v62 : Ref sig .tc := ⟨.hbm, 94, rfl⟩
abbrev main_c_20 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_21 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call4_call0_c : Ref sig .tc := ⟨.hbm, 105, rfl⟩
abbrev main_call4_call0_v0 : Ref sig .tc := ⟨.hbm, 106, rfl⟩
abbrev main_v71 : Ref sig .tc := ⟨.hbm, 107, rfl⟩
abbrev main_c_22 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_23 : Ref sig .tc := ⟨.hbm, 112, rfl⟩
abbrev main_v75 : Ref sig .tc := ⟨.hbm, 113, rfl⟩
abbrev main_c_24 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_25 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_26 : Ref sig .tc := ⟨.hbm, 122, rfl⟩
abbrev main_call5_v0 : Ref sig .tc := ⟨.hbm, 123, rfl⟩
abbrev main_call5_v1 : Ref sig .tc := ⟨.hbm, 124, rfl⟩
abbrev main_v82 : Ref sig .tc := ⟨.hbm, 125, rfl⟩
abbrev main_v83 : Ref sig .tc := ⟨.hbm, 126, rfl⟩
abbrev main_c_27 : Ref sig .tc := ⟨.hbm, 127, rfl⟩
abbrev main_v84 : Ref sig .tc := ⟨.hbm, 128, rfl⟩
abbrev main_c_28 : Ref sig .tc := ⟨.hbm, 129, rfl⟩
abbrev main_v85 : Ref sig .tc := ⟨.hbm, 130, rfl⟩
abbrev main_v86 : Ref sig .tc := ⟨.hbm, 131, rfl⟩
abbrev main_c_29 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_c_30 : Ref sig .tc := ⟨.hbm, 139, rfl⟩
abbrev main_v93 : Ref sig .tc := ⟨.hbm, 140, rfl⟩
abbrev main_v94 : Ref sig .tc := ⟨.hbm, 141, rfl⟩
abbrev main_c_31 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_32 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_call6_call0_c : Ref sig .tc := ⟨.hbm, 152, rfl⟩
abbrev main_call6_call0_v0 : Ref sig .tc := ⟨.hbm, 153, rfl⟩
abbrev main_v103 : Ref sig .tc := ⟨.hbm, 154, rfl⟩
abbrev main_c_33 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_c_34 : Ref sig .tc := ⟨.hbm, 159, rfl⟩
abbrev main_v107 : Ref sig .tc := ⟨.hbm, 160, rfl⟩
abbrev main_c_35 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_c_36 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_c_37 : Ref sig .tc := ⟨.hbm, 169, rfl⟩
abbrev main_call7_v0 : Ref sig .tc := ⟨.hbm, 170, rfl⟩
abbrev main_call7_v1 : Ref sig .tc := ⟨.hbm, 171, rfl⟩
abbrev main_v114 : Ref sig .tc := ⟨.hbm, 172, rfl⟩
abbrev main_v115 : Ref sig .tc := ⟨.hbm, 173, rfl⟩
abbrev main_c_38 : Ref sig .tc := ⟨.hbm, 174, rfl⟩
abbrev main_v116 : Ref sig .tc := ⟨.hbm, 175, rfl⟩
abbrev main_c_39 : Ref sig .tc := ⟨.hbm, 176, rfl⟩
abbrev main_v117 : Ref sig .tc := ⟨.hbm, 177, rfl⟩
abbrev main_v118 : Ref sig .tc := ⟨.hbm, 178, rfl⟩
abbrev main_c_40 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_c_41 : Ref sig .tc := ⟨.hbm, 186, rfl⟩
abbrev main_v125 : Ref sig .tc := ⟨.hbm, 187, rfl⟩
abbrev main_v126 : Ref sig .tc := ⟨.hbm, 188, rfl⟩
abbrev main_c_42 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_off1 (k0_t1 : Fin k0_t1_loop.trips) : Fin 4 → Nat :=
  let c0_3 : Index := 0#32
  let c0_i32 : BitVec 32 := 0#32
  let c1_i32 : BitVec 32 := 1#32
  let arg4 : BitVec 32 := Scf.iv c0_i32 c1_i32 k0_t1
  let v4 : Index := Scalar.indexCast arg4
  let c0_4 : Index := 0#32
  let c0_5 : Index := 0#32
  ![0, v4.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S512x512x128_S262144x128 : S512x512x128.ShapeCasts S262144x128
  shapeCasts_S512x512_S262144 : S512x512.ShapeCasts S262144
  bcast_S_S1x128 : S_.BroadcastsInDim S1x128 (![] : Fin 0 → Fin S1x128.rank)
  concatenates_S262144x128_S1x128_S262145x128_d0 : Shape.Concatenates [S262144x128, S1x128] S262145x128 0
  bcast_S_S262144 : S_.BroadcastsInDim S262144 (![] : Fin 0 → Fin S262144.rank)
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  reducesTo_S262144_S_d0 : S262144.ReducesTo [0] S_
  bcast_S_S513 : S_.BroadcastsInDim S513 (![] : Fin 0 → Fin S513.rank)
  bcast_S262144_S262144x1_0 : S262144.BroadcastsInDim S262144x1 (![0] : Fin 1 → Fin S262144x1.rank)
  slices_S513_S512_0 : S513.Slices ![0] S512
  bcast_S_S512 : S_.BroadcastsInDim S512 (![] : Fin 0 → Fin S512.rank)
  bcast_S512_S512x1_0 : S512.BroadcastsInDim S512x1 (![0] : Fin 1 → Fin S512x1.rank)
  bcast_S512x128_S1x512x128_1_2 : S512x128.BroadcastsInDim S1x512x128 (![1, 2] : Fin 2 → Fin S1x512x128.rank)
  concatenates_S1x512x128_S1x512x128_S1x512x128_S1x512x128_S4x512x128_d0 : Shape.Concatenates [S1x512x128, S1x512x128, S1x512x128, S1x512x128] S4x512x128 0
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  h_S1x1x512x128 : 0 < S1x1x512x128.numel
  shapeCasts_S1x1x512x128_S1x512x128 : S1x1x512x128.ShapeCasts S1x512x128
  shapeCasts_S1x512x128_S1x1x512x128 : S1x512x128.ShapeCasts S1x1x512x128
  scatter_S513_S262144x1_S262144_n_0_0_1_wf : ScatterDims.WF S513 S262144x1 S262144 [] [0] [0] 1
  gather_S262145x128_S512x1_S512x128_1_0_n_n_0_1_1128_wf : GatherDims.WF S262145x128 S512x1 S512x128 [1] [0] [] [0] [] 1 ![1, 128]
  hrank0 : 0 < grid0.rank
  k0_t1_ok : k0_t1_loop.OK
  k0_off1_inb : ∀ k0_t1 : Fin k0_t1_loop.trips, ∀ a, (k0_off1 k0_t1) a + S1x1x512x128.size a ≤ S1x64x512x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x512x128.size a
  hwx0_0 : ∀ i : grid0.Coords, EltTy.bits .f32 = 32 ∨ (Rect.block (s := S4x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512x128.size a ≤ S4x512x512x128.size a
  hwx0_1 : ∀ i : grid0.Coords, EltTy.bits .f32 = 32 ∨ (Rect.block (s := S4x512x512x128) S1x64x512x128.size (cc0_transform_1 i) (hinb0_1 i)).WholeWords (EltTy.packing .f32)

variable [Facts₀]

def scatter_S513_S262144x1_S262144_n_0_0_1 : ScatterDims S513 S262144x1 S262144 where
  updateWindowDims := []
  insertedWindowDims := [0]
  scatterDimsToOperandDims := [0]
  indexVectorDim := 1
  wf := scatter_S513_S262144x1_S262144_n_0_0_1_wf
def gather_S262145x128_S512x1_S512x128_1_0_n_n_0_1_1128 : GatherDims S262145x128 S512x1 S512x128 where
  offsetDims := [1]
  collapsedSliceDims := [0]
  operandBatchingDims := []
  startIndicesBatchingDims := []
  startIndexMap := [0]
  indexVectorDim := 1
  sliceSizes := ![1, 128]
  wf := gather_S262145x128_S512x1_S512x128_1_0_n_n_0_1_1128_wf

abbrev win0_0 : Pipeline.Window sig grid0 :=
  Pipeline.Window.ofSpec (Memref.whole main_v136) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v137) S1x64x512x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x512x128 : Shape := ⟨3, ![512, 512, 128]⟩
abbrev S512x512 : Shape := ⟨2, ![512, 512]⟩
abbrev S262144x128 : Shape := ⟨2, ![262144, 128]⟩
abbrev S262144 : Shape := ⟨1, ![262144]⟩
abbrev S_ : Shape := ⟨0, ![]⟩
abbrev S513x128 : Shape := ⟨2, ![513, 128]⟩
abbrev S262144x1 : Shape := ⟨2, ![262144, 1]⟩
abbrev S512x128 : Shape := ⟨2, ![512, 128]⟩
abbrev S1x512x128 : Shape := ⟨3, ![1, 512, 128]⟩
abbrev S1x512x512x128 : Shape := ⟨4, ![1, 512, 512, 128]⟩
abbrev S4x512x512x128 : Shape := ⟨4, ![4, 512, 512, 128]⟩

abbrev nBuf : Space → Nat
  | .hbm => 165
  | .vmem => 0
  | .smem => 0
  | _ => 0

abbrev hbmTy0_0 (i : Nat) : BufTy := match i % 128 with
  | 0 => ⟨S512x512x128, .f32⟩
  | 1 => ⟨S512x512, .i32⟩
  | 2 => ⟨S262144x128, .f32⟩
  | 3 => ⟨S262144, .i32⟩
  | 4 => ⟨S_, .i32⟩
  | 5 => ⟨S262144, .i32⟩
  | 6 => ⟨S262144, .i1⟩
  | 7 => ⟨S262144, .i32⟩
  | 8 => ⟨S_, .i32⟩
  | 9 => ⟨S_, .i32⟩
  | 10 => ⟨S262144, .i32⟩
  | 11 => ⟨S_, .i32⟩
  | 12 => ⟨S262144, .i32⟩
  | 13 => ⟨S262144, .i32⟩
  | 14 => ⟨S262144, .i32⟩
  | 15 => ⟨S_, .i32⟩
  | 16 => ⟨S_, .i32⟩
  | 17 => ⟨S_, .i32⟩
  | 18 => ⟨S_, .i32⟩
  | 19 => ⟨S262144, .i32⟩
  | 20 => ⟨S262144, .i32⟩
  | 21 => ⟨S_, .i32⟩
  | 22 => ⟨S262144, .i32⟩
  | 23 => ⟨S262144, .i1⟩
  | 24 => ⟨S262144, .i1⟩
  | 25 => ⟨S_, .i32⟩
  | 26 => ⟨S_, .i32⟩
  | 27 => ⟨S262144, .i32⟩
  | 28 => ⟨S262144, .i32⟩
  | 29 => ⟨S_, .f32⟩
  | 30 => ⟨S513x128, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S513x128, .f32⟩
  | 40 => ⟨S512x128, .f32⟩
  | 41 => ⟨S1x512x128, .f32⟩
  | 42 => ⟨S512x512x128, .f32⟩
  | 43 => ⟨S_, .i32⟩
  | 44 => ⟨S262144, .i32⟩
  | 45 => ⟨S262144, .i1⟩
  | 46 => ⟨S262144, .i32⟩
  | 47 => ⟨S_, .i32⟩
  | 48 => ⟨S_, .i32⟩
  | 49 => ⟨S262144, .i32⟩
  | 50 => ⟨S_, .i32⟩
  | 51 => ⟨S262144, .i32⟩
  | 52 => ⟨S262144, .i32⟩
  | 53 => ⟨S262144, .i32⟩
  | 54 => ⟨S_, .i32⟩
  | 55 => ⟨S_, .i32⟩
  | 56 => ⟨S_, .i32⟩
  | 57 => ⟨S_, .i32⟩
  | 58 => ⟨S262144, .i32⟩
  | 59 => ⟨S262144, .i32⟩
  | 60 => ⟨S_, .i32⟩
  | 61 => ⟨S262144, .i32⟩
  | 62 => ⟨S262144, .i1⟩
  | 63 => ⟨S262144, .i1⟩
  | 64 => ⟨S_, .i32⟩
  | 65 => ⟨S_, .i32⟩
  | 66 => ⟨S262144, .i32⟩
  | 67 => ⟨S262144, .i32⟩
  | 68 => ⟨S_, .f32⟩
  | 69 => ⟨S513x128, .f32⟩
  | 70 => ⟨S_, .i32⟩
  | 71 => ⟨S262144, .i32⟩
  | 72 => ⟨S262144, .i1⟩
  | 73 => ⟨S_, .i32⟩
  | 74 => ⟨S262144, .i32⟩
  | 75 => ⟨S262144, .i32⟩
  | 76 => ⟨S262144, .i32⟩
  | 77 => ⟨S262144x1, .i32⟩
  | 78 => ⟨S513x128, .f32⟩
  | 79 => ⟨S512x128, .f32⟩
  | 80 => ⟨S1x512x128, .f32⟩
  | 81 => ⟨S512x512x128, .f32⟩
  | 82 => ⟨S_, .i32⟩
  | 83 => ⟨S262144, .i32⟩
  | 84 => ⟨S262144, .i1⟩
  | 85 => ⟨S262144, .i32⟩
  | 86 => ⟨S_, .i32⟩
  | 87 => ⟨S_, .i32⟩
  | 88 => ⟨S262144, .i32⟩
  | 89 => ⟨S_, .i32⟩
  | 90 => ⟨S262144, .i32⟩
  | 91 => ⟨S262144, .i32⟩
  | 92 => ⟨S262144, .i32⟩
  | 93 => ⟨S_, .i32⟩
  | 94 => ⟨S_, .i32⟩
  | 95 => ⟨S_, .i32⟩
  | 96 => ⟨S_, .i32⟩
  | 97 => ⟨S262144, .i32⟩
  | 98 => ⟨S262144, .i32⟩
  | 99 => ⟨S_, .i32⟩
  | 100 => ⟨S262144, .i32⟩
  | 101 => ⟨S262144, .i1⟩
  | 102 => ⟨S262144, .i1⟩
  | 103 => ⟨S_, .i32⟩
  | 104 => ⟨S_, .i32⟩
  | 105 => ⟨S262144, .i32⟩
  | 106 => ⟨S262144, .i32⟩
  | 107 => ⟨S_, .f32⟩
  | 108 => ⟨S513x128, .f32⟩
  | 109 => ⟨S_, .i32⟩
  | 110 => ⟨S262144, .i32⟩
  | 111 => ⟨S262144, .i1⟩
  | 112 => ⟨S_, .i32⟩
  | 113 => ⟨S262144, .i32⟩
  | 114 => ⟨S262144, .i32⟩
  | 115 => ⟨S262144, .i32⟩
  | 116 => ⟨S262144x1, .i32⟩
  | 117 => ⟨S513x128, .f32⟩
  | 118 => ⟨S512x128, .f32⟩
  | 119 => ⟨S1x512x128, .f32⟩
  | 120 => ⟨S512x512x128, .f32⟩
  | 121 => ⟨S_, .i32⟩
  | 122 => ⟨S262144, .i32⟩
  | 123 => ⟨S262144, .i1⟩
  | 124 => ⟨S262144, .i32⟩
  | 125 => ⟨S_, .i32⟩
  | 126 => ⟨S_, .i32⟩
  | 127 => ⟨S262144, .i32⟩
  | _ => ⟨S512x512x128, .f32⟩

abbrev hbmTy0_1 (i : Nat) : BufTy := match i % 128 with
  | 0 => ⟨S_, .i32⟩
  | 1 => ⟨S262144, .i32⟩
  | 2 => ⟨S262144, .i32⟩
  | 3 => ⟨S262144, .i32⟩
  | 4 => ⟨S_, .i32⟩
  | 5 => ⟨S_, .i32⟩
  | 6 => ⟨S_, .i32⟩
  | 7 => ⟨S_, .i32⟩
  | 8 => ⟨S262144, .i32⟩
  | 9 => ⟨S262144, .i32⟩
  | 10 => ⟨S_, .i32⟩
  | 11 => ⟨S262144, .i32⟩
  | 12 => ⟨S262144, .i1⟩
  | 13 => ⟨S262144, .i1⟩
  | 14 => ⟨S_, .i32⟩
  | 15 => ⟨S_, .i32⟩
  | 16 => ⟨S262144, .i32⟩
  | 17 => ⟨S262144, .i32⟩
  | 18 => ⟨S_, .f32⟩
  | 19 => ⟨S513x128, .f32⟩
  | 20 => ⟨S_, .i32⟩
  | 21 => ⟨S262144, .i32⟩
  | 22 => ⟨S262144, .i1⟩
  | 23 => ⟨S_, .i32⟩
  | 24 => ⟨S262144, .i32⟩
  | 25 => ⟨S262144, .i32⟩
  | 26 => ⟨S262144, .i32⟩
  | 27 => ⟨S262144x1, .i32⟩
  | 28 => ⟨S513x128, .f32⟩
  | 29 => ⟨S512x128, .f32⟩
  | 30 => ⟨S1x512x128, .f32⟩
  | 31 => ⟨S512x512x128, .f32⟩
  | 32 => ⟨S1x512x512x128, .f32⟩
  | 33 => ⟨S1x512x512x128, .f32⟩
  | 34 => ⟨S1x512x512x128, .f32⟩
  | 35 => ⟨S1x512x512x128, .f32⟩
  | 36 => ⟨S4x512x512x128, .f32⟩
  | _ => ⟨S512x512x128, .f32⟩

abbrev hbmTy (i : Nat) : BufTy := match i / 128 with
  | 0 => hbmTy0_0 i
  | 1 => hbmTy0_1 i
  | _ => ⟨S512x512x128, .f32⟩

abbrev bufTy : (tb : Table) → Fin (tcTables nBuf tb) → BufTy
  | .hbm, ⟨i, _⟩ => hbmTy i
  | _, _ => ⟨S512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_call0_c : Ref sig .tc := ⟨.hbm, 8, rfl⟩
abbrev main_call0_call0_v0 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call2_call0_c : Ref sig .tc := ⟨.hbm, 47, rfl⟩
abbrev main_call2_call0_v0 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_12 : Ref sig .tc := ⟨.hbm, 64, rfl⟩
abbrev main_call3_v0 : Ref sig .tc := ⟨.hbm, 65, rfl⟩
abbrev main_call3_v1 : Ref sig .tc := ⟨.hbm, 66, rfl⟩
abbrev main_v42 : Ref sig .tc := ⟨.hbm, 67, rfl⟩
abbrev main_cst_13 : Ref sig .tc := ⟨.hbm, 68, rfl⟩
abbrev main_v43 : Ref sig .tc := ⟨.hbm, 69, rfl⟩
abbrev main_c_14 : Ref sig .tc := ⟨.hbm, 70, rfl⟩
abbrev main_v44 : Ref sig .tc := ⟨.hbm, 71, rfl⟩
abbrev main_v45 : Ref sig .tc := ⟨.hbm, 72, rfl⟩
abbrev main_c_15 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_16 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call4_call0_c : Ref sig .tc := ⟨.hbm, 86, rfl⟩
abbrev main_call4_call0_v0 : Ref sig .tc := ⟨.hbm, 87, rfl⟩
abbrev main_v57 : Ref sig .tc := ⟨.hbm, 88, rfl⟩
abbrev main_c_17 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_18 : Ref sig .tc := ⟨.hbm, 93, rfl⟩
abbrev main_v61 : Ref sig .tc := ⟨.hbm, 94, rfl⟩
abbrev main_c_19 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_20 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_21 : Ref sig .tc := ⟨.hbm, 103, rfl⟩
abbrev main_call5_v0 : Ref sig .tc := ⟨.hbm, 104, rfl⟩
abbrev main_call5_v1 : Ref sig .tc := ⟨.hbm, 105, rfl⟩
abbrev main_v68 : Ref sig .tc := ⟨.hbm, 106, rfl⟩
abbrev main_cst_22 : Ref sig .tc := ⟨.hbm, 107, rfl⟩
abbrev main_v69 : Ref sig .tc := ⟨.hbm, 108, rfl⟩
abbrev main_c_23 : Ref sig .tc := ⟨.hbm, 109, rfl⟩
abbrev main_v70 : Ref sig .tc := ⟨.hbm, 110, rfl⟩
abbrev main_v71 : Ref sig .tc := ⟨.hbm, 111, rfl⟩
abbrev main_c_24 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_25 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_call6_call0_c : Ref sig .tc := ⟨.hbm, 125, rfl⟩
abbrev main_call6_call0_v0 : Ref sig .tc := ⟨.hbm, 126, rfl⟩
abbrev main_v83 : Ref sig .tc := ⟨.hbm, 127, rfl⟩
abbrev main_c_26 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_27 : Ref sig .tc := ⟨.hbm, 132, rfl⟩
abbrev main_v87 : Ref sig .tc := ⟨.hbm, 133, rfl⟩
abbrev main_c_28 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_c_29 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_c_30 : Ref sig .tc := ⟨.hbm, 142, rfl⟩
abbrev main_call7_v0 : Ref sig .tc := ⟨.hbm, 143, rfl⟩
abbrev main_call7_v1 : Ref sig .tc := ⟨.hbm, 144, rfl⟩
abbrev main_v94 : Ref sig .tc := ⟨.hbm, 145, rfl⟩
abbrev main_cst_31 : Ref sig .tc := ⟨.hbm, 146, rfl⟩
abbrev main_v95 : Ref sig .tc := ⟨.hbm, 147, rfl⟩
abbrev main_c_32 : Ref sig .tc := ⟨.hbm, 148, rfl⟩
abbrev main_v96 : Ref sig .tc := ⟨.hbm, 149, rfl⟩
abbrev main_v97 : Ref sig .tc := ⟨.hbm, 150, rfl⟩
abbrev main_c_33 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩

abbrev nD : Nat := 1
abbrev τ : Topo := Topo.v7x

variable {F : FTy → Type} [FloatOps F]

class Facts₀ : Prop where
  shapeCasts_S512x512x128_S262144x128 : S512x512x128.ShapeCasts S262144x128
  shapeCasts_S512x512_S262144 : S512x512.ShapeCasts S262144
  bcast_S_S262144 : S_.BroadcastsInDim S262144 (![] : Fin 0 → Fin S262144.rank)
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  reducesTo_S262144_S_d0 : S262144.ReducesTo [0] S_
  bcast_S_S513x128 : S_.BroadcastsInDim S513x128 (![] : Fin 0 → Fin S513x128.rank)
  bcast_S262144_S262144x1_0 : S262144.BroadcastsInDim S262144x1 (![0] : Fin 1 → Fin S262144x1.rank)
  slices_S513x128_S512x128_0_0 : S513x128.Slices ![0, 0] S512x128
  bcast_S512x128_S1x512x128_1_2 : S512x128.BroadcastsInDim S1x512x128 (![1, 2] : Fin 2 → Fin S1x512x128.rank)
  bcast_S1x512x128_S512x512x128_0_1_2 : S1x512x128.BroadcastsInDim S512x512x128 (![0, 1, 2] : Fin 3 → Fin S512x512x128.rank)
  bcast_S512x512x128_S1x512x512x128_1_2_3 : S512x512x128.BroadcastsInDim S1x512x512x128 (![1, 2, 3] : Fin 3 → Fin S1x512x512x128.rank)
  concatenates_S1x512x512x128_S1x512x512x128_S1x512x512x128_S1x512x512x128_S4x512x512x128_d0 : Shape.Concatenates [S1x512x512x128, S1x512x512x128, S1x512x512x128, S1x512x512x128] S4x512x512x128 0
  scatter_S513x128_S262144x1_S262144x128_1_0_0_1_wf : ScatterDims.WF S513x128 S262144x1 S262144x128 [1] [0] [0] 1

variable [Facts₀]

def scatter_S513x128_S262144x1_S262144x128_1_0_0_1 : ScatterDims S513x128 S262144x1 S262144x128 where
  updateWindowDims := [1]
  insertedWindowDims := [0]
  scatterDimsToOperandDims := [0]
  indexVectorDim := 1
  wf := scatter_S513x128_S262144x1_S262144x128_1_0_0_1_wf

class Facts : Prop extends Facts₀ where

variable [Facts]
-- ==== Proof.KBase.lean ====
/-
  The program is a long stretch of host operations — the four compactions' index arithmetic, the four
  gathers, the stacking of the four [512,128] sequences into one [4,512,128] array — followed by ONE
  pipelined region that copies, for each of the 4 × 8 grid points (t, b), row t of that array into the 64
  batch entries of block (t, b) of the [4,512,512,128] result. This module fixes what the region finds
  on entry (the arrays after the host operations), shows that no host operation writes an argument
  array, and names the blocks the region's windows read.
-/
import proofs.«124810_j42863773614188_2_alg».proof.Proof.Gen.Kernel.Launch
import proofs.«124810_j42863773614188_2_alg».proof.Proof.Gen.Kernel.Skeleton
import proofs.«124810_j42863773614188_2_alg».proof.Proof.Gen.Kernel.Loops
import proofs.«124810_j42863773614188_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, stretch by stretch (a called function's operations are a stretch
    of their own). -/
abbrev stretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffers when the region is entered: the launch contents after all host operations. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the host stretches followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation writes the first argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, whether the point fetches it
    (a new row t) or not (the same row, the index unmoved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch -/

/-- From a run whose post has every buffer no window stages as the region found it, the two argument arrays
    end as launched: no window stages them and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The staging memrefs -/

/-- One staging buffer of the output window, through which its contents are stated. -/
abbrev VO0_1 : View sig .tc .vmem S1x64x512x128 .f32 := (Memref.whole cc0_stg1_0 : Memref sig .tc .vmem S1x64x512x128 .f32).view
/-- Each window's current staging memref at point `t`, as the pipeline passes it to the body. -/
abbrev ms0_0 (t : Fin cfg0.N) : Memref sig .tc .vmem S1x512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x512x128 .f32 := win0_1.stage (cfg0.slots t 1)
abbrev hs0_1 (t : Fin cfg0.N) : (ms0_1 t).IsWhole := hstage0_1 ((cfg0.slots t 1).cast nbuf0_1)

end Cert.Kernel.Frame

end
-- ==== Proof.KRun.lean ====
/-
  The kernel body on any whole staging memrefs: it loads the input block (one [1,512,128] row) once and then,
  for each of the 64 batch entries of the output block, stores that row into the entry's [1,1,512,128] slab.
  The run goes through the counted loop by its invariant (the slabs of the trips before k written over the
  entry contents); what the output buffer ends with is the list of the 64 stored slabs, found by the run.
-/
import proofs.«124810_j42863773614188_2_alg».proof.Proof.KBase

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple: the input buffer at its contents `x0` and the output buffer at anything, to the input
    buffer unchanged and the output buffer with the run's pieces written. -/
noncomputable def kernelRun (c : Dev nD) (i : grid0.Coords) (arg2 : Memref sig .tc .vmem S1x512x128 .f32) (harg2 : arg2.IsWhole) (arg3 : Memref sig .tc .vmem S1x64x512x128 .f32) (harg3 : arg3.IsWhole)
    (x0 : Vec F S1x512x128 .f32) :
    { L1 : List (View.Piece (Elt F) S1x64x512x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__broadcast_kernel i arg2 harg2 arg3 harg3) K } := by
  refine ⟨?_, fun E K => ?run⟩
  case run =>
    simp only [cc0__broadcast_kernel_eq_skeleton]; unfold cc0__broadcast_kernel_skel
    unfold owns
    iintro ⟨⟨%f0, %hf0, H0⟩, ⟨%d1, %f1, -, H1⟩, Hk⟩
    obtain rfl := harg2.eq_unread hf0
    sl_exec
    sl_step
    iapply Hk
    isplitl [H0]
    · iexists _; isplitr; · ipureintro; exact harg2.read_unread _
      iexact H0
    iexists _; iexact H1

end Cert.Kernel.Frame

end
-- ==== Proof.KFrame.lean ====
/-
  The launch of the region: what the output window's staging buffer holds after the body at each grid point
  (the 64 stored slabs, which tile the [1,64,512,128] block), the body obligation at a generic point, the run
  of @main, and the frame claim (both argument arrays end as launched).
-/
import proofs.«124810_j42863773614188_2_alg».proof.Proof.KRun

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The 64 stored slabs tile the output block, so every index of it lies in one of them. -/
theorem cover_out (c : Dev nD) (i : grid0.Coords) (arg2 : Memref sig .tc .vmem S1x512x128 .f32) (harg2 : arg2.IsWhole) (arg3 : Memref sig .tc .vmem S1x64x512x128 .f32) (harg3 : arg3.IsWhole)
    (x0 : Vec F S1x512x128 .f32) (y : S1x64x512x128.Idx) :
    ∃ pc ∈ (kernelRun c i arg2 harg2 arg3 harg3 x0).1, y ∈ pc.1.set :=
  View.cover_of_tiledL (kernelRun c i arg2 harg2 arg3 harg3 x0).1 S1x1x512x128.size (by sl_kernel_rfl) y

/-- What the body leaves in the output window's staging buffer: its pieces read back (over anything). -/
def outBlock (c : Dev nD) (i : grid0.Coords) (arg2 : Memref sig .tc .vmem S1x512x128 .f32) (harg2 : arg2.IsWhole) (arg3 : Memref sig .tc .vmem S1x64x512x128 .f32) (harg3 : arg3.IsWhole)
    (x0 : Vec F S1x512x128 .f32) : Vec F S1x64x512x128 .f32 :=
  VO0_1.read (Elt F) (VO0_1.writes (Elt F) VO0_1.junk (kernelRun c i arg2 harg2 arg3 harg3 x0).1)

/-- The output block after the body at point `t`: the run's contents at the point's memrefs and input block. -/
def outAt (c : Dev nD) (t : Fin cfg0.N) : Vec F S1x64x512x128 .f32 :=
  outBlock c (grid0.coords t) (ms0_0 t) (hs0_0 t) (ms0_1 t) (hs0_1 t) (iblk m c 0 t)

/-- The proof data of the pipeline on core `c`: the arrays as the region finds them; after the body at point
    `t` the input's buffer still at its block and the output's at `outAt`; nothing else carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outAt m c t) := by dsimp only [dats]

theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the input memref holds its block, so the run applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  unfold outAt
  unfold outBlock
  iintro ⟨HΦ, Ho, ⟨%d0, H0⟩, ⟨%d1, H1⟩⟩
  iapply ((kernelRun c (grid0.coords t) _ _ _ _ (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover_out c _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has each array of the pipeline at what
    the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frame

end
-- ==== Proof.KIBase.lean ====
/-
  The program is a long stretch of host operations — the four compactions' index arithmetic, the four
  gathers, the stacking of the four [512,128] sequences into one [4,512,128] array — followed by ONE
  pipelined region that copies, for each of the 4 × 8 grid points (t, b), row t of that array into the 64
  batch entries of block (t, b) of the [4,512,512,128] result. This module fixes what the region finds
  on entry (the arrays after the host operations), shows that no host operation writes an argument
  array, and names the blocks the region's windows read.
-/
import proofs.«124810_j42863773614188_2_alg».proof.Proof.Gen.KernelIdeal.Launch
import proofs.«124810_j42863773614188_2_alg».proof.Proof.Gen.KernelIdeal.Skeleton
import proofs.«124810_j42863773614188_2_alg».proof.Proof.Gen.KernelIdeal.Loops
import proofs.«124810_j42863773614188_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, stretch by stretch (a called function's operations are a stretch
    of their own). -/
abbrev stretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffers when the region is entered: the launch contents after all host operations. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the host stretches followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation writes the first argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, whether the point fetches it
    (a new row t) or not (the same row, the index unmoved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch -/

/-- From a run whose post has every buffer no window stages as the region found it, the two argument arrays
    end as launched: no window stages them and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The staging memrefs -/

/-- One staging buffer of the output window, through which its contents are stated. -/
abbrev VO0_1 : View sig .tc .vmem S1x64x512x128 .f32 := (Memref.whole cc0_stg1_0 : Memref sig .tc .vmem S1x64x512x128 .f32).view
/-- Each window's current staging memref at point `t`, as the pipeline passes it to the body. -/
abbrev ms0_0 (t : Fin cfg0.N) : Memref sig .tc .vmem S1x512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x512x128 .f32 := win0_1.stage (cfg0.slots t 1)
abbrev hs0_1 (t : Fin cfg0.N) : (ms0_1 t).IsWhole := hstage0_1 ((cfg0.slots t 1).cast nbuf0_1)

end Cert.KernelIdeal.Frame

end
-- ==== Proof.KIRun.lean ====
/-
  The kernel body on any whole staging memrefs: it loads the input block (one [1,512,128] row) once and then,
  for each of the 64 batch entries of the output block, stores that row into the entry's [1,1,512,128] slab.
  The run goes through the counted loop by its invariant (the slabs of the trips before k written over the
  entry contents); what the output buffer ends with is the list of the 64 stored slabs, found by the run.
-/
import proofs.«124810_j42863773614188_2_alg».proof.Proof.KIBase

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple: the input buffer at its contents `x0` and the output buffer at anything, to the input
    buffer unchanged and the output buffer with the run's pieces written. -/
noncomputable def kernelRun (c : Dev nD) (i : grid0.Coords) (arg2 : Memref sig .tc .vmem S1x512x128 .f32) (harg2 : arg2.IsWhole) (arg3 : Memref sig .tc .vmem S1x64x512x128 .f32) (harg3 : arg3.IsWhole)
    (x0 : Vec F S1x512x128 .f32) :
    { L1 : List (View.Piece (Elt F) S1x64x512x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__broadcast_kernel i arg2 harg2 arg3 harg3) K } := by
  refine ⟨?_, fun E K => ?run⟩
  case run =>
    simp only [cc0__broadcast_kernel_eq_skeleton]; unfold cc0__broadcast_kernel_skel
    unfold owns
    iintro ⟨⟨%f0, %hf0, H0⟩, ⟨%d1, %f1, -, H1⟩, Hk⟩
    obtain rfl := harg2.eq_unread hf0
    sl_exec
    sl_step
    iapply Hk
    isplitl [H0]
    · iexists _; isplitr; · ipureintro; exact harg2.read_unread _
      iexact H0
    iexists _; iexact H1

end Cert.KernelIdeal.Frame

end
-- ==== Proof.KIFrame.lean ====
/-
  The launch of the region: what the output window's staging buffer holds after the body at each grid point
  (the 64 stored slabs, which tile the [1,64,512,128] block), the body obligation at a generic point, the run
  of @main, and the frame claim (both argument arrays end as launched).
-/
import proofs.«124810_j42863773614188_2_alg».proof.Proof.KIRun

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The 64 stored slabs tile the output block, so every index of it lies in one of them. -/
theorem cover_out (c : Dev nD) (i : grid0.Coords) (arg2 : Memref sig .tc .vmem S1x512x128 .f32) (harg2 : arg2.IsWhole) (arg3 : Memref sig .tc .vmem S1x64x512x128 .f32) (harg3 : arg3.IsWhole)
    (x0 : Vec F S1x512x128 .f32) (y : S1x64x512x128.Idx) :
    ∃ pc ∈ (kernelRun c i arg2 harg2 arg3 harg3 x0).1, y ∈ pc.1.set :=
  View.cover_of_tiledL (kernelRun c i arg2 harg2 arg3 harg3 x0).1 S1x1x512x128.size (by sl_kernel_rfl) y

/-- What the body leaves in the output window's staging buffer: its pieces read back (over anything). -/
def outBlock (c : Dev nD) (i : grid0.Coords) (arg2 : Memref sig .tc .vmem S1x512x128 .f32) (harg2 : arg2.IsWhole) (arg3 : Memref sig .tc .vmem S1x64x512x128 .f32) (harg3 : arg3.IsWhole)
    (x0 : Vec F S1x512x128 .f32) : Vec F S1x64x512x128 .f32 :=
  VO0_1.read (Elt F) (VO0_1.writes (Elt F) VO0_1.junk (kernelRun c i arg2 harg2 arg3 harg3 x0).1)

/-- The output block after the body at point `t`: the run's contents at the point's memrefs and input block. -/
def outAt (c : Dev nD) (t : Fin cfg0.N) : Vec F S1x64x512x128 .f32 :=
  outBlock c (grid0.coords t) (ms0_0 t) (hs0_0 t) (ms0_1 t) (hs0_1 t) (iblk m c 0 t)

/-- The proof data of the pipeline on core `c`: the arrays as the region finds them; after the body at point
    `t` the input's buffer still at its block and the output's at `outAt`; nothing else carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outAt m c t) := by dsimp only [dats]

theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the input memref holds its block, so the run applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  unfold outAt
  unfold outBlock
  iintro ⟨HΦ, Ho, ⟨%d0, H0⟩, ⟨%d1, H1⟩⟩
  iapply ((kernelRun c (grid0.coords t) _ _ _ _ (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover_out c _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has each array of the pipeline at what
    the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frame

end
-- ==== Proof.KIHostDefs.lean ====
/-
  The host side of the kernel program as pure functions of the two argument arrays a0 : [512,512,128] floats and
  a1 : [512,512] behaviour types. For behaviour type k: the mask of the flattened positions whose type is k; each
  masked position's right-aligned slot 512 − (number masked) + (its rank among the masked) and, where the position is
  not masked or the slot is negative, the dustbin slot 512; the row NUMBERS scattered by slot into a 513-vector
  pre-filled with the number of rows (later update winning), cut to 512; and the rows gathered by those numbers from
  the flattened a0 padded with one zero row. The stacked [4,512,128] array holds the four gathered sequences.
-/
import proofs.«124810_j42863773614188_2_alg».proof.Proof.KIFrame
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The positions whose behaviour type is `k`. -/
def eqk (k : BitVec 32) (a1 : IVec S512x512 32) : IVec S262144 1 :=
  cmpi .eq (shapeCast S262144 a1 shapeCasts_S512x512_S262144) (broadcastInDim S262144 ![] bcast_S_S262144 (constantI S_ 32 k))

/-- The right-aligned slot of each position: 512 less the number of masked positions plus the position's inclusive
    running count of masked positions less one. -/
def pos (k : BitVec 32) (a1 : IVec S512x512 32) : IVec S262144 32 :=
  addi
    (broadcastInDim S262144 ![] bcast_S_S262144
      (subi (constantI S_ 32 512#32)
        (Host.reduce IntOp.addi (extui 32 (eqk k a1) natLt_1_32) (constantI S_ 32 0#32) reducesTo_S262144_S_d0 h_S_)))
    (subi
      (Host.reduceWindow IntOp.addi ![262144] ![1] ![262143] ![0] (extui 32 (eqk k a1) natLt_1_32)
        (broadcastInDim S_ ![] bcast_S_S_ (constantI S_ 32 0#32)) reduceWindows_S262144_S262144_w262144s1p262143_0 h_S_)
      (broadcastInDim S262144 ![] bcast_S_S262144 (constantI S_ 32 1#32)))

/-- The slot kept where the position is masked and the slot is not negative; the dustbin slot 512 elsewhere. -/
def slot (k : BitVec 32) (a1 : IVec S512x512 32) : IVec S262144 32 :=
  select
    (andi (eqk k a1) (cmpi .sge (pos k a1) (broadcastInDim S262144 ![] bcast_S_S262144 (constantI S_ 32 0#32))))
    (pos k a1)
    (broadcastInDim S262144 ![] bcast_S_S262144 (id (constantI S_ 32 512#32)))

/-- The scatter target: the slot, a negative one counted from the end of the 513 cells. -/
def tgt (k : BitVec 32) (a1 : IVec S512x512 32) : IVec S262144 32 :=
  select (cmpi .slt (slot k a1) (broadcastInDim S262144 ![] bcast_S_S262144 (constantI S_ 32 0#32)))
    (addi (slot k a1) (broadcastInDim S262144 ![] bcast_S_S262144 (constantI S_ 32 513#32)))
    (slot k a1)

/-- The row numbers by slot: each row's number scattered to its target into 513 cells pre-filled with 262144, cut to 512. -/
def rowIdx (k : BitVec 32) (a1 : IVec S512x512 32) : IVec S512 32 :=
  extractStridedSlice S512 ![0]
    (Host.scatter scatter_S513_S262144x1_S262144_n_0_0_1 (fun _ b => b)
      (broadcastInDim S513 ![] bcast_S_S513 (constantI S_ 32 262144#32))
      (broadcastInDim S262144x1 ![0] bcast_S262144_S262144x1_0 (tgt k a1))
      (iotaInDim S262144 32 0))
    slices_S513_S512_0

/-- The compacted sequence of behaviour type `k`: the rows of the flattened a0, padded with one zero row, gathered by
    the row numbers (a negative number counted from the end of the 262145 rows). -/
def gatherRow (k : BitVec 32) (a0 : FVec F S512x512x128 .f32) (a1 : IVec S512x512 32) : FVec F S512x128 .f32 :=
  Host.gather gather_S262145x128_S512x1_S512x128_1_0_n_n_0_1_1128
    (concatenate S262145x128 0
      [⟨S262144x128, shapeCast S262144x128 a0 shapeCasts_S512x512x128_S262144x128⟩,
       ⟨S1x128, broadcastInDim S1x128 ![] bcast_S_S1x128 (constant S_ .f32 0x00000000#32)⟩]
      concatenates_S262144x128_S1x128_S262145x128_d0)
    (broadcastInDim S512x1 ![0] bcast_S512_S512x1_0
      (select (cmpi .slt (rowIdx k a1) (broadcastInDim S512 ![] bcast_S_S512 (constantI S_ 32 0#32)))
        (addi (rowIdx k a1) (broadcastInDim S512 ![] bcast_S_S512 (constantI S_ 32 262145#32)))
        (rowIdx k a1)))

/-- A [512,128] sequence as one [1,512,128] row of the stack. -/
def liftRow (Y : FVec F S512x128 .f32) : FVec F S1x512x128 .f32 :=
  broadcastInDim S1x512x128 ![1, 2] bcast_S512x128_S1x512x128_1_2 Y

/-- The four compacted sequences stacked. -/
def stack (a0 : FVec F S512x512x128 .f32) (a1 : IVec S512x512 32) : FVec F S4x512x128 .f32 :=
  concatenate S4x512x128 0
    [⟨S1x512x128, liftRow (gatherRow 1#32 a0 a1)⟩, ⟨S1x512x128, liftRow (gatherRow 2#32 a0 a1)⟩,
     ⟨S1x512x128, liftRow (gatherRow 3#32 a0 a1)⟩, ⟨S1x512x128, liftRow (gatherRow 4#32 a0 a1)⟩]
    concatenates_S1x512x128_S1x512x128_S1x512x128_S1x512x128_S4x512x128_d0

end Cert.KernelIdeal.Frame

end
-- ==== Proof.KIHostRow0.lean ====
/- The stacked array's row 0 as the region finds it: the gathered sequence of behaviour type 1. -/
import proofs.«124810_j42863773614188_2_alg».proof.Proof.KIHostDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

set_option maxHeartbeats 4000000 in
theorem V_row0 (c : Dev nD) : (V m c main_v132 : S1x512x128.Idx → Elt F .f32)
    = liftRow (gatherRow 1#32 (m ((c : Thread nD τ).loc main_arg0)) (m ((c : Thread nD τ).loc main_arg1))) := by
  dsimp only [V, stretches]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp only [StableHlo.TRef.nullary, StableHlo.TRef.unary, StableHlo.TRef.binary, StableHlo.TRef.ternary, StableHlo.TRef.of, StableHlo.TRef.toBuf, StableHlo.TRef.ofBuf, cast_eq]
  after_results_simp
  rfl

end Cert.KernelIdeal.Frame

end
-- ==== Proof.KIHostRow1.lean ====
/- The stacked array's row 1 as the region finds it: the gathered sequence of behaviour type 2. -/
import proofs.«124810_j42863773614188_2_alg».proof.Proof.KIHostDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

set_option maxHeartbeats 4000000 in
theorem V_row1 (c : Dev nD) : (V m c main_v133 : S1x512x128.Idx → Elt F .f32)
    = liftRow (gatherRow 2#32 (m ((c : Thread nD τ).loc main_arg0)) (m ((c : Thread nD τ).loc main_arg1))) := by
  dsimp only [V, stretches]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp only [StableHlo.TRef.nullary, StableHlo.TRef.unary, StableHlo.TRef.binary, StableHlo.TRef.ternary, StableHlo.TRef.of, StableHlo.TRef.toBuf, StableHlo.TRef.ofBuf, cast_eq]
  after_results_simp
  rfl

end Cert.KernelIdeal.Frame

end
-- ==== Proof.KIHostRow2.lean ====
/- The stacked array's row 2 as the region finds it: the gathered sequence of behaviour type 3. -/
import proofs.«124810_j42863773614188_2_alg».proof.Proof.KIHostDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

set_option maxHeartbeats 4000000 in
theorem V_row2 (c : Dev nD) : (V m c main_v134 : S1x512x128.Idx → Elt F .f32)
    = liftRow (gatherRow 3#32 (m ((c : Thread nD τ).loc main_arg0)) (m ((c : Thread nD τ).loc main_arg1))) := by
  dsimp only [V, stretches]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp only [StableHlo.TRef.nullary, StableHlo.TRef.unary, StableHlo.TRef.binary, StableHlo.TRef.ternary, StableHlo.TRef.of, StableHlo.TRef.toBuf, StableHlo.TRef.ofBuf, cast_eq]
  after_results_simp
  rfl

end Cert.KernelIdeal.Frame

end
-- ==== Proof.KIHostRow3.lean ====
/- The stacked array's row 3 as the region finds it: the gathered sequence of behaviour type 4. -/
import proofs.«124810_j42863773614188_2_alg».proof.Proof.KIHostDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

set_option maxHeartbeats 4000000 in
theorem V_row3 (c : Dev nD) : (V m c main_v135 : S1x512x128.Idx → Elt F .f32)
    = liftRow (gatherRow 4#32 (m ((c : Thread nD τ).loc main_arg0)) (m ((c : Thread nD τ).loc main_arg1))) := by
  dsimp only [V, stretches]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp only [StableHlo.TRef.nullary, StableHlo.TRef.unary, StableHlo.TRef.binary, StableHlo.TRef.ternary, StableHlo.TRef.of, StableHlo.TRef.toBuf, StableHlo.TRef.ofBuf, cast_eq]
  after_results_simp
  rfl

end Cert.KernelIdeal.Frame

end
-- ==== Proof.KIValueA.lean ====
/-
  What the region writes. At grid point (t, b) the body loads row t of the stacked [4,512,128] array and stores it
  into each of the 64 batch entries of its [1,64,512,128] output block; so the block holds, at (u, e, s, h), the
  loaded row at (0, s, h), and the whole [4,512,512,128] result holds, at (t, e, s, h), the stacked array at (t, s, h).
-/
import proofs.«124810_j42863773614188_2_alg».proof.Proof.KIFrame
import Idealize.ShloMosaic.Lib.Pipeline.Value
import Idealize.ShloMosaic.Lib.ValueIdx
import Idealize.ShloMosaic.Lib.ValueLayout

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- A [1,512,128] row repeated along the batch axis of a [1,64,512,128] block. -/
def rowRep (x0 : Vec F S1x512x128 .f32) : Vec F S1x64x512x128 .f32 :=
  fun y => x0 (ix3 (0 : Fin 1) (y 2) (y 3))

/-- The stored value is the loaded row with a unit axis added: at (u, k, s, h) it is the row at (k, s, h). -/
theorem pay_apply (v0 : Vec F S1x512x128 .f32) (u : Fin 1) (k : Fin 1) (i : Fin 512) (j : Fin 128) :
    k0_pay1 v0 (ix4 u k i j) = v0 (ix3 k i j) := by
  unfold k0_pay1
  rw [Idealize.ShloMosaic.shapeCast_shapeCast]
  exact shapeCast_abc_1abc_apply v0 _ u k i j

/-- A stored slab agrees with the repeated row at any index with the same last two coordinates. -/
theorem piece_fn (v0 : Vec F S1x512x128 .f32) (x : S1x1x512x128.Idx) (y : S1x64x512x128.Idx)
    (hy2 : (y 2).val = (x 2).val) (hy3 : (y 3).val = (x 3).val) : k0_pay1 v0 x = rowRep v0 y := by
  obtain ⟨u, k, i, j, rfl⟩ : ∃ (u : Fin 1) (k : Fin 1) (i : Fin 512) (j : Fin 128), x = ix4 u k i j :=
    ⟨x 0, x 1, x 2, x 3, eq_ix4 x⟩
  rw [pay_apply]
  unfold rowRep
  refine congrArg v0 (funext fun a => Fin.ext ?_)
  match a with
  | ⟨0, _⟩ => show k.val = 0; omega
  | ⟨1, _⟩ => exact hy2.symm
  | ⟨2, _⟩ => exact hy3.symm

/-- One trip stores one slab: the batch entry k of the block. -/
theorem tripL_eq (c : Dev nD) (i : grid0.Coords) (a2 : Memref sig .tc .vmem S1x512x128 .f32) (h2 : a2.IsWhole) (a3 : Memref sig .tc .vmem S1x64x512x128 .f32) (h3 : a3.IsWhole)
    (v0 : Vec F S1x512x128 .f32) (k : Fin k0_t1_loop.trips) :
    tripL_k0_t1 (F := F) Variants.none c none i a2 h2 a3 h3 v0 k
      = [⟨Rect.unit (k0_off1 k) S1x1x512x128.size (k0_off1_inb k), k0_pay1 v0⟩] := by
  unfold tripL_k0_t1 trip_k0_t1
  rfl

/-- Every slab the trips before k stored is a block of the repeated row. -/
theorem pb_pieces (c : Dev nD) (i : grid0.Coords) (a2 : Memref sig .tc .vmem S1x512x128 .f32) (h2 : a2.IsWhole) (a3 : Memref sig .tc .vmem S1x64x512x128 .f32) (h3 : a3.IsWhole)
    (v0 : Vec F S1x512x128 .f32) : ∀ k : ℕ, k ≤ k0_t1_loop.trips →
      ∀ p ∈ pb_k0_t1 (F := F) Variants.none c none i a2 h2 a3 h3 v0 k, ∀ x : p.1.shape.Idx, p.2 x = rowRep v0 (p.1.emb x)
  | 0, _, p, hp, _ => by rw [pb_k0_t1] at hp; exact absurd hp (List.not_mem_nil)
  | k + 1, hk, p, hp, x => by
    have hk' : k < k0_t1_loop.trips := hk
    have hp' : p ∈ pb_k0_t1 (F := F) Variants.none c none i a2 h2 a3 h3 v0 ((⟨k, hk'⟩ : Fin k0_t1_loop.trips).val + 1) := hp
    rw [pb_k0_t1_succ, tripL_eq] at hp'
    rcases List.mem_append.mp hp' with h | h
    · obtain rfl := List.mem_singleton.mp h
      have e2 : k0_off1 (⟨k, hk'⟩ : Fin k0_t1_loop.trips) (2 : Fin 4) = 0 := by rw [k0_off1_eq]; rfl
      have e3 : k0_off1 (⟨k, hk'⟩ : Fin k0_t1_loop.trips) (3 : Fin 4) = 0 := by rw [k0_off1_eq]; rfl
      refine piece_fn v0 x _ ?_ ?_
      · show k0_off1 (⟨k, hk'⟩ : Fin k0_t1_loop.trips) (2 : Fin 4) + 1 * (x 2).val = (x 2).val
        rw [e2]; omega
      · show k0_off1 (⟨k, hk'⟩ : Fin k0_t1_loop.trips) (3 : Fin 4) + 1 * (x 3).val = (x 3).val
        rw [e3]; omega
    · exact pb_pieces c i a2 h2 a3 h3 v0 k (Nat.le_of_lt hk') p h x

theorem hz3 : (![0, 0, 0] : Fin 3 → Nat) = fun _ => 0 := funext fun a => by fin_cases a <;> rfl

/-- What the run found in the output buffer is the slabs of all 64 trips, of the input block as loaded. -/
theorem run_pieces (c : Dev nD) (i : grid0.Coords) (a2 : Memref sig .tc .vmem S1x512x128 .f32) (h2 : a2.IsWhole) (a3 : Memref sig .tc .vmem S1x64x512x128 .f32) (h3 : a3.IsWhole)
    (x0 : Vec F S1x512x128 .f32) :
    (kernelRun (F := F) c i a2 h2 a3 h3 x0).1 = pb_k0_t1 Variants.none c none i a2 h2 a3 h3 x0 k0_t1_loop.trips := by
  unfold kernelRun
  dsimp only
  simp only [View.readAt_eq_ld, h2.read_unread, View.ld_unit_zero (S := S1x512x128) hz3]

/-- The block the body leaves is the loaded row repeated along the batch axis. -/
theorem outBlock_eq (c : Dev nD) (i : grid0.Coords) (a2 : Memref sig .tc .vmem S1x512x128 .f32) (h2 : a2.IsWhole) (a3 : Memref sig .tc .vmem S1x64x512x128 .f32) (h3 : a3.IsWhole)
    (x0 : Vec F S1x512x128 .f32) : outBlock (F := F) c i a2 h2 a3 h3 x0 = rowRep x0 := by
  funext y
  unfold outBlock
  rw [View.read_writes_eq_canon _ _ _ (cover_out c i a2 h2 a3 h3 x0)]
  have hc := cover_out (F := F) c i a2 h2 a3 h3 x0 y
  rw [run_pieces] at hc ⊢
  exact View.canon_apply_of_pieces (rowRep x0) _ (fun p hp x => pb_pieces c i a2 h2 a3 h3 x0 _ (Nat.le_refl _) p hp x) y hc

end Cert.KernelIdeal.Frame

end
-- ==== Proof.KIValueB.lean ====
/-
  From blocks to the array. Point (t, b) writes back block (t, b) of the [4,512,512,128] result; the block is the
  loaded row t repeated along the batch axis, which is the corresponding block of ONE function of the stacked array —
  at (t, e, s, h) the stacked array at (t, s, h) — and the 4 × 8 blocks cover the result.
-/
import proofs.«124810_j42863773614188_2_alg».proof.Proof.KIValueA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The stacked [4,512,128] array repeated along the batch axis: at (t, e, s, h) its entry (t, s, h). -/
def bcastRows (sq : S4x512x128.Idx → Elt F .f32) : S4x512x512x128.Idx → Elt F .f32 :=
  fun i => sq (ix3 (i 0) (i 2) (i 3))

/-- The printed index maps over the grid: the input block's row is the output block's first coordinate; the other
    block coordinates are zero; the output's first two block coordinates range over 4 and 8. -/
theorem idx_facts : ∀ t : Fin cfg0.N, win0_0.index t (0 : Fin 3) = win0_1.index t (0 : Fin 4)
    ∧ win0_0.index t (1 : Fin 3) = 0 ∧ win0_0.index t (2 : Fin 3) = 0
    ∧ win0_1.index t (2 : Fin 4) = 0 ∧ win0_1.index t (3 : Fin 4) = 0
    ∧ win0_1.index t (0 : Fin 4) < 4 ∧ win0_1.index t (1 : Fin 4) < 8 :=
  (by decide +kernel : ∀ t : Fin grid0.N, _)

/-- Every block of the result is some point's. -/
theorem idx_onto : ∀ (q0 : Fin 4) (q1 : Fin 8), ∃ t : Fin cfg0.N, win0_1.index t = ![q0.val, q1.val, 0, 0] :=
  (by decide +kernel : ∀ (q0 : Fin 4) (q1 : Fin 8), ∃ t : Fin grid0.N, win0_1.index t = ![q0.val, q1.val, 0, 0])

/-- What point `t` writes back is its block of the repeated stacked array. -/
theorem flushed_eq (c : Dev nD) (t : Fin cfg0.N) :
    (dats m 0 c).flushed 1 t = ((cfg0.win 1).blk t).view.read (Elt F) (bcastRows (V m c main_v136)) := by
  show (cfg0.win 1).cut (grid0.coords t) ((dats m 0 c).after 1 t) = _
  rw [after0_1]
  unfold outAt
  rw [outBlock_eq]
  obtain ⟨e0, e1, e2, e3, e4, -, -⟩ := idx_facts t
  funext j
  show V m c main_v136 (((cfg0.win 0).blk t).view.emb (ix3 (0 : Fin 1) (j 2) (j 3)))
    = V m c main_v136 (ix3 ((((cfg0.win 1).blk t).view.emb j) 0) ((((cfg0.win 1).blk t).view.emb j) 2) ((((cfg0.win 1).blk t).view.emb j) 3))
  refine congrArg (V m c main_v136) (funext fun a => Fin.ext ?_)
  match a with
  | ⟨0, _⟩ =>
    show win0_0.index t (0 : Fin 3) * 1 + 1 * 0 = win0_1.index t (0 : Fin 4) * 1 + 1 * (j 0).val
    have hj : (j 0).val < 1 := (j 0).isLt
    omega
  | ⟨1, _⟩ =>
    show win0_0.index t (1 : Fin 3) * 512 + 1 * (j 2).val = win0_1.index t (2 : Fin 4) * 512 + 1 * (j 2).val
    omega
  | ⟨2, _⟩ =>
    show win0_0.index t (2 : Fin 3) * 128 + 1 * (j 3).val = win0_1.index t (3 : Fin 4) * 128 + 1 * (j 3).val
    omega

/-- An index of the result is in point `t`'s block iff each coordinate is in the block's range on its axis. -/
theorem mem_blk (t : Fin cfg0.N) (i : S4x512x512x128.Idx) :
    i ∈ ((cfg0.win 1).blk t).view.set ↔ ∀ a : Fin 4, win0_1.index t a * S1x64x512x128.size a ≤ (i a).val ∧ (i a).val < win0_1.index t a * S1x64x512x128.size a + S1x64x512x128.size a := by
  show i ∈ ((View.whole main_v137).slice (win0_1.rect t)).set ↔ _
  rw [View.set_slice_whole, Rect.mem_set_unit]
  exact Iff.rfl

/-- The blocks cover the result: index (t, e, s, h) lies in the block of the point with block coordinates (t, e / 64). -/
theorem covered (i : S4x512x512x128.Idx) :
    ∃ t : Fin cfg0.N, (cfg0.win 1).flush t = true ∧ i ∈ ((cfg0.win 1).blk t).view.set := by
  have hi0 : (i 0).val < 4 := (i 0).isLt
  have hi1 : (i 1).val < 512 := (i 1).isLt
  have hi2 : (i 2).val < 512 := (i 2).isLt
  have hi3 : (i 3).val < 128 := (i 3).isLt
  obtain ⟨t, ht⟩ := idx_onto ⟨(i 0).val, hi0⟩ ⟨(i 1).val / 64, by omega⟩
  have q0 : win0_1.index t (0 : Fin 4) = (i 0).val := congrFun ht 0
  have q1 : win0_1.index t (1 : Fin 4) = (i 1).val / 64 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 64 ≤ (i 1).val ∧ (i 1).val < win0_1.index t (1 : Fin 4) * 64 + 64; omega
  | ⟨2, _⟩ => show win0_1.index t (2 : Fin 4) * 512 ≤ (i 2).val ∧ (i 2).val < win0_1.index t (2 : Fin 4) * 512 + 512; omega
  | ⟨3, _⟩ => show win0_1.index t (3 : Fin 4) * 128 ≤ (i 3).val ∧ (i 3).val < win0_1.index t (3 : Fin 4) * 128 + 128; omega

/-- The result array after the run: the stacked array, as the region found it, repeated along the batch axis. -/
theorem final_out (c : Dev nD) : (dats m 0 c).arrAt 1 cfg0.N = bcastRows (V m c main_v136) :=
  (dats m 0 c).arrAt_eq_of_cover 1 (bcastRows (V m c main_v136)) (fun t _ => flushed_eq m c t) (covered)

/-- The run, read: the result array at the repeated stacked array, the argument arrays unchanged. -/
theorem run : θ_run defs (onTc (τ := τ) (main (F := F))) ⟨m, fun _ => 0, ρ⟩ fun r => ∀ c : Dev nD,
      r.2.mem ((c.tc : Thread nD τ).loc main_v137) = bcastRows (V m c main_v136)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 1).trans (final_out m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Frame

end
-- ==== Proof.KIHost.lean ====
/-
  The stacked [4,512,128] array as the region finds it: the four gathered sequences, each as one row, concatenated.
-/
import proofs.«124810_j42863773614188_2_alg».proof.Proof.KIHostRow0
import proofs.«124810_j42863773614188_2_alg».proof.Proof.KIHostRow1
import proofs.«124810_j42863773614188_2_alg».proof.Proof.KIHostRow2
import proofs.«124810_j42863773614188_2_alg».proof.Proof.KIHostRow3
import proofs.«124810_j42863773614188_2_alg».proof.Proof.KIValueB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

set_option maxHeartbeats 4000000 in
/-- The last host operation stacks the four rows it finds. -/
theorem V_cat (c : Dev nD) : (V m c main_v136 : S4x512x128.Idx → Elt F .f32)
    = concatenate S4x512x128 0
        [⟨S1x512x128, (V m c main_v132 : S1x512x128.Idx → Elt F .f32)⟩, ⟨S1x512x128, (V m c main_v133 : S1x512x128.Idx → Elt F .f32)⟩,
         ⟨S1x512x128, (V m c main_v134 : S1x512x128.Idx → Elt F .f32)⟩, ⟨S1x512x128, (V m c main_v135 : S1x512x128.Idx → Elt F .f32)⟩]
        concatenates_S1x512x128_S1x512x128_S1x512x128_S1x512x128_S4x512x128_d0 := by
  dsimp only [V, stretches]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  simp only [after_cons, after_nil]
  rw [nary4_result]
  rw [nary_result_ne]; rotate_left; decide
  rw [nary_result_ne]; rotate_left; decide
  rw [nary_result_ne]; rotate_left; decide
  rw [nary_result_ne]; rotate_left; decide
  rfl

/-- The stacked array as the region finds it, as a function of the argument arrays. -/
theorem V_stack (c : Dev nD) : (V m c main_v136 : S4x512x128.Idx → Elt F .f32)
    = stack (m ((c : Thread nD τ).loc main_arg0)) (m ((c : Thread nD τ).loc main_arg1)) := by
  rw [V_cat, V_row0, V_row1, V_row2, V_row3]
  rfl

/-- The run of the kernel program, read: the result array at the stacked sequences repeated along the batch axis. -/
theorem run_value : θ_run defs (onTc (τ := τ) (main (F := F))) ⟨m, fun _ => 0, ρ⟩ fun r => ∀ c : Dev nD,
      r.2.mem ((c.tc : Thread nD τ).loc main_v137) = bcastRows (stack (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (congrArg bcastRows (V_stack m c)), (h c).2⟩) (run m ρ)

end Cert.KernelIdeal.Frame

end
-- ==== Proof.RefRun.lean ====
/- The reference program's @main as the list of its 163 host operations, in order, and its run.

   @main is printed in three windows; its eight calls (four of `cumsum`, whose body is one call of `cumsum_0`, and four of
   `_where`) execute the callee's three operations on the call's own buffers, so each call stands here as those three
   operations over the buffers of its record. The program is then a straight line `seq ops`, and every weakly fair
   execution ends with each buffer at the fold `after ops` of the operations' results over the launch contents. -/
import proofs.«124810_j42863773614188_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 163 operations, in order: a called function's three operations stand in its call's place, over the
    buffers of the call's record. -/
abbrev ops : List (HloOp τ sig (Elt F)) :=
  [ StableHlo.reshape main_arg0 main_v0 rfl shapeCasts_S512x512x128_S262144x128,
    StableHlo.reshape main_arg1 main_v1 rfl shapeCasts_S512x512_S262144,
    StableHlo.nullary main_c (constantI S_ 32 1#32),
    StableHlo.unary main_c main_v2 (broadcastInDim S262144 ![] bcast_S_S262144 : (⟨S_, .i32⟩ : BufTy).Contents (Elt F) → (⟨S262144, .i32⟩ : BufTy).Contents (Elt F)),
    StableHlo.binary main_v1 main_v2 main_v3 (cmpi .eq : (⟨S262144, .i32⟩ : BufTy).Contents (Elt F) → (⟨S262144, .i32⟩ : BufTy).Contents (Elt F) → (⟨S262144, .i1⟩ : BufTy).Contents (Elt F)),
    StableHlo.unary main_v3 main_v4 ((extui 32 · natLt_1_32) : (⟨S262144, .i1⟩ : BufTy).Contents (Elt F) → (⟨S262144, .i32⟩ : BufTy).Contents (Elt F)),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v4 : StableHlo.TRef sig ⟨S262144, .i32⟩) (.of main_call0_call0_v0 : StableHlo.TRef sig ⟨S_, .i32⟩) (.of main_v5 : StableHlo.TRef sig ⟨S262144, .i32⟩) (fun x v => Host.reduceWindow IntOp.addi ![262144] ![1] ![262143] ![0] x v reduceWindows_S262144_S262144_w262144s1p262143_0 h_S_),
    StableHlo.nullary main_c_0 (constantI S_ 32 1#32),
    StableHlo.unary main_c_0 main_v6 (broadcastInDim S262144 ![] bcast_S_S262144 : (⟨S_, .i32⟩ : BufTy).Contents (Elt F) → (⟨S262144, .i32⟩ : BufTy).Contents (Elt F)),
    StableHlo.binary main_v5 main_v6 main_v7 (subi : (⟨S262144, .i32⟩ : BufTy).Contents (Elt F) → (⟨S262144, .i32⟩ : BufTy).Contents (Elt F) → (⟨S262144, .i32⟩ : BufTy).Contents (Elt F)),
    StableHlo.unary main_v3 main_v8 ((extui 32 · natLt_1_32) : (⟨S262144, .i1⟩ : BufTy).Contents (Elt F) → (⟨S262144, .i32⟩ : BufTy).Contents (Elt F)),
    StableHlo.nullary main_c_1 (constantI S_ 32 0#32),
    StableHlo.binary main_v8 main_c_1 main_v9 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)),
    StableHlo.nullary main_c_2 (constantI S_ 32 512#32),
    StableHlo.binary main_c_2 main_v9 main_v10 (subi : (⟨S_, .i32⟩ : BufTy).Contents (Elt F) → (⟨S_, .i32⟩ : BufTy).Contents (Elt F) → (⟨S_, .i32⟩ : BufTy).Contents (Elt F)),
    StableHlo.unary main_v10 main_v11 (broadcastInDim S262144 ![] bcast_S_S262144 : (⟨S_, .i32⟩ : BufTy).Contents (Elt F) → (⟨S262144, .i32⟩ : BufTy).Contents (Elt F)),
    StableHlo.binary main_v11 main_v7 main_v12 (addi : (⟨S262144, .i32⟩ : BufTy).Contents (Elt F) → (⟨S262144, .i32⟩ : BufTy).Contents (Elt F) → (⟨S262144, .i32⟩ : BufTy).Contents (Elt F)),
    StableHlo.nullary main_c_3 (constantI S_ 32 0#32),
    StableHlo.unary main_c_3 main_v13 (broadcastInDim S262144 ![] bcast_S_S262144 : (⟨S_, .i32⟩ : BufTy).Contents (Elt F) → (⟨S262144, .i32⟩ : BufTy).Contents (Elt F)),
    StableHlo.binary main_v12 main_v13 main_v14 (cmpi .sge : (⟨S262144, .i32⟩ : BufTy).Contents (Elt F) → (⟨S262144, .i32⟩ : BufTy).Contents (Elt F) → (⟨S262144, .i1⟩ : BufTy).Contents (Elt F)),
    StableHlo.binary main_v3 main_v14 main_v15 (andi : (⟨S262144, .i1⟩ : BufTy).Contents (Elt F) → (⟨S262144, .i1⟩ : BufTy).Contents (Elt F) → (⟨S262144, .i1⟩ : BufTy).Contents (Elt F)),
    StableHlo.nullary main_c_4 (constantI S_ 32 512#32),
    StableHlo.TRef.unary (.of main_c_4 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S262144, .i32⟩) (broadcastInDim S262144 ![] bcast_S_S262144),
    StableHlo.TRef.ternary (.of main_v15 : StableHlo.TRef sig ⟨S262144, .i1⟩) (.of main_v12 : StableHlo.TRef sig ⟨S262144, .i32⟩) (.of main_call1_v1 : StableHlo.TRef sig ⟨S262144, .i32⟩) (.of main_v16 : StableHlo.TRef sig ⟨S262144, .i32⟩) select,
    StableHlo.nullary main_cst (constant S_ .f32 0x00000000#32),
    StableHlo.unary main_cst main_v17 (broadcastInDim S513x128 ![] bcast_S_S513x128 : (⟨S_, .f32⟩ : BufTy).Contents (Elt F) → (⟨S513x128, .f32⟩ : BufTy).Contents (Elt F)),
    StableHlo.nullary main_c_5 (constantI S_ 32 0#32),
    StableHlo.unary main_c_5 main_v18 (broadcastInDim S262144 ![] bcast_S_S262144 : (⟨S_, .i32⟩ : BufTy).Contents (Elt F) → (⟨S262144, .i32⟩ : BufTy).Contents (Elt F)),
    StableHlo.binary main_v16 main_v18 main_v19 (cmpi .slt : (⟨S262144, .i32⟩ : BufTy).Contents (Elt F) → (⟨S262144, .i32⟩ : BufTy).Contents (Elt F) → (⟨S262144, .i1⟩ : BufTy).Contents (Elt F)),
    StableHlo.nullary main_c_6 (constantI S_ 32 513#32),
    StableHlo.unary main_c_6 main_v20 (broadcastInDim S262144 ![] bcast_S_S262144 : (⟨S_, .i32⟩ : BufTy).Contents (Elt F) → (⟨S262144, .i32⟩ : BufTy).Contents (Elt F)),
    StableHlo.binary main_v16 main_v20 main_v21 (addi : (⟨S262144, .i32⟩ : BufTy).Contents (Elt F) → (⟨S262144, .i32⟩ : BufTy).Contents (Elt F) → (⟨S262144, .i32⟩ : BufTy).Contents (Elt F)),
    StableHlo.ternary main_v19 main_v21 main_v16 main_v22 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v22 main_v23 (broadcastInDim S262144x1 ![0] bcast_S262144_S262144x1_0 : (⟨S262144, .i32⟩ : BufTy).Contents (Elt F) → (⟨S262144x1, .i32⟩ : BufTy).Contents (Elt F)),
    StableHlo.ternary main_v17 main_v23 main_v0 main_v24 ((fun x i u => Host.scatter scatter_S513x128_S262144x1_S262144x128_1_0_0_1 (fun _ b => b) x i u) : (⟨S513x128, .f32⟩ : BufTy).Contents (Elt F) → (⟨S262144x1, .i32⟩ : BufTy).Contents (Elt F) → (⟨S262144x128, .f32⟩ : BufTy).Contents (Elt F) → (⟨S513x128, .f32⟩ : BufTy).Contents (Elt F)),
    StableHlo.unary main_v24 main_v25 ((extractStridedSlice S512x128 ![0, 0] · slices_S513x128_S512x128_0_0) : (⟨S513x128, .f32⟩ : BufTy).Contents (Elt F) → (⟨S512x128, .f32⟩ : BufTy).Contents (Elt F)),
    StableHlo.unary main_v25 main_v26 (broadcastInDim S1x512x128 ![1, 2] bcast_S512x128_S1x512x128_1_2 : (⟨S512x128, .f32⟩ : BufTy).Contents (Elt F) → (⟨S1x512x128, .f32⟩ : BufTy).Contents (Elt F)),
    StableHlo.unary main_v26 main_v27 (broadcastInDim S512x512x128 ![0, 1, 2] bcast_S1x512x128_S512x512x128_0_1_2 : (⟨S1x512x128, .f32⟩ : BufTy).Contents (Elt F) → (⟨S512x512x128, .f32⟩ : BufTy).Contents (Elt F)),
    StableHlo.nullary main_c_7 (constantI S_ 32 2#32),
    StableHlo.unary main_c_7 main_v28 (broadcastInDim S262144 ![] bcast_S_S262144 : (⟨S_, .i32⟩ : BufTy).Contents (Elt F) → (⟨S262144, .i32⟩ : BufTy).Contents (Elt F)),
    StableHlo.binary main_v1 main_v28 main_v29 (cmpi .eq : (⟨S262144, .i32⟩ : BufTy).Contents (Elt F) → (⟨S262144, .i32⟩ : BufTy).Contents (Elt F) → (⟨S262144, .i1⟩ : BufTy).Contents (Elt F)),
    StableHlo.unary main_v29 main_v30 ((extui 32 · natLt_1_32) : (⟨S262144, .i1⟩ : BufTy).Contents (Elt F) → (⟨S262144, .i32⟩ : BufTy).Contents (Elt F)),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v30 : StableHlo.TRef sig ⟨S262144, .i32⟩) (.of main_call2_call0_v0 : StableHlo.TRef sig ⟨S_, .i32⟩) (.of main_v31 : StableHlo.TRef sig ⟨S262144, .i32⟩) (fun x v => Host.reduceWindow IntOp.addi ![262144] ![1] ![262143] ![0] x v reduceWindows_S262144_S262144_w262144s1p262143_0 h_S_),
    StableHlo.nullary main_c_8 (constantI S_ 32 1#32),
    StableHlo.unary main_c_8 main_v32 (broadcastInDim S262144 ![] bcast_S_S262144 : (⟨S_, .i32⟩ : BufTy).Contents (Elt F) → (⟨S262144, .i32⟩ : BufTy).Contents (Elt F)),
    StableHlo.binary main_v31 main_v32 main_v33 (subi : (⟨S262144, .i32⟩ : BufTy).Contents (Elt F) → (⟨S262144, .i32⟩ : BufTy).Contents (Elt F) → (⟨S262144, .i32⟩ : BufTy).Contents (Elt F)),
    StableHlo.unary main_v29 main_v34 ((extui 32 · natLt_1_32) : (⟨S262144, .i1⟩ : BufTy).Contents (Elt F) → (⟨S262144, .i32⟩ : BufTy).Contents (Elt F)),
    StableHlo.nullary main_c_9 (constantI S_ 32 0#32),
    StableHlo.binary main_v34 main_c_9 main_v35 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)),
    StableHlo.nullary main_c_10 (constantI S_ 32 512#32),
    StableHlo.binary main_c_10 main_v35 main_v36 (subi : (⟨S_, .i32⟩ : BufTy).Contents (Elt F) → (⟨S_, .i32⟩ : BufTy).Contents (Elt F) → (⟨S_, .i32⟩ : BufTy).Contents (Elt F)),
    StableHlo.unary main_v36 main_v37 (broadcastInDim S262144 ![] bcast_S_S262144 : (⟨S_, .i32⟩ : BufTy).Contents (Elt F) → (⟨S262144, .i32⟩ : BufTy).Contents (Elt F)),
    StableHlo.binary main_v37 main_v33 main_v38 (addi : (⟨S262144, .i32⟩ : BufTy).Contents (Elt F) → (⟨S262144, .i32⟩ : BufTy).Contents (Elt F) → (⟨S262144, .i32⟩ : BufTy).Contents (Elt F)),
    StableHlo.nullary main_c_11 (constantI S_ 32 0#32),
    StableHlo.unary main_c_11 main_v39 (broadcastInDim S262144 ![] bcast_S_S262144 : (⟨S_, .i32⟩ : BufTy).Contents (Elt F) → (⟨S262144, .i32⟩ : BufTy).Contents (Elt F)),
    StableHlo.binary main_v38 main_v39 main_v40 (cmpi .sge : (⟨S262144, .i32⟩ : BufTy).Contents (Elt F) → (⟨S262144, .i32⟩ : BufTy).Contents (Elt F) → (⟨S262144, .i1⟩ : BufTy).Contents (Elt F)),
    StableHlo.binary main_v29 main_v40 main_v41 (andi : (⟨S262144, .i1⟩ : BufTy).Contents (Elt F) → (⟨S262144, .i1⟩ : BufTy).Contents (Elt F) → (⟨S262144, .i1⟩ : BufTy).Contents (Elt F)),
    StableHlo.nullary main_c_12 (constantI S_ 32 512#32),
    StableHlo.TRef.unary (.of main_c_12 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S262144, .i32⟩) (broadcastInDim S262144 ![] bcast_S_S262144),
    StableHlo.TRef.ternary (.of main_v41 : StableHlo.TRef sig ⟨S262144, .i1⟩) (.of main_v38 : StableHlo.TRef sig ⟨S262144, .i32⟩) (.of main_call3_v1 : StableHlo.TRef sig ⟨S262144, .i32⟩) (.of main_v42 : StableHlo.TRef sig ⟨S262144, .i32⟩) select,
    StableHlo.nullary main_cst_13 (constant S_ .f32 0x00000000#32),
    StableHlo.unary main_cst_13 main_v43 (broadcastInDim S513x128 ![] bcast_S_S513x128 : (⟨S_, .f32⟩ : BufTy).Contents (Elt F) → (⟨S513x128, .f32⟩ : BufTy).Contents (Elt F)),
    StableHlo.nullary main_c_14 (constantI S_ 32 0#32),
    StableHlo.unary main_c_14 main_v44 (broadcastInDim S262144 ![] bcast_S_S262144 : (⟨S_, .i32⟩ : BufTy).Contents (Elt F) → (⟨S262144, .i32⟩ : BufTy).Contents (Elt F)),
    StableHlo.binary main_v42 main_v44 main_v45 (cmpi .slt : (⟨S262144, .i32⟩ : BufTy).Contents (Elt F) → (⟨S262144, .i32⟩ : BufTy).Contents (Elt F) → (⟨S262144, .i1⟩ : BufTy).Contents (Elt F)),
    StableHlo.nullary main_c_15 (constantI S_ 32 513#32),
    StableHlo.unary main_c_15 main_v46 (broadcastInDim S262144 ![] bcast_S_S262144 : (⟨S_, .i32⟩ : BufTy).Contents (Elt F) → (⟨S262144, .i32⟩ : BufTy).Contents (Elt F)),
    StableHlo.binary main_v42 main_v46 main_v47 (addi : (⟨S262144, .i32⟩ : BufTy).Contents (Elt F) → (⟨S262144, .i32⟩ : BufTy).Contents (Elt F) → (⟨S262144, .i32⟩ : BufTy).Contents (Elt F)),
    StableHlo.ternary main_v45 main_v47 main_v42 main_v48 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v48 main_v49 (broadcastInDim S262144x1 ![0] bcast_S262144_S262144x1_0 : (⟨S262144, .i32⟩ : BufTy).Contents (Elt F) → (⟨S262144x1, .i32⟩ : BufTy).Contents (Elt F)),
    StableHlo.ternary main_v43 main_v49 main_v0 main_v50 ((fun x i u => Host.scatter scatter_S513x128_S262144x1_S262144x128_1_0_0_1 (fun _ b => b) x i u) : (⟨S513x128, .f32⟩ : BufTy).Contents (Elt F) → (⟨S262144x1, .i32⟩ : BufTy).Contents (Elt F) → (⟨S262144x128, .f32⟩ : BufTy).Contents (Elt F) → (⟨S513x128, .f32⟩ : BufTy).Contents (Elt F)),
    StableHlo.unary main_v50 main_v51 ((extractStridedSlice S512x128 ![0, 0] · slices_S513x128_S512x128_0_0) : (⟨S513x128, .f32⟩ : BufTy).Contents (Elt F) → (⟨S512x128, .f32⟩ : BufTy).Contents (Elt F)),
    StableHlo.unary main_v51 main_v52 (broadcastInDim S1x512x128 ![1, 2] bcast_S512x128_S1x512x128_1_2 : (⟨S512x128, .f32⟩ : BufTy).Contents (Elt F) → (⟨S1x512x128, .f32⟩ : BufTy).Contents (Elt F)),
    StableHlo.unary main_v52 main_v53 (broadcastInDim S512x512x128 ![0, 1, 2] bcast_S1x512x128_S512x512x128_0_1_2 : (⟨S1x512x128, .f32⟩ : BufTy).Contents (Elt F) → (⟨S512x512x128, .f32⟩ : BufTy).Contents (Elt F)),
    StableHlo.nullary main_c_16 (constantI S_ 32 3#32),
    StableHlo.unary main_c_16 main_v54 (broadcastInDim S262144 ![] bcast_S_S262144 : (⟨S_, .i32⟩ : BufTy).Contents (Elt F) → (⟨S262144, .i32⟩ : BufTy).Contents (Elt F)),
    StableHlo.binary main_v1 main_v54 main_v55 (cmpi .eq : (⟨S262144, .i32⟩ : BufTy).Contents (Elt F) → (⟨S262144, .i32⟩ : BufTy).Contents (Elt F) → (⟨S262144, .i1⟩ : BufTy).Contents (Elt F)),
    StableHlo.unary main_v55 main_v56 ((extui 32 · natLt_1_32) : (⟨S262144, .i1⟩ : BufTy).Contents (Elt F) → (⟨S262144, .i32⟩ : BufTy).Contents (Elt F)),
    StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v56 : StableHlo.TRef sig ⟨S262144, .i32⟩) (.of main_call4_call0_v0 : StableHlo.TRef sig ⟨S_, .i32⟩) (.of main_v57 : StableHlo.TRef sig ⟨S262144, .i32⟩) (fun x v => Host.reduceWindow IntOp.addi ![262144] ![1] ![262143] ![0] x v reduceWindows_S262144_S262144_w262144s1p262143_0 h_S_),
    StableHlo.nullary main_c_17 (constantI S_ 32 1#32),
    StableHlo.unary main_c_17 main_v58 (broadcastInDim S262144 ![] bcast_S_S262144 : (⟨S_, .i32⟩ : BufTy).Contents (Elt F) → (⟨S262144, .i32⟩ : BufTy).Contents (Elt F)),
    StableHlo.binary main_v57 main_v58 main_v59 (subi : (⟨S262144, .i32⟩ : BufTy).Contents (Elt F) → (⟨S262144, .i32⟩ : BufTy).Contents (Elt F) → (⟨S262144, .i32⟩ : BufTy).Contents (Elt F)),
    StableHlo.unary main_v55 main_v60 ((extui 32 · natLt_1_32) : (⟨S262144, .i1⟩ : BufTy).Contents (Elt F) → (⟨S262144, .i32⟩ : BufTy).Contents (Elt F)),
    StableHlo.nullary main_c_18 (constantI S_ 32 0#32),
    StableHlo.binary main_v60 main_c_18 main_v61 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)),
    StableHlo.nullary main_c_19 (constantI S_ 32 512#32),
    StableHlo.binary main_c_19 main_v61 main_v62 (subi : (⟨S_, .i32⟩ : BufTy).Contents (Elt F) → (⟨S_, .i32⟩ : BufTy).Contents (Elt F) → (⟨S_, .i32⟩ : BufTy).Contents (Elt F)),
    StableHlo.unary main_v62 main_v63 (broadcastInDim S262144 ![] bcast_S_S262144 : (⟨S_, .i32⟩ : BufTy).Contents (Elt F) → (⟨S262144, .i32⟩ : BufTy).Contents (Elt F)),
    StableHlo.binary main_v63 main_v59 main_v64 (addi : (⟨S262144, .i32⟩ : BufTy).Contents (Elt F) → (⟨S262144, .i32⟩ : BufTy).Contents (Elt F) → (⟨S262144, .i32⟩ : BufTy).Contents (Elt F)),
    StableHlo.nullary main_c_20 (constantI S_ 32 0#32),
    StableHlo.unary main_c_20 main_v65 (broadcastInDim S262144 ![] bcast_S_S262144 : (⟨S_, .i32⟩ : BufTy).Contents (Elt F) → (⟨S262144, .i32⟩ : BufTy).Contents (Elt F)),
    StableHlo.binary main_v64 main_v65 main_v66 (cmpi .sge : (⟨S262144, .i32⟩ : BufTy).Contents (Elt F) → (⟨S262144, .i32⟩ : BufTy).Contents (Elt F) → (⟨S262144, .i1⟩ : BufTy).Contents (Elt F)),
    StableHlo.binary main_v55 main_v66 main_v67 (andi : (⟨S262144, .i1⟩ : BufTy).Contents (Elt F) → (⟨S262144, .i1⟩ : BufTy).Contents (Elt F) → (⟨S262144, .i1⟩ : BufTy).Contents (Elt F)),
    StableHlo.nullary main_c_21 (constantI S_ 32 512#32),
    StableHlo.TRef.unary (.of main_c_21 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S262144, .i32⟩) (broadcastInDim S262144 ![] bcast_S_S262144),
    StableHlo.TRef.ternary (.of main_v67 : StableHlo.TRef sig ⟨S262144, .i1⟩) (.of main_v64 : StableHlo.TRef sig ⟨S262144, .i32⟩) (.of main_call5_v1 : StableHlo.TRef sig ⟨S262144, .i32⟩) (.of main_v68 : StableHlo.TRef sig ⟨S262144, .i32⟩) select,
    StableHlo.nullary main_cst_22 (constant S_ .f32 0x00000000#32),
    StableHlo.unary main_cst_22 main_v69 (broadcastInDim S513x128 ![] bcast_S_S513x128 : (⟨S_, .f32⟩ : BufTy).Contents (Elt F) → (⟨S513x128, .f32⟩ : BufTy).Contents (Elt F)),
    StableHlo.nullary main_c_23 (constantI S_ 32 0#32),
    StableHlo.unary main_c_23 main_v70 (broadcastInDim S262144 ![] bcast_S_S262144 : (⟨S_, .i32⟩ : BufTy).Contents (Elt F) → (⟨S262144, .i32⟩ : BufTy).Contents (Elt F)),
    StableHlo.binary main_v68 main_v70 main_v71 (cmpi .slt : (⟨S262144, .i32⟩ : BufTy).Contents (Elt F) → (⟨S262144, .i32⟩ : BufTy).Contents (Elt F) → (⟨S262144, .i1⟩ : BufTy).Contents (Elt F)),
    StableHlo.nullary main_c_24 (constantI S_ 32 513#32),
    StableHlo.unary main_c_24 main_v72 (broadcastInDim S262144 ![] bcast_S_S262144 : (⟨S_, .i32⟩ : BufTy).Contents (Elt F) → (⟨S262144, .i32⟩ : BufTy).Contents (Elt F)),
    StableHlo.binary main_v68 main_v72 main_v73 (addi : (⟨S262144, .i32⟩ : BufTy).Contents (Elt F) → (⟨S262144, .i32⟩ : BufTy).Contents (Elt F) → (⟨S262144, .i32⟩ : BufTy).Contents (Elt F)),
    StableHlo.ternary main_v71 main_v73 main_v68 main_v74 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v74 main_v75 (broadcastInDim S262144x1 ![0] bcast_S262144_S262144x1_0 : (⟨S262144, .i32⟩ : BufTy).Contents (Elt F) → (⟨S262144x1, .i32⟩ : BufTy).Contents (Elt F)),
    StableHlo.ternary main_v69 main_v75 main_v0 main_v76 ((fun x i u => Host.scatter scatter_S513x128_S262144x1_S262144x128_1_0_0_1 (fun _ b => b) x i u) : (⟨S513x128, .f32⟩ : BufTy).Contents (Elt F) → (⟨S262144x1, .i32⟩ : BufTy).Contents (Elt F) → (⟨S262144x128, .f32⟩ : BufTy).Contents (Elt F) → (⟨S513x128, .f32⟩ : BufTy).Contents (Elt F)),
    StableHlo.unary main_v76 main_v77 ((extractStridedSlice S512x128 ![0, 0] · slices_S513x128_S512x128_0_0) : (⟨S513x128, .f32⟩ : BufTy).Contents (Elt F) → (⟨S512x128, .f32⟩ : BufTy).Contents (Elt F)),
    StableHlo.unary main_v77 main_v78 (broadcastInDim S1x512x128 ![1, 2] bcast_S512x128_S1x512x128_1_2 : (⟨S512x128, .f32⟩ : BufTy).Contents (Elt F) → (⟨S1x512x128, .f32⟩ : BufTy).Contents (Elt F)),
    StableHlo.unary main_v78 main_v79 (broadcastInDim S512x512x128 ![0, 1, 2] bcast_S1x512x128_S512x512x128_0_1_2 : (⟨S1x512x128, .f32⟩ : BufTy).Contents (Elt F) → (⟨S512x512x128, .f32⟩ : BufTy).Contents (Elt F)),
    StableHlo.nullary main_c_25 (constantI S_ 32 4#32),
    StableHlo.unary main_c_25 main_v80 (broadcastInDim S262144 ![] bcast_S_S262144 : (⟨S_, .i32⟩ : BufTy).Contents (Elt F) → (⟨S262144, .i32⟩ : BufTy).Contents (Elt F)),
    StableHlo.binary main_v1 main_v80 main_v81 (cmpi .eq : (⟨S262144, .i32⟩ : BufTy).Contents (Elt F) → (⟨S262144, .i32⟩ : BufTy).Contents (Elt F) → (⟨S262144, .i1⟩ : BufTy).Contents (Elt F)),
    StableHlo.unary main_v81 main_v82 ((extui 32 · natLt_1_32) : (⟨S262144, .i1⟩ : BufTy).Contents (Elt F) → (⟨S262144, .i32⟩ : BufTy).Contents (Elt F)),
    StableHlo.TRef.nullary (.of main_call6_call0_c : StableHlo.TRef sig ⟨S_, .i32⟩) (constantI S_ 32 0#32),
    StableHlo.TRef.unary (.of main_call6_call0_c : StableHlo.TRef sig ⟨S_, .i32⟩) (.of main_call6_call0_v0 : StableHlo.TRef sig ⟨S_, .i32⟩) (broadcastInDim S_ ![] bcast_S_S_),
    StableHlo.TRef.binary (.of main_v82 : StableHlo.TRef sig ⟨S262144, .i32⟩) (.of main_call6_call0_v0 : StableHlo.TRef sig ⟨S_, .i32⟩) (.of main_v83 : StableHlo.TRef sig ⟨S262144, .i32⟩) (fun x v => Host.reduceWindow IntOp.addi ![262144] ![1] ![262143] ![0] x v reduceWindows_S262144_S262144_w262144s1p262143_0 h_S_),
    StableHlo.nullary main_c_26 (constantI S_ 32 1#32),
    StableHlo.unary main_c_26 main_v84 (broadcastInDim S262144 ![] bcast_S_S262144 : (⟨S_, .i32⟩ : BufTy).Contents (Elt F) → (⟨S262144, .i32⟩ : BufTy).Contents (Elt F)),
    StableHlo.binary main_v83 main_v84 main_v85 (subi : (⟨S262144, .i32⟩ : BufTy).Contents (Elt F) → (⟨S262144, .i32⟩ : BufTy).Contents (Elt F) → (⟨S262144, .i32⟩ : BufTy).Contents (Elt F)),
    StableHlo.unary main_v81 main_v86 ((extui 32 · natLt_1_32) : (⟨S262144, .i1⟩ : BufTy).Contents (Elt F) → (⟨S262144, .i32⟩ : BufTy).Contents (Elt F)),
    StableHlo.nullary main_c_27 (constantI S_ 32 0#32),
    StableHlo.binary main_v86 main_c_27 main_v87 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)),
    StableHlo.nullary main_c_28 (constantI S_ 32 512#32),
    StableHlo.binary main_c_28 main_v87 main_v88 (subi : (⟨S_, .i32⟩ : BufTy).Contents (Elt F) → (⟨S_, .i32⟩ : BufTy).Contents (Elt F) → (⟨S_, .i32⟩ : BufTy).Contents (Elt F)),
    StableHlo.unary main_v88 main_v89 (broadcastInDim S262144 ![] bcast_S_S262144 : (⟨S_, .i32⟩ : BufTy).Contents (Elt F) → (⟨S262144, .i32⟩ : BufTy).Contents (Elt F)),
    StableHlo.binary main_v89 main_v85 main_v90 (addi : (⟨S262144, .i32⟩ : BufTy).Contents (Elt F) → (⟨S262144, .i32⟩ : BufTy).Contents (Elt F) → (⟨S262144, .i32⟩ : BufTy).Contents (Elt F)),
    StableHlo.nullary main_c_29 (constantI S_ 32 0#32),
    StableHlo.unary main_c_29 main_v91 (broadcastInDim S262144 ![] bcast_S_S262144 : (⟨S_, .i32⟩ : BufTy).Contents (Elt F) → (⟨S262144, .i32⟩ : BufTy).Contents (Elt F)),
    StableHlo.binary main_v90 main_v91 main_v92 (cmpi .sge : (⟨S262144, .i32⟩ : BufTy).Contents (Elt F) → (⟨S262144, .i32⟩ : BufTy).Contents (Elt F) → (⟨S262144, .i1⟩ : BufTy).Contents (Elt F)),
    StableHlo.binary main_v81 main_v92 main_v93 (andi : (⟨S262144, .i1⟩ : BufTy).Contents (Elt F) → (⟨S262144, .i1⟩ : BufTy).Contents (Elt F) → (⟨S262144, .i1⟩ : BufTy).Contents (Elt F)),
    StableHlo.nullary main_c_30 (constantI S_ 32 512#32),
    StableHlo.TRef.unary (.of main_c_30 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S262144, .i32⟩) (broadcastInDim S262144 ![] bcast_S_S262144),
    StableHlo.TRef.ternary (.of main_v93 : StableHlo.TRef sig ⟨S262144, .i1⟩) (.of main_v90 : StableHlo.TRef sig ⟨S262144, .i32⟩) (.of main_call7_v1 : StableHlo.TRef sig ⟨S262144, .i32⟩) (.of main_v94 : StableHlo.TRef sig ⟨S262144, .i32⟩) select,
    StableHlo.nullary main_cst_31 (constant S_ .f32 0x00000000#32),
    StableHlo.unary main_cst_31 main_v95 (broadcastInDim S513x128 ![] bcast_S_S513x128 : (⟨S_, .f32⟩ : BufTy).Contents (Elt F) → (⟨S513x128, .f32⟩ : BufTy).Contents (Elt F)),
    StableHlo.nullary main_c_32 (constantI S_ 32 0#32),
    StableHlo.unary main_c_32 main_v96 (broadcastInDim S262144 ![] bcast_S_S262144 : (⟨S_, .i32⟩ : BufTy).Contents (Elt F) → (⟨S262144, .i32⟩ : BufTy).Contents (Elt F)),
    StableHlo.binary main_v94 main_v96 main_v97 (cmpi .slt : (⟨S262144, .i32⟩ : BufTy).Contents (Elt F) → (⟨S262144, .i32⟩ : BufTy).Contents (Elt F) → (⟨S262144, .i1⟩ : BufTy).Contents (Elt F)),
    StableHlo.nullary main_c_33 (constantI S_ 32 513#32),
    StableHlo.unary main_c_33 main_v98 (broadcastInDim S262144 ![] bcast_S_S262144 : (⟨S_, .i32⟩ : BufTy).Contents (Elt F) → (⟨S262144, .i32⟩ : BufTy).Contents (Elt F)),
    StableHlo.binary main_v94 main_v98 main_v99 (addi : (⟨S262144, .i32⟩ : BufTy).Contents (Elt F) → (⟨S262144, .i32⟩ : BufTy).Contents (Elt F) → (⟨S262144, .i32⟩ : BufTy).Contents (Elt F)),
    StableHlo.ternary main_v97 main_v99 main_v94 main_v100 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v100 main_v101 (broadcastInDim S262144x1 ![0] bcast_S262144_S262144x1_0 : (⟨S262144, .i32⟩ : BufTy).Contents (Elt F) → (⟨S262144x1, .i32⟩ : BufTy).Contents (Elt F)),
    StableHlo.ternary main_v95 main_v101 main_v0 main_v102 ((fun x i u => Host.scatter scatter_S513x128_S262144x1_S262144x128_1_0_0_1 (fun _ b => b) x i u) : (⟨S513x128, .f32⟩ : BufTy).Contents (Elt F) → (⟨S262144x1, .i32⟩ : BufTy).Contents (Elt F) → (⟨S262144x128, .f32⟩ : BufTy).Contents (Elt F) → (⟨S513x128, .f32⟩ : BufTy).Contents (Elt F)),
    StableHlo.unary main_v102 main_v103 ((extractStridedSlice S512x128 ![0, 0] · slices_S513x128_S512x128_0_0) : (⟨S513x128, .f32⟩ : BufTy).Contents (Elt F) → (⟨S512x128, .f32⟩ : BufTy).Contents (Elt F)),
    StableHlo.unary main_v103 main_v104 (broadcastInDim S1x512x128 ![1, 2] bcast_S512x128_S1x512x128_1_2 : (⟨S512x128, .f32⟩ : BufTy).Contents (Elt F) → (⟨S1x512x128, .f32⟩ : BufTy).Contents (Elt F)),
    StableHlo.unary main_v104 main_v105 (broadcastInDim S512x512x128 ![0, 1, 2] bcast_S1x512x128_S512x512x128_0_1_2 : (⟨S1x512x128, .f32⟩ : BufTy).Contents (Elt F) → (⟨S512x512x128, .f32⟩ : BufTy).Contents (Elt F)),
    StableHlo.unary main_v27 main_v106 (broadcastInDim S1x512x512x128 ![1, 2, 3] bcast_S512x512x128_S1x512x512x128_1_2_3 : (⟨S512x512x128, .f32⟩ : BufTy).Contents (Elt F) → (⟨S1x512x512x128, .f32⟩ : BufTy).Contents (Elt F)),
    StableHlo.unary main_v53 main_v107 (broadcastInDim S1x512x512x128 ![1, 2, 3] bcast_S512x512x128_S1x512x512x128_1_2_3 : (⟨S512x512x128, .f32⟩ : BufTy).Contents (Elt F) → (⟨S1x512x512x128, .f32⟩ : BufTy).Contents (Elt F)),
    StableHlo.unary main_v79 main_v108 (broadcastInDim S1x512x512x128 ![1, 2, 3] bcast_S512x512x128_S1x512x512x128_1_2_3 : (⟨S512x512x128, .f32⟩ : BufTy).Contents (Elt F) → (⟨S1x512x512x128, .f32⟩ : BufTy).Contents (Elt F)),
    StableHlo.unary main_v105 main_v109 (broadcastInDim S1x512x512x128 ![1, 2, 3] bcast_S512x512x128_S1x512x512x128_1_2_3 : (⟨S512x512x128, .f32⟩ : BufTy).Contents (Elt F) → (⟨S1x512x512x128, .f32⟩ : BufTy).Contents (Elt F)),
    StableHlo.nary ![main_v106, main_v107, main_v108, main_v109] main_v110 (fun u => concatenate S4x512x512x128 0 [⟨S1x512x512x128, u 0⟩, ⟨S1x512x512x128, u 1⟩, ⟨S1x512x512x128, u 2⟩, ⟨S1x512x512x128, u 3⟩] concatenates_S1x512x512x128_S1x512x512x128_S1x512x512x128_S1x512x512x128_S4x512x512x128_d0) ]

/-- @main is that straight line: the windows in order, each function's body at its call. The two sides unfold to the
    same chain of operation steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨StableHlo.reshape_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩

/-- For any float values, from any memory with zero counters: every weakly fair execution of @main terminates, and every
    final state has each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefRunFrame.lean ====
/- The reference program's run in the shape of a value certificate's: the result buffer at the fold of the operations,
   the two argument arrays unchanged; and from it the reference's frame claim.

   No operation of the list writes an argument buffer (each writes the one buffer of its own value), so the fold leaves
   both arguments at their launch contents. -/
import proofs.«124810_j42863773614188_2_alg».proof.Defs
import proofs.«124810_j42863773614188_2_alg».proof.Proof.Gen.Pre_finite_inputs
import proofs.«124810_j42863773614188_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The first argument is written by no operation. -/
theorem arg0_eq (V : Valuation τ sig (Elt F)) :
    after ops V (Proc.devRef .tc main_arg0) = V (Proc.devRef .tc main_arg0) := by
  after_results_simp

set_option maxRecDepth 8192 in
set_option maxHeartbeats 4000000 in
/-- The second argument is written by no operation. -/
theorem arg1_eq (V : Valuation τ sig (Elt F)) :
    after ops V (Proc.devRef .tc main_arg1) = V (Proc.devRef .tc main_arg1) := by
  after_results_simp

/-- What the result buffer holds on device `c` when @main has run from memory `m`: the fold of the 163 operations
    over the launch contents, read at the result. -/
def OUT (m : (ℓ : Loc nD τ sig) → Buf (Elt F) ℓ) (c : Dev nD) : Buf (Elt F) ((c.tc : Thread nD τ).loc main_v110) :=
  after ops (launchContents m c) (Proc.devRef .tc main_v110)

/-- For any float values, from any memory with zero counters: every weakly fair execution of @main terminates with the
    result buffer at `OUT m c` and the two arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v110,
      (h c main_arg0).trans (arg0_eq (launchContents m c)),
      (h c main_arg1).trans (arg1_eq (launchContents m c))⟩)
    (run_main m ρ)

/-- The reference's frame claim: it runs and leaves its arguments unchanged. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (run m ρ)

end Cert.ReferenceIdeal.RefRun

end
-- ==== Proof.RefTerm.lean ====
/- The reference's result as one pure term of its two arguments: per behaviour type `k` the scatter's target rows
   (`tgt k`), the plane they give (`plane k`), and the four planes concatenated (`out`). Each definition is the
   composition of the program's operations as they stand, a buffer that several operations read named once. -/
import proofs.«124810_j42863773614188_2_alg».proof.Proof.Gen.ReferenceIdeal

noncomputable section

namespace Cert.ReferenceIdeal.RefRun

open Cert.ReferenceIdeal Cert.ReferenceIdeal.Gen Idealize.ShloMosaic

variable {F : FTy → Type} [FloatOps F]

/-- Which of the 262144 flattened positions hold behaviour type `k`: the type array, flattened, compared with `k`. -/
def eqk (k : BitVec 32) (a1 : (⟨S512x512, .i32⟩ : BufTy).Contents (Elt F)) : (⟨S262144, .i1⟩ : BufTy).Contents (Elt F) :=
  cmpi .eq (shapeCast S262144 a1 shapeCasts_S512x512_S262144) (broadcastInDim S262144 ![] bcast_S_S262144 (constantI S_ 32 k))

/-- Each position's slot among the last 512 of type `k`: 512 minus the number of positions of type `k`, plus the
    running count of them up to the position, minus one. -/
def pos (k : BitVec 32) (a1 : (⟨S512x512, .i32⟩ : BufTy).Contents (Elt F)) : (⟨S262144, .i32⟩ : BufTy).Contents (Elt F) :=
  addi
    (broadcastInDim S262144 ![] bcast_S_S262144
      (subi (constantI S_ 32 512#32)
        (Host.reduce IntOp.addi (extui 32 (eqk k a1) natLt_1_32) (constantI S_ 32 0#32) reducesTo_S262144_S_d0 h_S_)))
    (subi
      (Host.reduceWindow IntOp.addi ![262144] ![1] ![262143] ![0] (extui 32 (eqk k a1) natLt_1_32)
        (broadcastInDim S_ ![] bcast_S_S_ (constantI S_ 32 0#32)) reduceWindows_S262144_S262144_w262144s1p262143_0 h_S_)
      (broadcastInDim S262144 ![] bcast_S_S262144 (constantI S_ 32 1#32)))

/-- The slot where it is a position of type `k` with a slot that is not negative, and 512 elsewhere. -/
def slot (k : BitVec 32) (a1 : (⟨S512x512, .i32⟩ : BufTy).Contents (Elt F)) : (⟨S262144, .i32⟩ : BufTy).Contents (Elt F) :=
  select
    (andi (eqk k a1) (cmpi .sge (pos k a1) (broadcastInDim S262144 ![] bcast_S_S262144 (constantI S_ 32 0#32))))
    (pos k a1)
    (broadcastInDim S262144 ![] bcast_S_S262144 (id (constantI S_ 32 512#32)))

/-- The scatter's target row of each position: the slot, a negative one counted from the end of the 513 rows. -/
def tgt (k : BitVec 32) (a1 : (⟨S512x512, .i32⟩ : BufTy).Contents (Elt F)) : (⟨S262144, .i32⟩ : BufTy).Contents (Elt F) :=
  select
    (cmpi .slt (slot k a1) (broadcastInDim S262144 ![] bcast_S_S262144 (constantI S_ 32 0#32)))
    (addi (slot k a1) (broadcastInDim S262144 ![] bcast_S_S262144 (constantI S_ 32 513#32)))
    (slot k a1)

/-- Behaviour type `k`'s plane of the result: the rows of the flattened first argument scattered into 513 zero rows at
    their targets, the first 512 rows kept, and those broadcast along the two leading axes. -/
def plane (k : BitVec 32) (a0 : (⟨S512x512x128, .f32⟩ : BufTy).Contents (Elt F))
    (a1 : (⟨S512x512, .i32⟩ : BufTy).Contents (Elt F)) : (⟨S1x512x512x128, .f32⟩ : BufTy).Contents (Elt F) :=
  broadcastInDim S1x512x512x128 ![1, 2, 3] bcast_S512x512x128_S1x512x512x128_1_2_3
    (broadcastInDim S512x512x128 ![0, 1, 2] bcast_S1x512x128_S512x512x128_0_1_2
      (broadcastInDim S1x512x128 ![1, 2] bcast_S512x128_S1x512x128_1_2
        (extractStridedSlice S512x128 ![0, 0]
          (Host.scatter scatter_S513x128_S262144x1_S262144x128_1_0_0_1 (fun _ b => b)
            (broadcastInDim S513x128 ![] bcast_S_S513x128 (constant S_ .f32 0x00000000#32))
            (broadcastInDim S262144x1 ![0] bcast_S262144_S262144x1_0 (tgt k a1))
            (shapeCast S262144x128 a0 shapeCasts_S512x512x128_S262144x128))
          slices_S513x128_S512x128_0_0)))

/-- The result as one term of the two arguments: the four behaviour types' planes, concatenated. -/
def out (a0 : (⟨S512x512x128, .f32⟩ : BufTy).Contents (Elt F)) (a1 : (⟨S512x512, .i32⟩ : BufTy).Contents (Elt F)) :
    (⟨S4x512x512x128, .f32⟩ : BufTy).Contents (Elt F) :=
  concatenate S4x512x512x128 0
    [⟨S1x512x512x128, plane 1#32 a0 a1⟩, ⟨S1x512x512x128, plane 2#32 a0 a1⟩, ⟨S1x512x512x128, plane 3#32 a0 a1⟩,
      ⟨S1x512x512x128, plane 4#32 a0 a1⟩]
    concatenates_S1x512x512x128_S1x512x512x128_S1x512x512x128_S1x512x512x128_S4x512x512x128_d0

end Cert.ReferenceIdeal.RefRun

end
-- ==== Proof.RefRunOut.lean ====
/- The reference's result buffer as one pure term of the two argument arrays.

   The last operation concatenates four buffers; before it, each of the four is written by a chain of operations that
   differs from the others only in the behaviour type compared with (1, 2, 3, 4) and in the buffers' names. Reading the
   fold of the operations at each of the four buffers gives `plane k` of the arguments, and the concatenation `out`. -/
import proofs.«124810_j42863773614188_2_alg».proof.Proof.RefRunFrame
import proofs.«124810_j42863773614188_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations but the last (the concatenation), in order. -/
abbrev opsP : List (HloOp τ sig (Elt F)) :=
  [ StableHlo.reshape main_arg0 main_v0 rfl shapeCasts_S512x512x128_S262144x128,
    StableHlo.reshape main_arg1 main_v1 rfl shapeCasts_S512x512_S262144,
    StableHlo.nullary main_c (constantI S_ 32 1#32),
    StableHlo.unary main_c main_v2 (broadcastInDim S262144 ![] bcast_S_S262144 : (⟨S_, .i32⟩ : BufTy).Contents (Elt F) → (⟨S262144, .i32⟩ : BufTy).Contents (Elt F)),
    StableHlo.binary main_v1 main_v2 main_v3 (cmpi .eq : (⟨S262144, .i32⟩ : BufTy).Contents (Elt F) → (⟨S262144, .i32⟩ : BufTy).Contents (Elt F) → (⟨S262144, .i1⟩ : BufTy).Contents (Elt F)),
    StableHlo.unary main_v3 main_v4 ((extui 32 · natLt_1_32) : (⟨S262144, .i1⟩ : BufTy).Contents (Elt F) → (⟨S262144, .i32⟩ : BufTy).Contents (Elt F)),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v4 : StableHlo.TRef sig ⟨S262144, .i32⟩) (.of main_call0_call0_v0 : StableHlo.TRef sig ⟨S_, .i32⟩) (.of main_v5 : StableHlo.TRef sig ⟨S262144, .i32⟩) (fun x v => Host.reduceWindow IntOp.addi ![262144] ![1] ![262143] ![0] x v reduceWindows_S262144_S262144_w262144s1p262143_0 h_S_),
    StableHlo.nullary main_c_0 (constantI S_ 32 1#32),
    StableHlo.unary main_c_0 main_v6 (broadcastInDim S262144 ![] bcast_S_S262144 : (⟨S_, .i32⟩ : BufTy).Contents (Elt F) → (⟨S262144, .i32⟩ : BufTy).Contents (Elt F)),
    StableHlo.binary main_v5 main_v6 main_v7 (subi : (⟨S262144, .i32⟩ : BufTy).Contents (Elt F) → (⟨S262144, .i32⟩ : BufTy).Contents (Elt F) → (⟨S262144, .i32⟩ : BufTy).Contents (Elt F)),
    StableHlo.unary main_v3 main_v8 ((extui 32 · natLt_1_32) : (⟨S262144, .i1⟩ : BufTy).Contents (Elt F) → (⟨S262144, .i32⟩ : BufTy).Contents (Elt F)),
    StableHlo.nullary main_c_1 (constantI S_ 32 0#32),
    StableHlo.binary main_v8 main_c_1 main_v9 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)),
    StableHlo.nullary main_c_2 (constantI S_ 32 512#32),
    StableHlo.binary main_c_2 main_v9 main_v10 (subi : (⟨S_, .i32⟩ : BufTy).Contents (Elt F) → (⟨S_, .i32⟩ : BufTy).Contents (Elt F) → (⟨S_, .i32⟩ : BufTy).Contents (Elt F)),
    StableHlo.unary main_v10 main_v11 (broadcastInDim S262144 ![] bcast_S_S262144 : (⟨S_, .i32⟩ : BufTy).Contents (Elt F) → (⟨S262144, .i32⟩ : BufTy).Contents (Elt F)),
    StableHlo.binary main_v11 main_v7 main_v12 (addi : (⟨S262144, .i32⟩ : BufTy).Contents (Elt F) → (⟨S262144, .i32⟩ : BufTy).Contents (Elt F) → (⟨S262144, .i32⟩ : BufTy).Contents (Elt F)),
    StableHlo.nullary main_c_3 (constantI S_ 32 0#32),
    StableHlo.unary main_c_3 main_v13 (broadcastInDim S262144 ![] bcast_S_S262144 : (⟨S_, .i32⟩ : BufTy).Contents (Elt F) → (⟨S262144, .i32⟩ : BufTy).Contents (Elt F)),
    StableHlo.binary main_v12 main_v13 main_v14 (cmpi .sge : (⟨S262144, .i32⟩ : BufTy).Contents (Elt F) → (⟨S262144, .i32⟩ : BufTy).Contents (Elt F) → (⟨S262144, .i1⟩ : BufTy).Contents (Elt F)),
    StableHlo.binary main_v3 main_v14 main_v15 (andi : (⟨S262144, .i1⟩ : BufTy).Contents (Elt F) → (⟨S262144, .i1⟩ : BufTy).Contents (Elt F) → (⟨S262144, .i1⟩ : BufTy).Contents (Elt F)),
    StableHlo.nullary main_c_4 (constantI S_ 32 512#32),
    StableHlo.TRef.unary (.of main_c_4 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S262144, .i32⟩) (broadcastInDim S262144 ![] bcast_S_S262144),
    StableHlo.TRef.ternary (.of main_v15 : StableHlo.TRef sig ⟨S262144, .i1⟩) (.of main_v12 : StableHlo.TRef sig ⟨S262144, .i32⟩) (.of main_call1_v1 : StableHlo.TRef sig ⟨S262144, .i32⟩) (.of main_v16 : StableHlo.TRef sig ⟨S262144, .i32⟩) select,
    StableHlo.nullary main_cst (constant S_ .f32 0x00000000#32),
    StableHlo.unary main_cst main_v17 (broadcastInDim S513x128 ![] bcast_S_S513x128 : (⟨S_, .f32⟩ : BufTy).Contents (Elt F) → (⟨S513x128, .f32⟩ : BufTy).Contents (Elt F)),
    StableHlo.nullary main_c_5 (constantI S_ 32 0#32),
    StableHlo.unary main_c_5 main_v18 (broadcastInDim S262144 ![] bcast_S_S262144 : (⟨S_, .i32⟩ : BufTy).Contents (Elt F) → (⟨S262144, .i32⟩ : BufTy).Contents (Elt F)),
    StableHlo.binary main_v16 main_v18 main_v19 (cmpi .slt : (⟨S262144, .i32⟩ : BufTy).Contents (Elt F) → (⟨S262144, .i32⟩ : BufTy).Contents (Elt F) → (⟨S262144, .i1⟩ : BufTy).Contents (Elt F)),
    StableHlo.nullary main_c_6 (constantI S_ 32 513#32),
    StableHlo.unary main_c_6 main_v20 (broadcastInDim S262144 ![] bcast_S_S262144 : (⟨S_, .i32⟩ : BufTy).Contents (Elt F) → (⟨S262144, .i32⟩ : BufTy).Contents (Elt F)),
    StableHlo.binary main_v16 main_v20 main_v21 (addi : (⟨S262144, .i32⟩ : BufTy).Contents (Elt F) → (⟨S262144, .i32⟩ : BufTy).Contents (Elt F) → (⟨S262144, .i32⟩ : BufTy).Contents (Elt F)),
    StableHlo.ternary main_v19 main_v21 main_v16 main_v22 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v22 main_v23 (broadcastInDim S262144x1 ![0] bcast_S262144_S262144x1_0 : (⟨S262144, .i32⟩ : BufTy).Contents (Elt F) → (⟨S262144x1, .i32⟩ : BufTy).Contents (Elt F)),
    StableHlo.ternary main_v17 main_v23 main_v0 main_v24 ((fun x i u => Host.scatter scatter_S513x128_S262144x1_S262144x128_1_0_0_1 (fun _ b => b) x i u) : (⟨S513x128, .f32⟩ : BufTy).Contents (Elt F) → (⟨S262144x1, .i32⟩ : BufTy).Contents (Elt F) → (⟨S262144x128, .f32⟩ : BufTy).Contents (Elt F) → (⟨S513x128, .f32⟩ : BufTy).Contents (Elt F)),
    StableHlo.unary main_v24 main_v25 ((extractStridedSlice S512x128 ![0, 0] · slices_S513x128_S512x128_0_0) : (⟨S513x128, .f32⟩ : BufTy).Contents (Elt F) → (⟨S512x128, .f32⟩ : BufTy).Contents (Elt F)),
    StableHlo.unary main_v25 main_v26 (broadcastInDim S1x512x128 ![1, 2] bcast_S512x128_S1x512x128_1_2 : (⟨S512x128, .f32⟩ : BufTy).Contents (Elt F) → (⟨S1x512x128, .f32⟩ : BufTy).Contents (Elt F)),
    StableHlo.unary main_v26 main_v27 (broadcastInDim S512x512x128 ![0, 1, 2] bcast_S1x512x128_S512x512x128_0_1_2 : (⟨S1x512x128, .f32⟩ : BufTy).Contents (Elt F) → (⟨S512x512x128, .f32⟩ : BufTy).Contents (Elt F)),
    StableHlo.nullary main_c_7 (constantI S_ 32 2#32),
    StableHlo.unary main_c_7 main_v28 (broadcastInDim S262144 ![] bcast_S_S262144 : (⟨S_, .i32⟩ : BufTy).Contents (Elt F) → (⟨S262144, .i32⟩ : BufTy).Contents (Elt F)),
    StableHlo.binary main_v1 main_v28 main_v29 (cmpi .eq : (⟨S262144, .i32⟩ : BufTy).Contents (Elt F) → (⟨S262144, .i32⟩ : BufTy).Contents (Elt F) → (⟨S262144, .i1⟩ : BufTy).Contents (Elt F)),
    StableHlo.unary main_v29 main_v30 ((extui 32 · natLt_1_32) : (⟨S262144, .i1⟩ : BufTy).Contents (Elt F) → (⟨S262144, .i32⟩ : BufTy).Contents (Elt F)),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v30 : StableHlo.TRef sig ⟨S262144, .i32⟩) (.of main_call2_call0_v0 : StableHlo.TRef sig ⟨S_, .i32⟩) (.of main_v31 : StableHlo.TRef sig ⟨S262144, .i32⟩) (fun x v => Host.reduceWindow IntOp.addi ![262144] ![1] ![262143] ![0] x v reduceWindows_S262144_S262144_w262144s1p262143_0 h_S_),
    StableHlo.nullary main_c_8 (constantI S_ 32 1#32),
    StableHlo.unary main_c_8 main_v32 (broadcastInDim S262144 ![] bcast_S_S262144 : (⟨S_, .i32⟩ : BufTy).Contents (Elt F) → (⟨S262144, .i32⟩ : BufTy).Contents (Elt F)),
    StableHlo.binary main_v31 main_v32 main_v33 (subi : (⟨S262144, .i32⟩ : BufTy).Contents (Elt F) → (⟨S262144, .i32⟩ : BufTy).Contents (Elt F) → (⟨S262144, .i32⟩ : BufTy).Contents (Elt F)),
    StableHlo.unary main_v29 main_v34 ((extui 32 · natLt_1_32) : (⟨S262144, .i1⟩ : BufTy).Contents (Elt F) → (⟨S262144, .i32⟩ : BufTy).Contents (Elt F)),
    StableHlo.nullary main_c_9 (constantI S_ 32 0#32),
    StableHlo.binary main_v34 main_c_9 main_v35 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)),
    StableHlo.nullary main_c_10 (constantI S_ 32 512#32),
    StableHlo.binary main_c_10 main_v35 main_v36 (subi : (⟨S_, .i32⟩ : BufTy).Contents (Elt F) → (⟨S_, .i32⟩ : BufTy).Contents (Elt F) → (⟨S_, .i32⟩ : BufTy).Contents (Elt F)),
    StableHlo.unary main_v36 main_v37 (broadcastInDim S262144 ![] bcast_S_S262144 : (⟨S_, .i32⟩ : BufTy).Contents (Elt F) → (⟨S262144, .i32⟩ : BufTy).Contents (Elt F)),
    StableHlo.binary main_v37 main_v33 main_v38 (addi : (⟨S262144, .i32⟩ : BufTy).Contents (Elt F) → (⟨S262144, .i32⟩ : BufTy).Contents (Elt F) → (⟨S262144, .i32⟩ : BufTy).Contents (Elt F)),
    StableHlo.nullary main_c_11 (constantI S_ 32 0#32),
    StableHlo.unary main_c_11 main_v39 (broadcastInDim S262144 ![] bcast_S_S262144 : (⟨S_, .i32⟩ : BufTy).Contents (Elt F) → (⟨S262144, .i32⟩ : BufTy).Contents (Elt F)),
    StableHlo.binary main_v38 main_v39 main_v40 (cmpi .sge : (⟨S262144, .i32⟩ : BufTy).Contents (Elt F) → (⟨S262144, .i32⟩ : BufTy).Contents (Elt F) → (⟨S262144, .i1⟩ : BufTy).Contents (Elt F)),
    StableHlo.binary main_v29 main_v40 main_v41 (andi : (⟨S262144, .i1⟩ : BufTy).Contents (Elt F) → (⟨S262144, .i1⟩ : BufTy).Contents (Elt F) → (⟨S262144, .i1⟩ : BufTy).Contents (Elt F)),
    StableHlo.nullary main_c_12 (constantI S_ 32 512#32),
    StableHlo.TRef.unary (.of main_c_12 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S262144, .i32⟩) (broadcastInDim S262144 ![] bcast_S_S262144),
    StableHlo.TRef.ternary (.of main_v41 : StableHlo.TRef sig ⟨S262144, .i1⟩) (.of main_v38 : StableHlo.TRef sig ⟨S262144, .i32⟩) (.of main_call3_v1 : StableHlo.TRef sig ⟨S262144, .i32⟩) (.of main_v42 : StableHlo.TRef sig ⟨S262144, .i32⟩) select,
    StableHlo.nullary main_cst_13 (constant S_ .f32 0x00000000#32),
    StableHlo.unary main_cst_13 main_v43 (broadcastInDim S513x128 ![] bcast_S_S513x128 : (⟨S_, .f32⟩ : BufTy).Contents (Elt F) → (⟨S513x128, .f32⟩ : BufTy).Contents (Elt F)),
    StableHlo.nullary main_c_14 (constantI S_ 32 0#32),
    StableHlo.unary main_c_14 main_v44 (broadcastInDim S262144 ![] bcast_S_S262144 : (⟨S_, .i32⟩ : BufTy).Contents (Elt F) → (⟨S262144, .i32⟩ : BufTy).Contents (Elt F)),
    StableHlo.binary main_v42 main_v44 main_v45 (cmpi .slt : (⟨S262144, .i32⟩ : BufTy).Contents (Elt F) → (⟨S262144, .i32⟩ : BufTy).Contents (Elt F) → (⟨S262144, .i1⟩ : BufTy).Contents (Elt F)),
    StableHlo.nullary main_c_15 (constantI S_ 32 513#32),
    StableHlo.unary main_c_15 main_v46 (broadcastInDim S262144 ![] bcast_S_S262144 : (⟨S_, .i32⟩ : BufTy).Contents (Elt F) → (⟨S262144, .i32⟩ : BufTy).Contents (Elt F)),
    StableHlo.binary main_v42 main_v46 main_v47 (addi : (⟨S262144, .i32⟩ : BufTy).Contents (Elt F) → (⟨S262144, .i32⟩ : BufTy).Contents (Elt F) → (⟨S262144, .i32⟩ : BufTy).Contents (Elt F)),
    StableHlo.ternary main_v45 main_v47 main_v42 main_v48 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v48 main_v49 (broadcastInDim S262144x1 ![0] bcast_S262144_S262144x1_0 : (⟨S262144, .i32⟩ : BufTy).Contents (Elt F) → (⟨S262144x1, .i32⟩ : BufTy).Contents (Elt F)),
    StableHlo.ternary main_v43 main_v49 main_v0 main_v50 ((fun x i u => Host.scatter scatter_S513x128_S262144x1_S262144x128_1_0_0_1 (fun _ b => b) x i u) : (⟨S513x128, .f32⟩ : BufTy).Contents (Elt F) → (⟨S262144x1, .i32⟩ : BufTy).Contents (Elt F) → (⟨S262144x128, .f32⟩ : BufTy).Contents (Elt F) → (⟨S513x128, .f32⟩ : BufTy).Contents (Elt F)),
    StableHlo.unary main_v50 main_v51 ((extractStridedSlice S512x128 ![0, 0] · slices_S513x128_S512x128_0_0) : (⟨S513x128, .f32⟩ : BufTy).Contents (Elt F) → (⟨S512x128, .f32⟩ : BufTy).Contents (Elt F)),
    StableHlo.unary main_v51 main_v52 (broadcastInDim S1x512x128 ![1, 2] bcast_S512x128_S1x512x128_1_2 : (⟨S512x128, .f32⟩ : BufTy).Contents (Elt F) → (⟨S1x512x128, .f32⟩ : BufTy).Contents (Elt F)),
    StableHlo.unary main_v52 main_v53 (broadcastInDim S512x512x128 ![0, 1, 2] bcast_S1x512x128_S512x512x128_0_1_2 : (⟨S1x512x128, .f32⟩ : BufTy).Contents (Elt F) → (⟨S512x512x128, .f32⟩ : BufTy).Contents (Elt F)),
    StableHlo.nullary main_c_16 (constantI S_ 32 3#32),
    StableHlo.unary main_c_16 main_v54 (broadcastInDim S262144 ![] bcast_S_S262144 : (⟨S_, .i32⟩ : BufTy).Contents (Elt F) → (⟨S262144, .i32⟩ : BufTy).Contents (Elt F)),
    StableHlo.binary main_v1 main_v54 main_v55 (cmpi .eq : (⟨S262144, .i32⟩ : BufTy).Contents (Elt F) → (⟨S262144, .i32⟩ : BufTy).Contents (Elt F) → (⟨S262144, .i1⟩ : BufTy).Contents (Elt F)),
    StableHlo.unary main_v55 main_v56 ((extui 32 · natLt_1_32) : (⟨S262144, .i1⟩ : BufTy).Contents (Elt F) → (⟨S262144, .i32⟩ : BufTy).Contents (Elt F)),
    StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v56 : StableHlo.TRef sig ⟨S262144, .i32⟩) (.of main_call4_call0_v0 : StableHlo.TRef sig ⟨S_, .i32⟩) (.of main_v57 : StableHlo.TRef sig ⟨S262144, .i32⟩) (fun x v => Host.reduceWindow IntOp.addi ![262144] ![1] ![262143] ![0] x v reduceWindows_S262144_S262144_w262144s1p262143_0 h_S_),
    StableHlo.nullary main_c_17 (constantI S_ 32 1#32),
    StableHlo.unary main_c_17 main_v58 (broadcastInDim S262144 ![] bcast_S_S262144 : (⟨S_, .i32⟩ : BufTy).Contents (Elt F) → (⟨S262144, .i32⟩ : BufTy).Contents (Elt F)),
    StableHlo.binary main_v57 main_v58 main_v59 (subi : (⟨S262144, .i32⟩ : BufTy).Contents (Elt F) → (⟨S262144, .i32⟩ : BufTy).Contents (Elt F) → (⟨S262144, .i32⟩ : BufTy).Contents (Elt F)),
    StableHlo.unary main_v55 main_v60 ((extui 32 · natLt_1_32) : (⟨S262144, .i1⟩ : BufTy).Contents (Elt F) → (⟨S262144, .i32⟩ : BufTy).Contents (Elt F)),
    StableHlo.nullary main_c_18 (constantI S_ 32 0#32),
    StableHlo.binary main_v60 main_c_18 main_v61 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)),
    StableHlo.nullary main_c_19 (constantI S_ 32 512#32),
    StableHlo.binary main_c_19 main_v61 main_v62 (subi : (⟨S_, .i32⟩ : BufTy).Contents (Elt F) → (⟨S_, .i32⟩ : BufTy).Contents (Elt F) → (⟨S_, .i32⟩ : BufTy).Contents (Elt F)),
    StableHlo.unary main_v62 main_v63 (broadcastInDim S262144 ![] bcast_S_S262144 : (⟨S_, .i32⟩ : BufTy).Contents (Elt F) → (⟨S262144, .i32⟩ : BufTy).Contents (Elt F)),
    StableHlo.binary main_v63 main_v59 main_v64 (addi : (⟨S262144, .i32⟩ : BufTy).Contents (Elt F) → (⟨S262144, .i32⟩ : BufTy).Contents (Elt F) → (⟨S262144, .i32⟩ : BufTy).Contents (Elt F)),
    StableHlo.nullary main_c_20 (constantI S_ 32 0#32),
    StableHlo.unary main_c_20 main_v65 (broadcastInDim S262144 ![] bcast_S_S262144 : (⟨S_, .i32⟩ : BufTy).Contents (Elt F) → (⟨S262144, .i32⟩ : BufTy).Contents (Elt F)),
    StableHlo.binary main_v64 main_v65 main_v66 (cmpi .sge : (⟨S262144, .i32⟩ : BufTy).Contents (Elt F) → (⟨S262144, .i32⟩ : BufTy).Contents (Elt F) → (⟨S262144, .i1⟩ : BufTy).Contents (Elt F)),
    StableHlo.binary main_v55 main_v66 main_v67 (andi : (⟨S262144, .i1⟩ : BufTy).Contents (Elt F) → (⟨S262144, .i1⟩ : BufTy).Contents (Elt F) → (⟨S262144, .i1⟩ : BufTy).Contents (Elt F)),
    StableHlo.nullary main_c_21 (constantI S_ 32 512#32),
    StableHlo.TRef.unary (.of main_c_21 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S262144, .i32⟩) (broadcastInDim S262144 ![] bcast_S_S262144),
    StableHlo.TRef.ternary (.of main_v67 : StableHlo.TRef sig ⟨S262144, .i1⟩) (.of main_v64 : StableHlo.TRef sig ⟨S262144, .i32⟩) (.of main_call5_v1 : StableHlo.TRef sig ⟨S262144, .i32⟩) (.of main_v68 : StableHlo.TRef sig ⟨S262144, .i32⟩) select,
    StableHlo.nullary main_cst_22 (constant S_ .f32 0x00000000#32),
    StableHlo.unary main_cst_22 main_v69 (broadcastInDim S513x128 ![] bcast_S_S513x128 : (⟨S_, .f32⟩ : BufTy).Contents (Elt F) → (⟨S513x128, .f32⟩ : BufTy).Contents (Elt F)),
    StableHlo.nullary main_c_23 (constantI S_ 32 0#32),
    StableHlo.unary main_c_23 main_v70 (broadcastInDim S262144 ![] bcast_S_S262144 : (⟨S_, .i32⟩ : BufTy).Contents (Elt F) → (⟨S262144, .i32⟩ : BufTy).Contents (Elt F)),
    StableHlo.binary main_v68 main_v70 main_v71 (cmpi .slt : (⟨S262144, .i32⟩ : BufTy).Contents (Elt F) → (⟨S262144, .i32⟩ : BufTy).Contents (Elt F) → (⟨S262144, .i1⟩ : BufTy).Contents (Elt F)),
    StableHlo.nullary main_c_24 (constantI S_ 32 513#32),
    StableHlo.unary main_c_24 main_v72 (broadcastInDim S262144 ![] bcast_S_S262144 : (⟨S_, .i32⟩ : BufTy).Contents (Elt F) → (⟨S262144, .i32⟩ : BufTy).Contents (Elt F)),
    StableHlo.binary main_v68 main_v72 main_v73 (addi : (⟨S262144, .i32⟩ : BufTy).Contents (Elt F) → (⟨S262144, .i32⟩ : BufTy).Contents (Elt F) → (⟨S262144, .i32⟩ : BufTy).Contents (Elt F)),
    StableHlo.ternary main_v71 main_v73 main_v68 main_v74 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v74 main_v75 (broadcastInDim S262144x1 ![0] bcast_S262144_S262144x1_0 : (⟨S262144, .i32⟩ : BufTy).Contents (Elt F) → (⟨S262144x1, .i32⟩ : BufTy).Contents (Elt F)),
    StableHlo.ternary main_v69 main_v75 main_v0 main_v76 ((fun x i u => Host.scatter scatter_S513x128_S262144x1_S262144x128_1_0_0_1 (fun _ b => b) x i u) : (⟨S513x128, .f32⟩ : BufTy).Contents (Elt F) → (⟨S262144x1, .i32⟩ : BufTy).Contents (Elt F) → (⟨S262144x128, .f32⟩ : BufTy).Contents (Elt F) → (⟨S513x128, .f32⟩ : BufTy).Contents (Elt F)),
    StableHlo.unary main_v76 main_v77 ((extractStridedSlice S512x128 ![0, 0] · slices_S513x128_S512x128_0_0) : (⟨S513x128, .f32⟩ : BufTy).Contents (Elt F) → (⟨S512x128, .f32⟩ : BufTy).Contents (Elt F)),
    StableHlo.unary main_v77 main_v78 (broadcastInDim S1x512x128 ![1, 2] bcast_S512x128_S1x512x128_1_2 : (⟨S512x128, .f32⟩ : BufTy).Contents (Elt F) → (⟨S1x512x128, .f32⟩ : BufTy).Contents (Elt F)),
    StableHlo.unary main_v78 main_v79 (broadcastInDim S512x512x128 ![0, 1, 2] bcast_S1x512x128_S512x512x128_0_1_2 : (⟨S1x512x128, .f32⟩ : BufTy).Contents (Elt F) → (⟨S512x512x128, .f32⟩ : BufTy).Contents (Elt F)),
    StableHlo.nullary main_c_25 (constantI S_ 32 4#32),
    StableHlo.unary main_c_25 main_v80 (broadcastInDim S262144 ![] bcast_S_S262144 : (⟨S_, .i32⟩ : BufTy).Contents (Elt F) → (⟨S262144, .i32⟩ : BufTy).Contents (Elt F)),
    StableHlo.binary main_v1 main_v80 main_v81 (cmpi .eq : (⟨S262144, .i32⟩ : BufTy).Contents (Elt F) → (⟨S262144, .i32⟩ : BufTy).Contents (Elt F) → (⟨S262144, .i1⟩ : BufTy).Contents (Elt F)),
    StableHlo.unary main_v81 main_v82 ((extui 32 · natLt_1_32) : (⟨S262144, .i1⟩ : BufTy).Contents (Elt F) → (⟨S262144, .i32⟩ : BufTy).Contents (Elt F)),
    StableHlo.TRef.nullary (.of main_call6_call0_c : StableHlo.TRef sig ⟨S_, .i32⟩) (constantI S_ 32 0#32),
    StableHlo.TRef.unary (.of main_call6_call0_c : StableHlo.TRef sig ⟨S_, .i32⟩) (.of main_call6_call0_v0 : StableHlo.TRef sig ⟨S_, .i32⟩) (broadcastInDim S_ ![] bcast_S_S_),
    StableHlo.TRef.binary (.of main_v82 : StableHlo.TRef sig ⟨S262144, .i32⟩) (.of main_call6_call0_v0 : StableHlo.TRef sig ⟨S_, .i32⟩) (.of main_v83 : StableHlo.TRef sig ⟨S262144, .i32⟩) (fun x v => Host.reduceWindow IntOp.addi ![262144] ![1] ![262143] ![0] x v reduceWindows_S262144_S262144_w262144s1p262143_0 h_S_),
    StableHlo.nullary main_c_26 (constantI S_ 32 1#32),
    StableHlo.unary main_c_26 main_v84 (broadcastInDim S262144 ![] bcast_S_S262144 : (⟨S_, .i32⟩ : BufTy).Contents (Elt F) → (⟨S262144, .i32⟩ : BufTy).Contents (Elt F)),
    StableHlo.binary main_v83 main_v84 main_v85 (subi : (⟨S262144, .i32⟩ : BufTy).Contents (Elt F) → (⟨S262144, .i32⟩ : BufTy).Contents (Elt F) → (⟨S262144, .i32⟩ : BufTy).Contents (Elt F)),
    StableHlo.unary main_v81 main_v86 ((extui 32 · natLt_1_32) : (⟨S262144, .i1⟩ : BufTy).Contents (Elt F) → (⟨S262144, .i32⟩ : BufTy).Contents (Elt F)),
    StableHlo.nullary main_c_27 (constantI S_ 32 0#32),
    StableHlo.binary main_v86 main_c_27 main_v87 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)),
    StableHlo.nullary main_c_28 (constantI S_ 32 512#32),
    StableHlo.binary main_c_28 main_v87 main_v88 (subi : (⟨S_, .i32⟩ : BufTy).Contents (Elt F) → (⟨S_, .i32⟩ : BufTy).Contents (Elt F) → (⟨S_, .i32⟩ : BufTy).Contents (Elt F)),
    StableHlo.unary main_v88 main_v89 (broadcastInDim S262144 ![] bcast_S_S262144 : (⟨S_, .i32⟩ : BufTy).Contents (Elt F) → (⟨S262144, .i32⟩ : BufTy).Contents (Elt F)),
    StableHlo.binary main_v89 main_v85 main_v90 (addi : (⟨S262144, .i32⟩ : BufTy).Contents (Elt F) → (⟨S262144, .i32⟩ : BufTy).Contents (Elt F) → (⟨S262144, .i32⟩ : BufTy).Contents (Elt F)),
    StableHlo.nullary main_c_29 (constantI S_ 32 0#32),
    StableHlo.unary main_c_29 main_v91 (broadcastInDim S262144 ![] bcast_S_S262144 : (⟨S_, .i32⟩ : BufTy).Contents (Elt F) → (⟨S262144, .i32⟩ : BufTy).Contents (Elt F)),
    StableHlo.binary main_v90 main_v91 main_v92 (cmpi .sge : (⟨S262144, .i32⟩ : BufTy).Contents (Elt F) → (⟨S262144, .i32⟩ : BufTy).Contents (Elt F) → (⟨S262144, .i1⟩ : BufTy).Contents (Elt F)),
    StableHlo.binary main_v81 main_v92 main_v93 (andi : (⟨S262144, .i1⟩ : BufTy).Contents (Elt F) → (⟨S262144, .i1⟩ : BufTy).Contents (Elt F) → (⟨S262144, .i1⟩ : BufTy).Contents (Elt F)),
    StableHlo.nullary main_c_30 (constantI S_ 32 512#32),
    StableHlo.TRef.unary (.of main_c_30 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S262144, .i32⟩) (broadcastInDim S262144 ![] bcast_S_S262144),
    StableHlo.TRef.ternary (.of main_v93 : StableHlo.TRef sig ⟨S262144, .i1⟩) (.of main_v90 : StableHlo.TRef sig ⟨S262144, .i32⟩) (.of main_call7_v1 : StableHlo.TRef sig ⟨S262144, .i32⟩) (.of main_v94 : StableHlo.TRef sig ⟨S262144, .i32⟩) select,
    StableHlo.nullary main_cst_31 (constant S_ .f32 0x00000000#32),
    StableHlo.unary main_cst_31 main_v95 (broadcastInDim S513x128 ![] bcast_S_S513x128 : (⟨S_, .f32⟩ : BufTy).Contents (Elt F) → (⟨S513x128, .f32⟩ : BufTy).Contents (Elt F)),
    StableHlo.nullary main_c_32 (constantI S_ 32 0#32),
    StableHlo.unary main_c_32 main_v96 (broadcastInDim S262144 ![] bcast_S_S262144 : (⟨S_, .i32⟩ : BufTy).Contents (Elt F) → (⟨S262144, .i32⟩ : BufTy).Contents (Elt F)),
    StableHlo.binary main_v94 main_v96 main_v97 (cmpi .slt : (⟨S262144, .i32⟩ : BufTy).Contents (Elt F) → (⟨S262144, .i32⟩ : BufTy).Contents (Elt F) → (⟨S262144, .i1⟩ : BufTy).Contents (Elt F)),
    StableHlo.nullary main_c_33 (constantI S_ 32 513#32),
    StableHlo.unary main_c_33 main_v98 (broadcastInDim S262144 ![] bcast_S_S262144 : (⟨S_, .i32⟩ : BufTy).Contents (Elt F) → (⟨S262144, .i32⟩ : BufTy).Contents (Elt F)),
    StableHlo.binary main_v94 main_v98 main_v99 (addi : (⟨S262144, .i32⟩ : BufTy).Contents (Elt F) → (⟨S262144, .i32⟩ : BufTy).Contents (Elt F) → (⟨S262144, .i32⟩ : BufTy).Contents (Elt F)),
    StableHlo.ternary main_v97 main_v99 main_v94 main_v100 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v100 main_v101 (broadcastInDim S262144x1 ![0] bcast_S262144_S262144x1_0 : (⟨S262144, .i32⟩ : BufTy).Contents (Elt F) → (⟨S262144x1, .i32⟩ : BufTy).Contents (Elt F)),
    StableHlo.ternary main_v95 main_v101 main_v0 main_v102 ((fun x i u => Host.scatter scatter_S513x128_S262144x1_S262144x128_1_0_0_1 (fun _ b => b) x i u) : (⟨S513x128, .f32⟩ : BufTy).Contents (Elt F) → (⟨S262144x1, .i32⟩ : BufTy).Contents (Elt F) → (⟨S262144x128, .f32⟩ : BufTy).Contents (Elt F) → (⟨S513x128, .f32⟩ : BufTy).Contents (Elt F)),
    StableHlo.unary main_v102 main_v103 ((extractStridedSlice S512x128 ![0, 0] · slices_S513x128_S512x128_0_0) : (⟨S513x128, .f32⟩ : BufTy).Contents (Elt F) → (⟨S512x128, .f32⟩ : BufTy).Contents (Elt F)),
    StableHlo.unary main_v103 main_v104 (broadcastInDim S1x512x128 ![1, 2] bcast_S512x128_S1x512x128_1_2 : (⟨S512x128, .f32⟩ : BufTy).Contents (Elt F) → (⟨S1x512x128, .f32⟩ : BufTy).Contents (Elt F)),
    StableHlo.unary main_v104 main_v105 (broadcastInDim S512x512x128 ![0, 1, 2] bcast_S1x512x128_S512x512x128_0_1_2 : (⟨S1x512x128, .f32⟩ : BufTy).Contents (Elt F) → (⟨S512x512x128, .f32⟩ : BufTy).Contents (Elt F)),
    StableHlo.unary main_v27 main_v106 (broadcastInDim S1x512x512x128 ![1, 2, 3] bcast_S512x512x128_S1x512x512x128_1_2_3 : (⟨S512x512x128, .f32⟩ : BufTy).Contents (Elt F) → (⟨S1x512x512x128, .f32⟩ : BufTy).Contents (Elt F)),
    StableHlo.unary main_v53 main_v107 (broadcastInDim S1x512x512x128 ![1, 2, 3] bcast_S512x512x128_S1x512x512x128_1_2_3 : (⟨S512x512x128, .f32⟩ : BufTy).Contents (Elt F) → (⟨S1x512x512x128, .f32⟩ : BufTy).Contents (Elt F)),
    StableHlo.unary main_v79 main_v108 (broadcastInDim S1x512x512x128 ![1, 2, 3] bcast_S512x512x128_S1x512x512x128_1_2_3 : (⟨S512x512x128, .f32⟩ : BufTy).Contents (Elt F) → (⟨S1x512x512x128, .f32⟩ : BufTy).Contents (Elt F)),
    StableHlo.unary main_v105 main_v109 (broadcastInDim S1x512x512x128 ![1, 2, 3] bcast_S512x512x128_S1x512x512x128_1_2_3 : (⟨S512x512x128, .f32⟩ : BufTy).Contents (Elt F) → (⟨S1x512x512x128, .f32⟩ : BufTy).Contents (Elt F)) ]

/-- The operations are those, then the concatenation. -/
theorem ops_split : (ops : List (HloOp τ sig (Elt F)))
    = opsP ++ [StableHlo.nary ![main_v106, main_v107, main_v108, main_v109] main_v110 (fun u => concatenate S4x512x512x128 0 [⟨S1x512x512x128, u 0⟩, ⟨S1x512x512x128, u 1⟩, ⟨S1x512x512x128, u 2⟩, ⟨S1x512x512x128, u 3⟩] concatenates_S1x512x512x128_S1x512x512x128_S1x512x512x128_S1x512x512x128_S4x512x512x128_d0)] := rfl

/-- The fold over a line and one more operation: that operation's result over the line's fold. -/
theorem after_snoc (l : List (HloOp τ sig (Elt F))) (op : HloOp τ sig (Elt F)) (V : Valuation τ sig (Elt F)) :
    after (l ++ [op]) V = op.result (after l V) := by
  induction l generalizing V with
  | nil => rfl
  | cons o l ih => simp only [List.cons_append, after_cons, ih]

attribute [local irreducible] Host.scatter Host.reduce Host.reduceWindow in
set_option maxRecDepth 8192 in
set_option maxHeartbeats 40000000 in
/-- The first operand of the concatenation is behaviour type 1's plane: each operation's result at its own buffer
    is its function of its operands' contents, and a buffer keeps its contents under every other operation. -/
theorem plane1_eq (V : Valuation τ sig (Elt F)) :
    after opsP V (Proc.devRef .tc main_v106)
      = plane 1#32 (V (Proc.devRef .tc main_arg0)) (V (Proc.devRef .tc main_arg1)) := by
  simp (disch := decide) only [after_cons, after_nil,
    nullary_result', unary_result', binary_result', ternary_result', reshape_result',
    nullary_result_ne', unary_result_ne', binary_result_ne', ternary_result_ne', reshape_result_ne']
  rfl

attribute [local irreducible] Host.scatter Host.reduce Host.reduceWindow in
set_option maxRecDepth 8192 in
set_option maxHeartbeats 40000000 in
/-- The second operand of the concatenation is behaviour type 2's plane: each operation's result at its own buffer
    is its function of its operands' contents, and a buffer keeps its contents under every other operation. -/
theorem plane2_eq (V : Valuation τ sig (Elt F)) :
    after opsP V (Proc.devRef .tc main_v107)
      = plane 2#32 (V (Proc.devRef .tc main_arg0)) (V (Proc.devRef .tc main_arg1)) := by
  simp (disch := decide) only [after_cons, after_nil,
    nullary_result', unary_result', binary_result', ternary_result', reshape_result',
    nullary_result_ne', unary_result_ne', binary_result_ne', ternary_result_ne', reshape_result_ne']
  rfl

attribute [local irreducible] Host.scatter Host.reduce Host.reduceWindow in
set_option maxRecDepth 8192 in
set_option maxHeartbeats 40000000 in
/-- The third operand of the concatenation is behaviour type 3's plane: each operation's result at its own buffer
    is its function of its operands' contents, and a buffer keeps its contents under every other operation. -/
theorem plane3_eq (V : Valuation τ sig (Elt F)) :
    after opsP V (Proc.devRef .tc main_v108)
      = plane 3#32 (V (Proc.devRef .tc main_arg0)) (V (Proc.devRef .tc main_arg1)) := by
  simp (disch := decide) only [after_cons, after_nil,
    nullary_result', unary_result', binary_result', ternary_result', reshape_result',
    nullary_result_ne', unary_result_ne', binary_result_ne', ternary_result_ne', reshape_result_ne']
  rfl

attribute [local irreducible] Host.scatter Host.reduce Host.reduceWindow in
set_option maxRecDepth 8192 in
set_option maxHeartbeats 40000000 in
/-- The fourth operand of the concatenation is behaviour type 4's plane: each operation's result at its own buffer
    is its function of its operands' contents, and a buffer keeps its contents under every other operation. -/
theorem plane4_eq (V : Valuation τ sig (Elt F)) :
    after opsP V (Proc.devRef .tc main_v109)
      = plane 4#32 (V (Proc.devRef .tc main_arg0)) (V (Proc.devRef .tc main_arg1)) := by
  simp (disch := decide) only [after_cons, after_nil,
    nullary_result', unary_result', binary_result', ternary_result', reshape_result',
    nullary_result_ne', unary_result_ne', binary_result_ne', ternary_result_ne', reshape_result_ne']
  rfl

set_option maxRecDepth 16384 in
/-- The result buffer after the whole line: the four planes concatenated. -/
theorem out_eq (V : Valuation τ sig (Elt F)) :
    after ops V (Proc.devRef .tc main_v110)
      = out (V (Proc.devRef .tc main_arg0)) (V (Proc.devRef .tc main_arg1)) := by
  rw [ops_split, after_snoc, nary_result]
  show concatenate S4x512x512x128 0
      [⟨S1x512x512x128, after opsP V (Proc.devRef .tc main_v106)⟩, ⟨S1x512x512x128, after opsP V (Proc.devRef .tc main_v107)⟩,
        ⟨S1x512x512x128, after opsP V (Proc.devRef .tc main_v108)⟩, ⟨S1x512x512x128, after opsP V (Proc.devRef .tc main_v109)⟩]
      concatenates_S1x512x512x128_S1x512x512x128_S1x512x512x128_S1x512x512x128_S4x512x512x128_d0 = _
  rw [plane1_eq, plane2_eq, plane3_eq, plane4_eq]
  rfl

/-- What @main leaves in the result buffer, as the term of the arguments' launch contents. -/
theorem OUT_eq (m : (ℓ : Loc nD τ sig) → Buf (Elt F) ℓ) (c : Dev nD) :
    OUT m c = out (m ((c.tc : Thread nD τ).loc main_arg0)) (m ((c.tc : Thread nD τ).loc main_arg1)) :=
  out_eq (launchContents m c)

end Cert.ReferenceIdeal.RefRun

end
-- ==== Proof.StackLayout.lean ====
/-
  Layout reads used to compare the two results index by index: a stack of four pieces of extent one along the leading
  axis reads, at (b, …), piece b at (0, …); a [512,128] sequence lifted to a [1,512,128] row reads at (0, s, h) the
  sequence at (s, h); and the same sequence broadcast to [1,512,128], to [512,512,128] and to [1,512,512,128] reads at
  (0, e, s, h), whatever the batch entry e, the sequence at (s, h).
-/
import Idealize.ShloMosaic.Lib.Pipeline.Value
import Idealize.ShloMosaic.Lib.ValueIdx
import Idealize.ShloMosaic.Lib.ValueLayout

set_option maxRecDepth 16384

noncomputable section

namespace Cert.StackLayout

open Idealize.ShloMosaic Idealize.ShloMosaic.ValueIdx

abbrev S512x128 : Shape := ⟨2, ![512, 128]⟩
abbrev S1x512x128 : Shape := ⟨3, ![1, 512, 128]⟩
abbrev S4x512x128 : Shape := ⟨3, ![4, 512, 128]⟩
abbrev S512x512x128 : Shape := ⟨3, ![512, 512, 128]⟩
abbrev S1x512x512x128 : Shape := ⟨4, ![1, 512, 512, 128]⟩
abbrev S4x512x512x128 : Shape := ⟨4, ![4, 512, 512, 128]⟩

variable {α : Type}

/-- A [512,128] sequence lifted to one [1,512,128] row. -/
theorem lift_apply (h1 : S512x128.BroadcastsInDim S1x512x128 ![1, 2]) (Y : S512x128.Idx → α) (u : Fin 1) (s : Fin 512) (h : Fin 128) :
    broadcastInDim S1x512x128 ![1, 2] h1 Y (ix3 u s h) = Y (ix2 s h) :=
  broadcastInDim_apply _ h1 Y _ _ (fun a => by
    match a with
    | ⟨0, _⟩ => show s.val = if (512 : ℕ) = 1 then 0 else s.val; rw [if_neg (by decide)]
    | ⟨1, _⟩ => show h.val = if (128 : ℕ) = 1 then 0 else h.val; rw [if_neg (by decide)])

/-- A [1,512,128] row broadcast along a new batch axis of 512. -/
theorem batch_apply (h2 : S1x512x128.BroadcastsInDim S512x512x128 ![0, 1, 2]) (W : S1x512x128.Idx → α) (e : Fin 512) (s : Fin 512) (h : Fin 128) :
    broadcastInDim S512x512x128 ![0, 1, 2] h2 W (ix3 e s h) = W (ix3 (0 : Fin 1) s h) :=
  broadcastInDim_apply _ h2 W _ _ (fun a => by
    match a with
    | ⟨0, _⟩ => show (0 : ℕ) = if (1 : ℕ) = 1 then 0 else e.val; rw [if_pos rfl]
    | ⟨1, _⟩ => show s.val = if (512 : ℕ) = 1 then 0 else s.val; rw [if_neg (by decide)]
    | ⟨2, _⟩ => show h.val = if (128 : ℕ) = 1 then 0 else h.val; rw [if_neg (by decide)])

/-- A [512,512,128] array given a leading unit axis. -/
theorem unit_apply (h3 : S512x512x128.BroadcastsInDim S1x512x512x128 ![1, 2, 3]) (Z : S512x512x128.Idx → α) (u : Fin 1) (e : Fin 512) (s : Fin 512) (h : Fin 128) :
    broadcastInDim S1x512x512x128 ![1, 2, 3] h3 Z (ix4 u e s h) = Z (ix3 e s h) :=
  broadcastInDim_apply _ h3 Z _ _ (fun a => by
    match a with
    | ⟨0, _⟩ => show e.val = if (512 : ℕ) = 1 then 0 else e.val; rw [if_neg (by decide)]
    | ⟨1, _⟩ => show s.val = if (512 : ℕ) = 1 then 0 else s.val; rw [if_neg (by decide)]
    | ⟨2, _⟩ => show h.val = if (128 : ℕ) = 1 then 0 else h.val; rw [if_neg (by decide)])

/-- The three broadcasts composed: the sequence at (s, h), whatever the batch entry. -/
theorem expand_apply (h1 : S512x128.BroadcastsInDim S1x512x128 ![1, 2]) (h2 : S1x512x128.BroadcastsInDim S512x512x128 ![0, 1, 2])
    (h3 : S512x512x128.BroadcastsInDim S1x512x512x128 ![1, 2, 3]) (Y : S512x128.Idx → α) (u : Fin 1) (e : Fin 512) (s : Fin 512) (h : Fin 128) :
    broadcastInDim S1x512x512x128 ![1, 2, 3] h3 (broadcastInDim S512x512x128 ![0, 1, 2] h2 (broadcastInDim S1x512x128 ![1, 2] h1 Y)) (ix4 u e s h)
      = Y (ix2 s h) := by
  rw [unit_apply, batch_apply, lift_apply]

/-- Four [1,512,512,128] planes stacked along the leading axis, read at (b, e, s, h): plane b at (0, e, s, h). -/
theorem cat4_apply (hc : Shape.Concatenates [S1x512x512x128, S1x512x512x128, S1x512x512x128, S1x512x512x128] S4x512x512x128 0)
    (p : Fin 4 → (S1x512x512x128.Idx → α)) (b : Fin 4) (e : Fin 512) (s : Fin 512) (h : Fin 128) :
    concatenate S4x512x512x128 0 [⟨S1x512x512x128, p 0⟩, ⟨S1x512x512x128, p 1⟩, ⟨S1x512x512x128, p 2⟩, ⟨S1x512x512x128, p 3⟩] hc (ix4 b e s h)
      = p b (ix4 (0 : Fin 1) e s h) :=
  concatenate_ofFn_unit_apply (t := S4x512x512x128) (s₁ := S1x512x512x128) 0 p hc rfl rfl (ix4 b e s h) b rfl (ix4 (0 : Fin 1) e s h)
    (fun a ha => by
      match a with
      | ⟨0, _⟩ => exact absurd rfl ha
      | ⟨1, _⟩ => rfl
      | ⟨2, _⟩ => rfl
      | ⟨3, _⟩ => rfl)

/-- Four [1,512,128] rows stacked along the leading axis, read at (b, s, h): row b at (0, s, h). -/
theorem cat3_apply (hc : Shape.Concatenates [S1x512x128, S1x512x128, S1x512x128, S1x512x128] S4x512x128 0)
    (q : Fin 4 → (S1x512x128.Idx → α)) (b : Fin 4) (s : Fin 512) (h : Fin 128) :
    concatenate S4x512x128 0 [⟨S1x512x128, q 0⟩, ⟨S1x512x128, q 1⟩, ⟨S1x512x128, q 2⟩, ⟨S1x512x128, q 3⟩] hc (ix3 b s h)
      = q b (ix3 (0 : Fin 1) s h) :=
  concatenate_ofFn_unit_apply (t := S4x512x128) (s₁ := S1x512x128) 0 q hc rfl rfl (ix3 b s h) b rfl (ix3 (0 : Fin 1) s h)
    (fun a ha => by
      match a with
      | ⟨0, _⟩ => exact absurd rfl ha
      | ⟨1, _⟩ => rfl
      | ⟨2, _⟩ => rfl)

/-! The same two reads with the four pieces as separate variables and the position given by its value, so that a use
    never has to compare a piece with an entry of a vector of pieces. -/

theorem cat4_at0 (hc : Shape.Concatenates [S1x512x512x128, S1x512x512x128, S1x512x512x128, S1x512x512x128] S4x512x512x128 0)
    (p0 p1 p2 p3 : S1x512x512x128.Idx → α) (b : Fin 4) (hb : b.val = 0) (e : Fin 512) (s : Fin 512) (h : Fin 128) :
    concatenate S4x512x512x128 0 [⟨S1x512x512x128, p0⟩, ⟨S1x512x512x128, p1⟩, ⟨S1x512x512x128, p2⟩, ⟨S1x512x512x128, p3⟩] hc (ix4 b e s h)
      = p0 (ix4 (0 : Fin 1) e s h) := by
  obtain rfl : b = 0 := Fin.ext hb
  exact cat4_apply hc ![p0, p1, p2, p3] 0 e s h

theorem cat4_at1 (hc : Shape.Concatenates [S1x512x512x128, S1x512x512x128, S1x512x512x128, S1x512x512x128] S4x512x512x128 0)
    (p0 p1 p2 p3 : S1x512x512x128.Idx → α) (b : Fin 4) (hb : b.val = 1) (e : Fin 512) (s : Fin 512) (h : Fin 128) :
    concatenate S4x512x512x128 0 [⟨S1x512x512x128, p0⟩, ⟨S1x512x512x128, p1⟩, ⟨S1x512x512x128, p2⟩, ⟨S1x512x512x128, p3⟩] hc (ix4 b e s h)
      = p1 (ix4 (0 : Fin 1) e s h) := by
  obtain rfl : b = 1 := Fin.ext hb
  exact cat4_apply hc ![p0, p1, p2, p3] 1 e s h

theorem cat4_at2 (hc : Shape.Concatenates [S1x512x512x128, S1x512x512x128, S1x512x512x128, S1x512x512x128] S4x512x512x128 0)
    (p0 p1 p2 p3 : S1x512x512x128.Idx → α) (b : Fin 4) (hb : b.val = 2) (e : Fin 512) (s : Fin 512) (h : Fin 128) :
    concatenate S4x512x512x128 0 [⟨S1x512x512x128, p0⟩, ⟨S1x512x512x128, p1⟩, ⟨S1x512x512x128, p2⟩, ⟨S1x512x512x128, p3⟩] hc (ix4 b e s h)
      = p2 (ix4 (0 : Fin 1) e s h) := by
  obtain rfl : b = 2 := Fin.ext hb
  exact cat4_apply hc ![p0, p1, p2, p3] 2 e s h

theorem cat4_at3 (hc : Shape.Concatenates [S1x512x512x128, S1x512x512x128, S1x512x512x128, S1x512x512x128] S4x512x512x128 0)
    (p0 p1 p2 p3 : S1x512x512x128.Idx → α) (b : Fin 4) (hb : b.val = 3) (e : Fin 512) (s : Fin 512) (h : Fin 128) :
    concatenate S4x512x512x128 0 [⟨S1x512x512x128, p0⟩, ⟨S1x512x512x128, p1⟩, ⟨S1x512x512x128, p2⟩, ⟨S1x512x512x128, p3⟩] hc (ix4 b e s h)
      = p3 (ix4 (0 : Fin 1) e s h) := by
  obtain rfl : b = 3 := Fin.ext hb
  exact cat4_apply hc ![p0, p1, p2, p3] 3 e s h

theorem cat3_at0 (hc : Shape.Concatenates [S1x512x128, S1x512x128, S1x512x128, S1x512x128] S4x512x128 0)
    (q0 q1 q2 q3 : S1x512x128.Idx → α) (b : Fin 4) (hb : b.val = 0) (s : Fin 512) (h : Fin 128) :
    concatenate S4x512x128 0 [⟨S1x512x128, q0⟩, ⟨S1x512x128, q1⟩, ⟨S1x512x128, q2⟩, ⟨S1x512x128, q3⟩] hc (ix3 b s h)
      = q0 (ix3 (0 : Fin 1) s h) := by
  obtain rfl : b = 0 := Fin.ext hb
  exact cat3_apply hc ![q0, q1, q2, q3] 0 s h

theorem cat3_at1 (hc : Shape.Concatenates [S1x512x128, S1x512x128, S1x512x128, S1x512x128] S4x512x128 0)
    (q0 q1 q2 q3 : S1x512x128.Idx → α) (b : Fin 4) (hb : b.val = 1) (s : Fin 512) (h : Fin 128) :
    concatenate S4x512x128 0 [⟨S1x512x128, q0⟩, ⟨S1x512x128, q1⟩, ⟨S1x512x128, q2⟩, ⟨S1x512x128, q3⟩] hc (ix3 b s h)
      = q1 (ix3 (0 : Fin 1) s h) := by
  obtain rfl : b = 1 := Fin.ext hb
  exact cat3_apply hc ![q0, q1, q2, q3] 1 s h

theorem cat3_at2 (hc : Shape.Concatenates [S1x512x128, S1x512x128, S1x512x128, S1x512x128] S4x512x128 0)
    (q0 q1 q2 q3 : S1x512x128.Idx → α) (b : Fin 4) (hb : b.val = 2) (s : Fin 512) (h : Fin 128) :
    concatenate S4x512x128 0 [⟨S1x512x128, q0⟩, ⟨S1x512x128, q1⟩, ⟨S1x512x128, q2⟩, ⟨S1x512x128, q3⟩] hc (ix3 b s h)
      = q2 (ix3 (0 : Fin 1) s h) := by
  obtain rfl : b = 2 := Fin.ext hb
  exact cat3_apply hc ![q0, q1, q2, q3] 2 s h

theorem cat3_at3 (hc : Shape.Concatenates [S1x512x128, S1x512x128, S1x512x128, S1x512x128] S4x512x128 0)
    (q0 q1 q2 q3 : S1x512x128.Idx → α) (b : Fin 4) (hb : b.val = 3) (s : Fin 512) (h : Fin 128) :
    concatenate S4x512x128 0 [⟨S1x512x128, q0⟩, ⟨S1x512x128, q1⟩, ⟨S1x512x128, q2⟩, ⟨S1x512x128, q3⟩] hc (ix3 b s h)
      = q3 (ix3 (0 : Fin 1) s h) := by
  obtain rfl : b = 3 := Fin.ext hb
  exact cat3_apply hc ![q0, q1, q2, q3] 3 s h

end Cert.StackLayout

end
-- ==== Proof.LibScatterLast.lean ====
/-
  Reading a `Host.scatter` whose body returns the update (a "set") at one cell of its result, with
  NO assumption on the scatter indices: they may repeat, and they may point outside the operand.

  The scatter is a left fold over the update indices in row-major order. Each step overwrites the
  cell its update index lands at; an update index that lands outside the operand is dropped. So a
  cell holds the update of the LAST update index, in row-major order, that lands at it
  (`scatter_set_last`), and the operand's own value when none does (`scatter_set_none`).
-/
import Idealize.ShloMosaic.PureOps.ShapeOps
import Mathlib.Data.List.Sort

namespace Cert.LibScatterLast

open Idealize.ShloMosaic

/-! ## A fold of overwrites, some of them dropped -/

section Fold
variable {ι κ α : Type} [DecidableEq κ]

/-- One step: item `n` overwrites cell `land n` with `upd n` when it lands somewhere, and does nothing otherwise. -/
def step (land : ι → Option κ) (upd : ι → α) (r : κ → α) (n : ι) : κ → α :=
  match land n with
  | some i => fun i' => if i' = i then upd n else r i'
  | none => r

/-- A step whose item does not land at `i` leaves cell `i` alone. -/
theorem step_of_ne (land : ι → Option κ) (upd : ι → α) (r : κ → α) (n : ι) (i : κ) (h : land n ≠ some i) :
    step land upd r n i = r i := by
  unfold step
  cases hl : land n with
  | none => rfl
  | some k =>
    have hne : i ≠ k := fun e => h (by rw [hl, e])
    exact if_neg hne

/-- A step whose item lands at `i` writes its update there. -/
theorem step_of_eq (land : ι → Option κ) (upd : ι → α) (r : κ → α) (n : ι) (i : κ) (h : land n = some i) :
    step land upd r n i = upd n := by
  unfold step
  rw [h]
  exact if_pos rfl

/-- A cell no item of the list lands at keeps its value through the fold. -/
theorem foldl_none (land : ι → Option κ) (upd : ι → α) (i : κ) :
    ∀ (l : List ι) (x : κ → α), (∀ n ∈ l, land n ≠ some i) → l.foldl (step land upd) x i = x i
  | [], _, _ => rfl
  | a :: t, x, h => by
    rw [List.foldl_cons, foldl_none land upd i t _ fun n hn => h n (List.mem_cons_of_mem _ hn)]
    exact step_of_ne land upd x a i (h a List.mem_cons_self)

/-- In a list increasing for a relation `lt`, a cell that item `n` lands at, and no item after `n` does, ends
    holding `n`'s update. -/
theorem foldl_last (land : ι → Option κ) (upd : ι → α) (lt : ι → ι → Prop) (i : κ) (n : ι) (hn : land n = some i) :
    ∀ (l : List ι) (x : κ → α), l.Pairwise lt → n ∈ l → (∀ m ∈ l, lt n m → land m ≠ some i) →
      l.foldl (step land upd) x i = upd n
  | [], _, _, h, _ => absurd h List.not_mem_nil
  | a :: t, x, hp, h, hlast => by
    have hp' := List.pairwise_cons.mp hp
    rw [List.foldl_cons]
    rcases List.mem_cons.mp h with rfl | hm
    · rw [foldl_none land upd i t _ fun m hm => hlast m (List.mem_cons_of_mem _ hm) (hp'.1 m hm)]
      exact step_of_eq land upd x n i hn
    · exact foldl_last land upd lt i n hn t _ hp'.2 hm fun m hm' => hlast m (List.mem_cons_of_mem _ hm')

end Fold

/-! ## The scatter read at a cell -/

section Scatter
variable {α : Type} {s si u : Shape} {w : Nat}

/-- An update index lands at cell `i` exactly when, on every operand axis, its start plus its window coordinate is
    `i`'s coordinate (read as an integer: the start is signed). -/
theorem resultIdx?_eq_some_iff (d : ScatterDims s si u) (j : u.Idx) (idx : IVec si w) (i : s.Idx) :
    d.resultIdx? j idx = some i ↔ ∀ a, d.start j idx a + d.window j a = ((i a).val : Int) := by
  unfold ScatterDims.resultIdx?
  constructor
  · intro h a
    split at h
    · next hc =>
      have ha := congrArg Fin.val (congrFun (Option.some.inj h) a)
      have := (hc a).1
      simp only at ha
      omega
    · exact absurd h (by simp)
  · intro h
    have hc : ∀ a, 0 ≤ d.start j idx a + d.window j a ∧ d.start j idx a + d.window j a < s.size a := fun a => by
      rw [h a]; exact ⟨Int.natCast_nonneg _, by exact_mod_cast (i a).isLt⟩
    rw [dif_pos hc]
    congr 1
    funext a
    refine Fin.ext ?_
    simp only [h a, Int.toNat_natCast]

/-- A scatter whose body returns the update is the fold of overwrites over the update positions in row-major order. -/
theorem scatter_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  dsimp only [step]
  cases d.resultIdx? (u.rowMajor.symm n) idx <;> rfl

/-- The result holds the operand's value at a cell no update index lands at. -/
theorem scatter_set_none (d : ScatterDims s si u) (x : s.Idx → α) (idx : IVec si w) (upd : u.Idx → α) (i : s.Idx)
    (hi : ∀ j : u.Idx, d.resultIdx? j idx ≠ some i) : Host.scatter d (fun _ b => b) x idx upd i = x i := by
  rw [scatter_eq_foldl]
  exact foldl_none _ _ i _ x fun n _ => hi _

/-- The result holds update `j` at the cell it lands at, when no update index after `j` in row-major order lands there. -/
theorem scatter_set_last (d : ScatterDims s si u) (x : s.Idx → α) (idx : IVec si w) (upd : u.Idx → α) (i : s.Idx)
    (j : u.Idx) (hj : d.resultIdx? j idx = some i)
    (hlast : ∀ j' : u.Idx, u.rowMajor j < u.rowMajor j' → d.resultIdx? j' idx ≠ some i) :
    Host.scatter d (fun _ b => b) x idx upd i = upd j := by
  rw [scatter_eq_foldl]
  have h := foldl_last (fun n => d.resultIdx? (u.rowMajor.symm n) idx) (fun n => upd (u.rowMajor.symm n)) (· < ·) i
    (u.rowMajor j) (by simpa using hj) (List.finRange u.numel) x (List.sortedLT_finRange _).pairwise
    (List.mem_finRange _) (fun m _ hlt => hlast (u.rowMajor.symm m) (by simpa using hlt))
  simpa using h

end Scatter

end Cert.LibScatterLast
-- ==== Proof.CompactRows.lean ====
/-
  Compacting rows by a scatter of the rows themselves, against a scatter of the row NUMBERS followed by a gather.

  `x : [262144, 128]` and an arbitrary vector of target slots `tg : [262144, 1]` (32-bit words read signed: they
  may repeat, be negative, be out of range).

  One side scatters the rows of `x` by `tg` into 513 rows of zeros, the later update winning, and keeps rows
  0 … 511. The other side scatters the row numbers 0 … 262143 by `tg` into 513 cells filled with 262144, keeps
  cells 0 … 511, maps a negative cell `c` to `c + 262145`, and gathers those rows from `x` extended by one row of
  zeros (row 262144). `rows_eq`: the two are equal, for every `tg` and `x`, at any float instance.

  Why: a scatter is the left fold of overwrites over the update indices in row-major order, so a cell holds the
  LAST update landing at it, or the operand's value when none does. Update `n` of the number scatter lands at cell
  `tg n` when `0 ≤ tg n < 513`; update `(n, h)` of the row scatter lands at `(tg n, h)` under the same condition.
  Fix a cell `s < 512`. If no `n` has `tg n = s`, the number cell keeps the fill 262144, which is not negative and reads
  the zero row; the row cells keep their zeros. Otherwise let `n*` be the largest such `n`: the number cell holds `n*`,
  not negative and below 262144, so the gather reads `x (n*, h)`; and among the row updates landing at `(s, h)` — the
  `(n, h)` with `tg n = s` — the last in row-major order is `(n*, h)`.
-/
import Idealize.ShloMosaic.Lib.Pipeline.Value
import Idealize.ShloMosaic.Lib.IdealHost
import proofs.«124810_j42863773614188_2_alg».proof.Proof.LibScatterLast

namespace Cert.CompactRows

open Idealize.ShloMosaic Idealize.ShloMosaic.ValueIdx Cert.LibScatterLast

abbrev S_ : Shape := ⟨0, ![]⟩
abbrev S513 : Shape := ⟨1, ![513]⟩
abbrev S512 : Shape := ⟨1, ![512]⟩
abbrev S262144 : Shape := ⟨1, ![262144]⟩
abbrev S512x1 : Shape := ⟨2, ![512, 1]⟩
abbrev S262144x1 : Shape := ⟨2, ![262144, 1]⟩
abbrev S1x128 : Shape := ⟨2, ![1, 128]⟩
abbrev S512x128 : Shape := ⟨2, ![512, 128]⟩
abbrev S513x128 : Shape := ⟨2, ![513, 128]⟩
abbrev S262144x128 : Shape := ⟨2, ![262144, 128]⟩
abbrev S262145x128 : Shape := ⟨2, ![262145, 128]⟩

/-- Target slot of row `n`, read signed. -/
abbrev slot (tg : IVec S262144x1 32) (n : Fin 262144) : Int := (tg (ix2 n (0 : Fin 1))).toInt

/-! ## Where an update of each scatter lands -/

section Land
variable (wfI : ScatterDims.WF S513 S262144x1 S262144 [] [0] [0] 1)
  (wfR : ScatterDims.WF S513x128 S262144x1 S262144x128 [1] [0] [0] 1)

/-- The number scatter's dimension numbers. -/
abbrev dI : ScatterDims S513 S262144x1 S262144 := ⟨[], [0], [0], 1, wfI⟩
/-- The row scatter's dimension numbers. -/
abbrev dR : ScatterDims S513x128 S262144x1 S262144x128 := ⟨[1], [0], [0], 1, wfR⟩

theorem dI_start (tg : IVec S262144x1 32) (n : Fin 262144) (a : Fin 1) : (dI wfI).start (ix1 n) tg a = slot tg n := by
  obtain rfl : a = 0 := Subsingleton.elim _ _
  unfold ScatterDims.start
  rw [dif_pos (show (0 : Fin 1) ∈ (dI wfI).scatterDimsToOperandDims from List.mem_singleton.mpr rfl)]
  have hsi : (dI wfI).siIdx (ix1 n) ⟨List.idxOf (0 : Fin 1) (dI wfI).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem dI_window (n : Fin 262144) (a : Fin 1) : (dI wfI).window (ix1 n) a = 0 := by
  obtain rfl : a = 0 := Subsingleton.elim _ _
  unfold ScatterDims.window
  rw [dif_neg (show (0 : Fin 1) ∉ S513.kept [0] by decide)]

theorem dR_start0 (tg : IVec S262144x1 32) (n : Fin 262144) (h : Fin 128) : (dR wfR).start (ix2 n h) tg 0 = slot tg n := by
  unfold ScatterDims.start
  rw [dif_pos (show (0 : Fin 2) ∈ (dR wfR).scatterDimsToOperandDims from List.mem_singleton.mpr rfl)]
  have hsi : (dR wfR).siIdx (ix2 n h) ⟨List.idxOf (0 : Fin 2) (dR wfR).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem dR_start1 (tg : IVec S262144x1 32) (n : Fin 262144) (h : Fin 128) : (dR wfR).start (ix2 n h) tg 1 = 0 := by
  unfold ScatterDims.start
  rw [dif_neg (show (1 : Fin 2) ∉ ([0] : List (Fin 2)) by decide)]

theorem dR_window0 (n : Fin 262144) (h : Fin 128) : (dR wfR).window (ix2 n h) 0 = 0 := by
  unfold ScatterDims.window
  rw [dif_neg (show (0 : Fin 2) ∉ S513x128.kept [0] by decide)]

theorem dR_window1 (n : Fin 262144) (h : Fin 128) : (dR wfR).window (ix2 n h) 1 = h.val := by
  unfold ScatterDims.window
  rw [dif_pos (show (1 : Fin 2) ∈ S513x128.kept [0] by decide)]
  rfl

/-- Update `n` of the number scatter lands at cell `i` exactly when row `n`'s target slot is `i`. -/
theorem dI_lands (tg : IVec S262144x1 32) (n : Fin 262144) (i : S513.Idx) :
    (dI wfI).resultIdx? (ix1 n) tg = some i ↔ slot tg n = ((i 0).val : Int) := by
  rw [resultIdx?_eq_some_iff]
  constructor
  · intro H
    have h0 := H 0
    rw [dI_start, dI_window] at h0
    omega
  · intro H a
    obtain rfl : a = 0 := Subsingleton.elim _ _
    rw [dI_start, dI_window]
    omega

/-- Update `(n, h)` of the row scatter lands at cell `i` exactly when row `n`'s target slot is `i`'s row and `h` its column. -/
theorem dR_lands (tg : IVec S262144x1 32) (n : Fin 262144) (h : Fin 128) (i : S513x128.Idx) :
    (dR wfR).resultIdx? (ix2 n h) tg = some i ↔ slot tg n = ((i 0).val : Int) ∧ h.val = (i 1).val := by
  rw [resultIdx?_eq_some_iff]
  constructor
  · intro H
    have h0 := H 0
    have h1 := H 1
    rw [dR_start0, dR_window0] at h0
    rw [dR_start1, dR_window1] at h1
    exact ⟨by omega, by omega⟩
  · rintro ⟨H0, H1⟩ a
    match a with
    | ⟨0, _⟩ =>
      show (dR wfR).start (ix2 n h) tg 0 + ((dR wfR).window (ix2 n h) 0 : Nat) = ((i 0).val : Int)
      rw [dR_start0, dR_window0]; omega
    | ⟨1, _⟩ =>
      show (dR wfR).start (ix2 n h) tg 1 + ((dR wfR).window (ix2 n h) 1 : Nat) = ((i 1).val : Int)
      rw [dR_start1, dR_window1]; omega

end Land

/-! ## The gather of rows read at an index -/

section Gather
variable {α : Type} (wfG : GatherDims.WF S262145x128 S512x1 S512x128 [1] [0] [] [0] [] 1 ![1, 128])

/-- The row gather's dimension numbers. -/
abbrev dG : GatherDims S262145x128 S512x1 S512x128 := ⟨[1], [0], [], [], [0], 1, ![1, 128], wfG⟩

/-- Result element `(s, h)` is the operand's at row `idx[s, 0]` — read signed and clamped into `[0, 262144]` — and column `h`. -/
theorem gather_rows_apply (X : S262145x128.Idx → α) (idx : IVec S512x1 32) (s : Fin 512) (h : Fin 128) (r : Fin 262145)
    (hr : r.val = min (idx (ix2 s (0 : Fin 1))).toInt.toNat 262144) :
    Host.gather (dG wfG) X idx (ix2 s h) = X (ix2 r h) := by
  unfold Host.gather
  congr 1
  funext a
  refine Fin.ext ?_
  show (dG wfG).start (ix2 s h) idx a + (dG wfG).batchCoord (ix2 s h) a + (dG wfG).offCoord (ix2 s h) a = _
  rw [GatherDims.batchCoord_eq_zero _ _ _ List.not_mem_nil]
  match a with
  | ⟨0, _⟩ =>
    show (dG wfG).start (ix2 s h) idx 0 + 0 + (dG wfG).offCoord (ix2 s h) 0 = r.val
    rw [hr]
    rw [GatherDims.offCoord_eq_zero _ _ _ (fun hh => ((GatherDims.mem_sKept _ _).mp hh).1 (List.mem_singleton.mpr rfl))]
    simp only [Nat.add_zero]
    unfold GatherDims.start
    rw [dif_pos (show (0 : Fin 2) ∈ (dG wfG).startIndexMap from List.mem_singleton.mpr rfl)]
    have hsi : (dG wfG).siIdx (ix2 s h) ⟨List.idxOf (0 : Fin 2) (dG wfG).startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show (dG wfG).start (ix2 s h) idx 1 + 0 + (dG wfG).offCoord (ix2 s h) 1 = h.val
    have hst : (dG wfG).start (ix2 s h) idx 1 = 0 := by
      unfold GatherDims.start
      rw [dif_neg (show (1 : Fin 2) ∉ ([0] : List (Fin 2)) by decide)]
    have hoff : (dG wfG).offCoord (ix2 s h) 1 = h.val := by
      unfold GatherDims.offCoord
      rw [dif_pos (show (1 : Fin 2) ∈ S262145x128.kept ([0] ++ []) by decide)]
      rfl
    rw [hst, hoff]; omega

end Gather

/-! ## 32-bit words that are small natural numbers -/

/-- A number below 2³¹ reads back signed as itself. -/
theorem toInt_ofNat_small (n : Nat) (hn : n < 262145) : (BitVec.ofNat 32 n).toInt = (n : Int) := by
  rw [BitVec.toInt_eq_toNat_cond, BitVec.toNat_ofNat]
  split <;> omega

/-- … so it is not negative. -/
theorem slt_zero_small (n : Nat) (hn : n < 262145) : IntOp.cmpi .slt (BitVec.ofNat 32 n) 0#32 = 0#1 := by
  have h : (BitVec.ofNat 32 n).slt 0#32 = false := by
    rw [BitVec.slt, toInt_ofNat_small n hn]
    simp
  simp [IntOp.cmpi, h]

/-! ## The index vector at a cell whose number is small -/

section Pick

/-- Where the scattered numbers hold a small number `m` at cell `s`, the start index the gather reads for result row `s` is
    `m`: it is not negative, so the `select` keeps it. -/
theorem pick_small (hb512 : S_.BroadcastsInDim S512 ![]) (hbI : S512.BroadcastsInDim S512x1 ![0]) (I0 : IVec S512 32)
    (s : Fin 512) (m : Nat) (hm : m < 262145) (hI : I0 (ix1 s) = BitVec.ofNat 32 m) :
    broadcastInDim S512x1 ![0] hbI
        (select (cmpi .slt I0 (broadcastInDim S512 ![] hb512 (constantI S_ 32 0#32)))
          (addi I0 (broadcastInDim S512 ![] hb512 (constantI S_ 32 262145#32))) I0) (ix2 s (0 : Fin 1))
      = BitVec.ofNat 32 m := by
  rw [broadcastInDim_apply ![0] hbI _ (ix2 s (0 : Fin 1)) (ix1 s) (fun a => by
    obtain rfl : a = 0 := Subsingleton.elim _ _
    rw [if_neg (show ¬ S512.size 0 = 1 by decide)]
    rfl)]
  show Scalar.select (IntOp.cmpi .slt (I0 (ix1 s)) 0#32) (IntOp.addi (I0 (ix1 s)) 262145#32) (I0 (ix1 s)) = _
  rw [hI, slt_zero_small m hm, select_zero]

end Pick

/-! ## The two sides are equal -/

section Main
variable {F : FTy → Type} [FloatOps F]

theorem rows_eq
    (wfR : ScatterDims.WF S513x128 S262144x1 S262144x128 [1] [0] [0] 1)
    (wfI : ScatterDims.WF S513 S262144x1 S262144 [] [0] [0] 1)
    (wfG : GatherDims.WF S262145x128 S512x1 S512x128 [1] [0] [] [0] [] 1 ![1, 128])
    (hbZ : S_.BroadcastsInDim S513x128 ![]) (hbZ1 : S_.BroadcastsInDim S1x128 ![])
    (hbF : S_.BroadcastsInDim S513 ![]) (hb512 : S_.BroadcastsInDim S512 ![])
    (hbI : S512.BroadcastsInDim S512x1 ![0])
    (hsR : S513x128.Slices ![0, 0] S512x128) (hsI : S513.Slices ![0] S512)
    (hcat : Shape.Concatenates [S262144x128, S1x128] S262145x128 0)
    (tg : IVec S262144x1 32) (x : FVec F S262144x128 .f32) :
    extractStridedSlice S512x128 ![0, 0]
        (Host.scatter (⟨[1], [0], [0], 1, wfR⟩ : ScatterDims S513x128 S262144x1 S262144x128) (fun _ b => b)
          (broadcastInDim S513x128 ![] hbZ (constant S_ .f32 0x00000000#32)) tg x) hsR
      = Host.gather (⟨[1], [0], [], [], [0], 1, ![1, 128], wfG⟩ : GatherDims S262145x128 S512x1 S512x128)
          (concatenate S262145x128 0
            [⟨S262144x128, x⟩, ⟨S1x128, broadcastInDim S1x128 ![] hbZ1 (constant S_ .f32 0x00000000#32)⟩] hcat)
          (broadcastInDim S512x1 ![0] hbI
            (select
              (cmpi .slt
                (extractStridedSlice S512 ![0]
                  (Host.scatter (⟨[], [0], [0], 1, wfI⟩ : ScatterDims S513 S262144x1 S262144) (fun _ b => b)
                    (broadcastInDim S513 ![] hbF (constantI S_ 32 262144#32)) tg (iotaInDim S262144 32 0)) hsI)
                (broadcastInDim S512 ![] hb512 (constantI S_ 32 0#32)))
              (addi
                (extractStridedSlice S512 ![0]
                  (Host.scatter (⟨[], [0], [0], 1, wfI⟩ : ScatterDims S513 S262144x1 S262144) (fun _ b => b)
                    (broadcastInDim S513 ![] hbF (constantI S_ 32 262144#32)) tg (iotaInDim S262144 32 0)) hsI)
                (broadcastInDim S512 ![] hb512 (constantI S_ 32 262145#32)))
              (extractStridedSlice S512 ![0]
                (Host.scatter (⟨[], [0], [0], 1, wfI⟩ : ScatterDims S513 S262144x1 S262144) (fun _ b => b)
                  (broadcastInDim S513 ![] hbF (constantI S_ 32 262144#32)) tg (iotaInDim S262144 32 0)) hsI))) := by
  funext j
  obtain ⟨s, h, rfl⟩ : ∃ (s : Fin 512) (h : Fin 128), j = ix2 s h := ⟨j 0, j 1, eq_ix2 j⟩
  -- the cell as a cell of the 513-row buffers
  have hs513 : s.val < 513 := by omega
  -- left: the slice reads the row scatter at row `s`
  rw [extractStridedSlice_apply ![0, 0] _ hsR (ix2 s h) (ix2 (⟨s.val, hs513⟩ : Fin 513) h) (fun a => by
    match a with
    | ⟨0, _⟩ => show s.val = 0 + s.val; omega
    | ⟨1, _⟩ => show h.val = 0 + h.val; omega)]
  -- the scattered numbers at cell `s`
  have hI0 : ∀ v : BitVec 32,
      Host.scatter (dI wfI) (fun _ b => b) (broadcastInDim S513 ![] hbF (constantI S_ 32 262144#32)) tg
        (iotaInDim S262144 32 0) (ix1 (⟨s.val, hs513⟩ : Fin 513)) = v →
      extractStridedSlice S512 ![0]
        (Host.scatter (dI wfI) (fun _ b => b) (broadcastInDim S513 ![] hbF (constantI S_ 32 262144#32)) tg
          (iotaInDim S262144 32 0)) hsI (ix1 s) = v := fun v hv => by
    rw [extractStridedSlice_apply ![0] _ hsI (ix1 s) (ix1 (⟨s.val, hs513⟩ : Fin 513)) (fun a => by
      obtain rfl : a = 0 := Subsingleton.elim _ _
      show s.val = 0 + s.val; omega)]
    exact hv
  by_cases hex : ∃ n : Fin 262144, slot tg n = (s.val : Int)
  · -- the last row whose target slot is `s`
    obtain ⟨n, hn, hmax⟩ : ∃ n : Fin 262144, slot tg n = (s.val : Int) ∧ ∀ m : Fin 262144, slot tg m = (s.val : Int) → m ≤ n := by
      obtain ⟨n0, hn0⟩ := hex
      obtain ⟨n, hn, hmax⟩ := Finset.exists_max_image (Finset.univ.filter fun m : Fin 262144 => slot tg m = (s.val : Int)) id
        ⟨n0, Finset.mem_filter.mpr ⟨Finset.mem_univ _, hn0⟩⟩
      exact ⟨n, (Finset.mem_filter.mp hn).2, fun m hm => hmax m (Finset.mem_filter.mpr ⟨Finset.mem_univ _, hm⟩)⟩
    -- the number cell holds `n`
    have hnum := hI0 (BitVec.ofNat 32 n.val) (by
      rw [scatter_set_last (dI wfI) _ tg _ _ (ix1 n) ((dI_lands wfI tg n _).mpr hn) (fun j' hlt hj' => by
        obtain ⟨m, rfl⟩ : ∃ m : Fin 262144, j' = ix1 m := ⟨j' 0, eq_ix1 j'⟩
        have hm := hmax m ((dI_lands wfI tg m _).mp hj')
        rw [Fin.lt_def, Shape.rowMajor_val_one, Shape.rowMajor_val_one] at hlt
        have : m.val ≤ n.val := hm
        have : n.val < m.val := hlt
        omega)]
      rfl)
    have hnlt : n.val < 262145 := by omega
    have hp := pick_small hb512 hbI _ s n.val hnlt hnum
    rw [gather_rows_apply wfG _ _ s h (⟨n.val, hnlt⟩ : Fin 262145) (by
      rw [hp, toInt_ofNat_small n.val hnlt]; show n.val = min (n.val : Int).toNat 262144; omega)]
    -- the row cell holds row `n` of `x`
    rw [scatter_set_last (dR wfR) _ tg x _ (ix2 n h) ((dR_lands wfR tg n h _).mpr ⟨hn, rfl⟩) (fun j' hlt hj' => by
      obtain ⟨m, h', rfl⟩ : ∃ (m : Fin 262144) (h' : Fin 128), j' = ix2 m h' := ⟨j' 0, j' 1, eq_ix2 j'⟩
      obtain ⟨hm, hh⟩ := (dR_lands wfR tg m h' _).mp hj'
      have hmn : m.val ≤ n.val := hmax m hm
      rw [Fin.lt_def, Shape.rowMajor_val_two, Shape.rowMajor_val_two] at hlt
      have hlt' : n.val * 128 + h.val < m.val * 128 + h'.val := hlt
      have hh' : h'.val = h.val := hh
      omega)]
    -- and the gather reads it
    exact (concatenate_pair_apply_left (t := S262145x128) (s₁ := S262144x128) (s₂ := S1x128) 0 x _ hcat (ix2 (⟨n.val, hnlt⟩ : Fin 262145) h) rfl (ix2 n h) (fun b => by
      match b with
      | ⟨0, _⟩ => rfl
      | ⟨1, _⟩ => rfl)).symm
  · -- no row has target slot `s`: the number cell keeps the fill, the row cells their zeros
    have hnum := hI0 (BitVec.ofNat 32 262144) (by
      rw [scatter_set_none (dI wfI) _ tg _ _ (fun j' hj' => by
        obtain ⟨m, rfl⟩ : ∃ m : Fin 262144, j' = ix1 m := ⟨j' 0, eq_ix1 j'⟩
        exact hex ⟨m, (dI_lands wfI tg m _).mp hj'⟩)]
      rfl)
    have hp := pick_small hb512 hbI _ s 262144 (by omega) hnum
    rw [gather_rows_apply wfG _ _ s h (⟨262144, by omega⟩ : Fin 262145) (by
      rw [hp, toInt_ofNat_small 262144 (by omega)]; show 262144 = min ((262144 : Nat) : Int).toNat 262144; omega)]
    rw [scatter_set_none (dR wfR) _ tg x _ (fun j' hj' => by
      obtain ⟨m, h', rfl⟩ : ∃ (m : Fin 262144) (h' : Fin 128), j' = ix2 m h' := ⟨j' 0, j' 1, eq_ix2 j'⟩
      exact hex ⟨m, ((dR_lands wfR tg m h' _).mp hj').1⟩)]
    refine Eq.trans (b := broadcastInDim S1x128 ![] hbZ1 (constant (F := F) S_ .f32 0x00000000#32) (ix2 (0 : Fin 1) h)) rfl ?_
    exact (concatenate_pair_apply_right (t := S262145x128) (s₁ := S262144x128) (s₂ := S1x128) 0 x _ hcat (ix2 (⟨262144, by omega⟩ : Fin 262145) h) rfl rfl (ix2 (0 : Fin 1) h) (fun b hb => by
      match b with
      | ⟨0, _⟩ => exact absurd rfl hb
      | ⟨1, _⟩ => rfl) (by
        show 0 + 262144 = 262144
        omega)).symm

end Main

end Cert.CompactRows
-- ==== Proof.Bridge.lean ====
/-
  The reference's result and the kernel program's result are the same array.

  Both are four planes, one per behaviour type `k` = 1 … 4, stacked along the leading axis; plane `k` at batch entry `e`,
  row `s`, column `h` does not depend on `e`. On the reference side it is the rows of the flattened first argument
  scattered by the target slots of type `k` into 513 zero rows, rows 0 … 511 kept, read at `(s, h)`. On the kernel side
  it is the stacked array's entry `(k, s, h)`: the row NUMBERS scattered by the same target slots, and the rows gathered
  by those numbers from the flattened first argument extended by one zero row. The target slots are the same vector on
  both sides (the same chain of operations of the second argument), and the two compactions agree for every vector of
  target slots (`Cert.CompactRows.rows_eq`).
-/
import proofs.«124810_j42863773614188_2_alg».proof.Proof.RefTerm
import proofs.«124810_j42863773614188_2_alg».proof.Proof.KIHostDefs
import proofs.«124810_j42863773614188_2_alg».proof.Proof.KIValueB
import proofs.«124810_j42863773614188_2_alg».proof.Proof.StackLayout
import proofs.«124810_j42863773614188_2_alg».proof.Proof.CompactRows

noncomputable section

namespace Cert.Bridge

open Idealize.ShloMosaic Idealize.ShloMosaic.ValueIdx

variable {F : FTy → Type} [FloatOps F]

/-- The target slots of behaviour type `k` are the same vector in the two programs. -/
theorem tgt_eq (k : BitVec 32) (a1 : IVec Cert.KernelIdeal.S512x512 32) :
    Cert.ReferenceIdeal.RefRun.tgt (F := F) k a1 = Cert.KernelIdeal.Frame.tgt k a1 := rfl

/-- Plane `k` of the reference at `(0, e, s, h)` is row `k` of the kernel's stack at `(0, s, h)`. -/
theorem plane_eq (k : BitVec 32) (a0 : FVec F Cert.KernelIdeal.S512x512x128 .f32) (a1 : IVec Cert.KernelIdeal.S512x512 32)
    (u : Fin 1) (e s : Fin 512) (h : Fin 128) :
    Cert.ReferenceIdeal.RefRun.plane k a0 a1 (ix4 u e s h)
      = Cert.KernelIdeal.Frame.liftRow (Cert.KernelIdeal.Frame.gatherRow k a0 a1) (ix3 u s h) := by
  unfold Cert.ReferenceIdeal.RefRun.plane Cert.KernelIdeal.Frame.liftRow
  refine (Cert.StackLayout.expand_apply _ _ _ _ u e s h).trans ?_
  refine Eq.trans ?_ (Cert.StackLayout.lift_apply _ _ u s h).symm
  unfold Cert.KernelIdeal.Frame.gatherRow Cert.KernelIdeal.Frame.rowIdx
  rw [tgt_eq]
  exact congrFun (Cert.CompactRows.rows_eq _ _ _ _ _ _ _ _ _ _ _ _ _) (ix2 s h)

/-- The kernel side read at an index: the stack at (b, s, h). -/
theorem bcast_stack_apply (a0 : FVec F Cert.KernelIdeal.S512x512x128 .f32) (a1 : IVec Cert.KernelIdeal.S512x512 32)
    (b : Fin 4) (e s : Fin 512) (h : Fin 128) :
    Cert.KernelIdeal.Frame.bcastRows (Cert.KernelIdeal.Frame.stack a0 a1) (ix4 b e s h)
      = Cert.KernelIdeal.Frame.stack a0 a1 (ix3 b s h) := rfl

-- The planes and rows are compared by name here: a comparison of two of them must not open them.
attribute [local irreducible] Cert.ReferenceIdeal.RefRun.plane Cert.KernelIdeal.Frame.gatherRow
  Cert.KernelIdeal.Frame.liftRow in
/-- The reference's result at (b, e, s, h) is the kernel's stacked array at (b, s, h): plane b against row b. -/
theorem out_at (a0 : FVec F Cert.KernelIdeal.S512x512x128 .f32) (a1 : IVec Cert.KernelIdeal.S512x512 32)
    (b : Fin 4) (e s : Fin 512) (h : Fin 128) :
    Cert.ReferenceIdeal.RefRun.out a0 a1 (ix4 b e s h) = Cert.KernelIdeal.Frame.stack a0 a1 (ix3 b s h) := by
  unfold Cert.ReferenceIdeal.RefRun.out Cert.KernelIdeal.Frame.stack
  match b with
  | ⟨0, _⟩ =>
    refine (Cert.StackLayout.cat4_at0 _ _ _ _ _ _ rfl e s h).trans ?_
    refine Eq.trans ?_ (Cert.StackLayout.cat3_at0 _ _ _ _ _ _ rfl s h).symm
    exact plane_eq 1#32 a0 a1 0 e s h
  | ⟨1, _⟩ =>
    refine (Cert.StackLayout.cat4_at1 _ _ _ _ _ _ rfl e s h).trans ?_
    refine Eq.trans ?_ (Cert.StackLayout.cat3_at1 _ _ _ _ _ _ rfl s h).symm
    exact plane_eq 2#32 a0 a1 0 e s h
  | ⟨2, _⟩ =>
    refine (Cert.StackLayout.cat4_at2 _ _ _ _ _ _ rfl e s h).trans ?_
    refine Eq.trans ?_ (Cert.StackLayout.cat3_at2 _ _ _ _ _ _ rfl s h).symm
    exact plane_eq 3#32 a0 a1 0 e s h
  | ⟨3, _⟩ =>
    refine (Cert.StackLayout.cat4_at3 _ _ _ _ _ _ rfl e s h).trans ?_
    refine Eq.trans ?_ (Cert.StackLayout.cat3_at3 _ _ _ _ _ _ rfl s h).symm
    exact plane_eq 4#32 a0 a1 0 e s h

/-- The reference's result is the kernel's stacked array repeated along the batch axis. -/
theorem out_eq (a0 : FVec F Cert.KernelIdeal.S512x512x128 .f32) (a1 : IVec Cert.KernelIdeal.S512x512 32) :
    Cert.ReferenceIdeal.RefRun.out a0 a1 = Cert.KernelIdeal.Frame.bcastRows (Cert.KernelIdeal.Frame.stack a0 a1) := by
  funext i
  obtain ⟨b, e, s, h, rfl⟩ : ∃ (b : Fin 4) (e : Fin 512) (s : Fin 512) (h : Fin 128), i = ix4 b e s h :=
    ⟨i 0, i 1, i 2, i 3, eq_ix4 i⟩
  rw [bcast_stack_apply]
  exact out_at a0 a1 b e s h

end Cert.Bridge

end
-- ==== Proof.Claims.lean ====
/-
  The five claims. Both programs compute, for each behaviour type k = 1..4, the sequence of the last (at most 512)
  positions of the flattened input whose type is k, right-aligned in 512 slots with zero rows in the unfilled slots,
  and repeat it along a batch axis of 512. The reference scatters the ROWS of the flattened embeddings by slot into a
  zeroed 513-row buffer and drops the last (dustbin) row; the kernel program scatters only the row NUMBERS by the
  same slots, gathers the rows from the embeddings padded with one zero row, stacks the four sequences, and its
  pipelined region copies row t of the stack into every batch entry of block (t, b) of the result. A scatter that
  overwrites leaves in each cell the last update landing on it, in both programs in the same order of rows; so the
  row scattered into slot s is the row whose number was scattered into slot s, and an unfilled slot holds zero on
  both sides. No law of the extended reals is needed: the precondition is never opened.
-/
import proofs.«124810_j42863773614188_2_alg».proof.Defs
import proofs.«124810_j42863773614188_2_alg».proof.Proof.KFrame
import proofs.«124810_j42863773614188_2_alg».proof.Proof.KIHost
import proofs.«124810_j42863773614188_2_alg».proof.Proof.RefRunFrame
import proofs.«124810_j42863773614188_2_alg».proof.Proof.RefRunOut
import proofs.«124810_j42863773614188_2_alg».proof.Proof.Bridge

noncomputable section

namespace Cert.Proof.Claims

open Idealize.ShloMosaic Idealize.ShloMosaic.TcCoe Idealize.SL.Sem

/-- The word-level kernel program runs and leaves both argument arrays as launched. -/
theorem frame_k : Cert.frame_Kernel (hKernel := Cert.Kernel.Gen.facts) (hPre_finite_inputs := Cert.Pre_finite_inputs.Gen.facts) :=
  fun m ρ _ => Cert.Kernel.Frame.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- And the reference. -/
theorem frame_ri : Cert.frame_ReferenceIdeal (hReferenceIdeal := Cert.ReferenceIdeal.Gen.facts) (hPre_finite_inputs := Cert.Pre_finite_inputs.Gen.facts) :=
  Cert.ReferenceIdeal.RefRun.frame_ri

/-- The idealization rewrote no operation. -/
theorem preserves : Cert.preserves_Kernel_KernelIdeal := trivial

/-- From memories agreeing on the arguments both programs end with the same result array: the kernel program's is the
    stacked compacted sequences repeated along the batch axis, the reference's its four broadcast planes, and these are
    one function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Frame.run_value (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRun.OUT_eq, (hagree c).1, (hagree c).2]
  exact Cert.Bridge.out_eq _ _

end Cert.Proof.Claims

end
-- ==== Proof.lean ====
/-
  The certificate of the compact-and-broadcast kernel against its reference: the three programs run to the end without
  a fault and leave their argument arrays unchanged, the idealization rewrote nothing, and the idealized kernel program
  and the idealized reference end with the same [4,512,512,128] result (Proof/Claims.lean says why).
-/
import proofs.«124810_j42863773614188_2_alg».proof.Defs
import proofs.«124810_j42863773614188_2_alg».proof.Proof.Gen.Kernel
import proofs.«124810_j42863773614188_2_alg».proof.Proof.Gen.KernelIdeal
import proofs.«124810_j42863773614188_2_alg».proof.Proof.Gen.ReferenceIdeal
import proofs.«124810_j42863773614188_2_alg».proof.Proof.Gen.Pre_finite_inputs
import proofs.«124810_j42863773614188_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
